-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64x128 .f32) (main_arg13 : FVec F S64x128 .f32) (main_arg14 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64x128 .f32 := Host.absf main_arg13
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S64x128 .f32) (main_arg13 : FVec F S64x128 .f32) (main_arg14 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128x128 .f32) (main_arg8 : FVec F S128x128 .f32) (main_arg9 : FVec F S128 .f32) (main_arg10 : FVec F S128 .f32) (main_arg11 : FVec F S128 .f32) (main_arg12 : FVec F S64x128 .f32) (main_arg13 : FVec F S64x128 .f32) (main_arg14 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128 .f32) (main_arg6 : FVec F S128 .f32) (main_arg7 : FVec F S128x128 .f32) (main_arg8 : FVec F S128x128 .f32) (main_arg9 : FVec F S128 .f32) (main_arg10 : FVec F S128 .f32) (main_arg11 : FVec F S128 .f32) (main_arg12 : FVec F S64x128 .f32) (main_arg13 : FVec F S64x128 .f32) (main_arg14 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S128x64 : Shape := ⟨2, ![128, 64]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 167
  | .vmem => 39
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128, .f32⟩
  | 6 => ⟨S128, .f32⟩
  | 7 => ⟨S128x128, .f32⟩
  | 8 => ⟨S128x128, .f32⟩
  | 9 => ⟨S128, .f32⟩
  | 10 => ⟨S128, .f32⟩
  | 11 => ⟨S128, .f32⟩
  | 12 => ⟨S64x128, .f32⟩
  | 13 => ⟨S64x128, .f32⟩
  | 14 => ⟨S64, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S_, .f32⟩
  | 29 => ⟨S50000, .f32⟩
  | 30 => ⟨S50000, .f32⟩
  | 31 => ⟨S50000x1, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S50000x128, .f32⟩
  | 46 => ⟨S50000x128, .f32⟩
  | 47 => ⟨S128x128, .f32⟩
  | 48 => ⟨S128x128, .f32⟩
  | 49 => ⟨S1x128, .f32⟩
  | 50 => ⟨S50000x128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S50000x128, .f32⟩
  | 64 => ⟨S50000x128, .f32⟩
  | 65 => ⟨S50000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S_, .f32⟩
  | 80 => ⟨S128, .f32⟩
  | 81 => ⟨S128, .f32⟩
  | 82 => ⟨S128, .f32⟩
  | 83 => ⟨S128, .f32⟩
  | 84 => ⟨S1x128, .f32⟩
  | 85 => ⟨S128, .f32⟩
  | 86 => ⟨S128, .f32⟩
  | 87 => ⟨S128, .f32⟩
  | 88 => ⟨S1x128, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S50000x128, .f32⟩
  | 104 => ⟨S50000x128, .f32⟩
  | 105 => ⟨S128x128, .f32⟩
  | 106 => ⟨S128x128, .f32⟩
  | 107 => ⟨S1x128, .f32⟩
  | 108 => ⟨S50000x128, .f32⟩
  | 109 => ⟨S_, .f32⟩
  | 110 => ⟨S128, .f32⟩
  | 111 => ⟨S_, .f32⟩
  | 112 => ⟨S128, .f32⟩
  | 113 => ⟨S128, .f32⟩
  | 114 => ⟨S_, .i32⟩
  | 115 => ⟨S_, .f32⟩
  | 116 => ⟨S128, .f32⟩
  | 117 => ⟨S1x128, .f32⟩
  | 118 => ⟨S_, .f32⟩
  | 119 => ⟨S1x128, .f32⟩
  | 120 => ⟨S1x128, .f32⟩
  | 121 => ⟨S50000x128, .f32⟩
  | 122 => ⟨S50000x128, .f32⟩
  | 123 => ⟨S50000x128, .f32⟩
  | 124 => ⟨S_, .f32⟩
  | 125 => ⟨S_, .f32⟩
  | 126 => ⟨S_, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S128, .f32⟩
  | 3 => ⟨S_, .f32⟩
  | 4 => ⟨S_, .i1⟩
  | 5 => ⟨S_, .f32⟩
  | 6 => ⟨S_, .f32⟩
  | 7 => ⟨S128, .f32⟩
  | 8 => ⟨S128, .f32⟩
  | 9 => ⟨S_, .f32⟩
  | 10 => ⟨S128, .f32⟩
  | 11 => ⟨S128, .f32⟩
  | 12 => ⟨S128, .f32⟩
  | 13 => ⟨S128, .f32⟩
  | 14 => ⟨S1x128, .f32⟩
  | 15 => ⟨S128, .f32⟩
  | 16 => ⟨S128, .f32⟩
  | 17 => ⟨S128, .f32⟩
  | 18 => ⟨S1x128, .f32⟩
  | 19 => ⟨S50000x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S50000x128, .f32⟩
  | 34 => ⟨S50000x128, .f32⟩
  | 35 => ⟨S128x64, .f32⟩
  | 36 => ⟨S128x64, .f32⟩
  | 37 => ⟨S1x64, .f32⟩
  | 38 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x64, .f32⟩
  | .local _ .vmem, ⟨35, _⟩ => ⟨S128x64, .f32⟩
  | .local _ .vmem, ⟨36, _⟩ => ⟨S1x64, .f32⟩
  | .local _ .vmem, ⟨37, _⟩ => ⟨S2000x64, .f32⟩
  | .local _ .vmem, ⟨38, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_cst_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_cst_1 : Ref sig .tc := ⟨.hbm, 67, rfl⟩
abbrev main_call0_v8 : Ref sig .tc := ⟨.hbm, 68, rfl⟩
abbrev main_call0_cst_2 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_cst_3 : Ref sig .tc := ⟨.hbm, 73, rfl⟩
abbrev main_call0_v12 : Ref sig .tc := ⟨.hbm, 74, rfl⟩
abbrev main_call0_cst_4 : Ref sig .tc := ⟨.hbm, 75, rfl⟩
abbrev main_call0_call0_v0 : Ref sig .tc := ⟨.hbm, 76, rfl⟩
abbrev main_call0_call0_v1 : Ref sig .tc := ⟨.hbm, 77, rfl⟩
abbrev main_v32 : Ref sig .tc := ⟨.hbm, 78, rfl⟩
abbrev main_cst_8 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_c_9 : Ref sig .tc := ⟨.hbm, 90, rfl⟩
abbrev main_v43 : Ref sig .tc := ⟨.hbm, 91, rfl⟩
abbrev main_v44 : Ref sig .tc := ⟨.hbm, 92, rfl⟩
abbrev main_c_10 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_11 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_12 : Ref sig .tc := ⟨.hbm, 109, rfl⟩
abbrev main_v59 : Ref sig .tc := ⟨.hbm, 110, rfl⟩
abbrev main_cst_13 : Ref sig .tc := ⟨.hbm, 111, rfl⟩
abbrev main_v60 : Ref sig .tc := ⟨.hbm, 112, rfl⟩
abbrev main_v61 : Ref sig .tc := ⟨.hbm, 113, rfl⟩
abbrev main_c_14 : Ref sig .tc := ⟨.hbm, 114, rfl⟩
abbrev main_call1_cst : Ref sig .tc := ⟨.hbm, 115, rfl⟩
abbrev main_call1_v0 : Ref sig .tc := ⟨.hbm, 116, rfl⟩
abbrev main_call1_v1 : Ref sig .tc := ⟨.hbm, 117, rfl⟩
abbrev main_call1_cst_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_cst_1 : Ref sig .tc := ⟨.hbm, 125, rfl⟩
abbrev main_call1_v8 : Ref sig .tc := ⟨.hbm, 126, rfl⟩
abbrev main_call1_cst_2 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_call1_cst_3 : Ref sig .tc := ⟨.hbm, 131, rfl⟩
abbrev main_call1_v12 : Ref sig .tc := ⟨.hbm, 132, rfl⟩
abbrev main_call1_cst_4 : Ref sig .tc := ⟨.hbm, 133, rfl⟩
abbrev main_call1_call0_v0 : Ref sig .tc := ⟨.hbm, 134, rfl⟩
abbrev main_call1_call0_v1 : Ref sig .tc := ⟨.hbm, 135, rfl⟩
abbrev main_v62 : Ref sig .tc := ⟨.hbm, 136, rfl⟩
abbrev main_cst_15 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_c_16 : Ref sig .tc := ⟨.hbm, 148, rfl⟩
abbrev main_v73 : Ref sig .tc := ⟨.hbm, 149, rfl⟩
abbrev main_v74 : Ref sig .tc := ⟨.hbm, 150, rfl⟩
abbrev main_c_17 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_cst_18 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem5_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x64.size a ≤ S50000x64.size a
  hwx4_5 : ∀ i : grid4.Coords, EltTy.bits .f32 = 32 ∨ (Rect.block (s := S50000x64) S2000x64.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v84) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v85) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v87) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S2000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 212
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128, .f32⟩
  | 6 => ⟨S128, .f32⟩
  | 7 => ⟨S128x128, .f32⟩
  | 8 => ⟨S128x128, .f32⟩
  | 9 => ⟨S128, .f32⟩
  | 10 => ⟨S128, .f32⟩
  | 11 => ⟨S128, .f32⟩
  | 12 => ⟨S64x128, .f32⟩
  | 13 => ⟨S64x128, .f32⟩
  | 14 => ⟨S64, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S128x128, .f32⟩
  | 45 => ⟨S50000x128, .f32⟩
  | 46 => ⟨S128x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S_, .f32⟩
  | 109 => ⟨S50000x128, .f32⟩
  | 110 => ⟨S800000x1, .i32⟩
  | 111 => ⟨S50000x128, .f32⟩
  | 112 => ⟨S_, .f32⟩
  | 113 => ⟨S800000, .f32⟩
  | 114 => ⟨S_, .f32⟩
  | 115 => ⟨S50000, .f32⟩
  | 116 => ⟨S800000x1, .i32⟩
  | 117 => ⟨S50000, .f32⟩
  | 118 => ⟨S_, .f32⟩
  | 119 => ⟨S50000, .f32⟩
  | 120 => ⟨S50000, .f32⟩
  | 121 => ⟨S50000x1, .f32⟩
  | 122 => ⟨S50000x128, .f32⟩
  | 123 => ⟨S50000x128, .f32⟩
  | 124 => ⟨S128x128, .f32⟩
  | 125 => ⟨S50000x128, .f32⟩
  | 126 => ⟨S128x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S50000x128, .f32⟩
  | 17 => ⟨S50000x128, .f32⟩
  | 18 => ⟨S50000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S128, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S_, .f32⟩
  | 65 => ⟨S800000, .f32⟩
  | 66 => ⟨S_, .f32⟩
  | 67 => ⟨S50000, .f32⟩
  | 68 => ⟨S800000x1, .i32⟩
  | 69 => ⟨S50000, .f32⟩
  | 70 => ⟨S_, .f32⟩
  | 71 => ⟨S50000, .f32⟩
  | 72 => ⟨S50000, .f32⟩
  | 73 => ⟨S50000x1, .f32⟩
  | 74 => ⟨S50000x128, .f32⟩
  | 75 => ⟨S50000x128, .f32⟩
  | 76 => ⟨S128x64, .f32⟩
  | 77 => ⟨S50000x64, .f32⟩
  | 78 => ⟨S128x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_7 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_call1_cst : Ref sig .tc := ⟨.hbm, 96, rfl⟩
abbrev main_call1_v0 : Ref sig .tc := ⟨.hbm, 97, rfl⟩
abbrev main_v50 : Ref sig .tc := ⟨.hbm, 98, rfl⟩
abbrev main_c_8 : Ref sig .tc := ⟨.hbm, 99, rfl⟩
abbrev main_v51 : Ref sig .tc := ⟨.hbm, 100, rfl⟩
abbrev main_v52 : Ref sig .tc := ⟨.hbm, 101, rfl⟩
abbrev main_c_9 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_10 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_11 : Ref sig .tc := ⟨.hbm, 112, rfl⟩
abbrev main_v61 : Ref sig .tc := ⟨.hbm, 113, rfl⟩
abbrev main_cst_12 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_13 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_14 : Ref sig .tc := ⟨.hbm, 132, rfl⟩
abbrev main_v78 : Ref sig .tc := ⟨.hbm, 133, rfl⟩
abbrev main_cst_15 : Ref sig .tc := ⟨.hbm, 134, rfl⟩
abbrev main_v79 : Ref sig .tc := ⟨.hbm, 135, rfl⟩
abbrev main_v80 : Ref sig .tc := ⟨.hbm, 136, rfl⟩
abbrev main_c_16 : Ref sig .tc := ⟨.hbm, 137, rfl⟩
abbrev main_call2_cst : Ref sig .tc := ⟨.hbm, 138, rfl⟩
abbrev main_call2_v0 : Ref sig .tc := ⟨.hbm, 139, rfl⟩
abbrev main_call2_v1 : Ref sig .tc := ⟨.hbm, 140, rfl⟩
abbrev main_call2_cst_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_cst_1 : Ref sig .tc := ⟨.hbm, 148, rfl⟩
abbrev main_call2_v8 : Ref sig .tc := ⟨.hbm, 149, rfl⟩
abbrev main_call2_cst_2 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_cst_3 : Ref sig .tc := ⟨.hbm, 154, rfl⟩
abbrev main_call2_v12 : Ref sig .tc := ⟨.hbm, 155, rfl⟩
abbrev main_call2_cst_4 : Ref sig .tc := ⟨.hbm, 156, rfl⟩
abbrev main_call2_call0_v0 : Ref sig .tc := ⟨.hbm, 157, rfl⟩
abbrev main_call2_call0_v1 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_cst_17 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_call3_cst : Ref sig .tc := ⟨.hbm, 176, rfl⟩
abbrev main_call3_v0 : Ref sig .tc := ⟨.hbm, 177, rfl⟩
abbrev main_v97 : Ref sig .tc := ⟨.hbm, 178, rfl⟩
abbrev main_c_18 : Ref sig .tc := ⟨.hbm, 179, rfl⟩
abbrev main_v98 : Ref sig .tc := ⟨.hbm, 180, rfl⟩
abbrev main_v99 : Ref sig .tc := ⟨.hbm, 181, rfl⟩
abbrev main_c_19 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_cst_20 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_cst_21 : Ref sig .tc := ⟨.hbm, 192, rfl⟩
abbrev main_v108 : Ref sig .tc := ⟨.hbm, 193, rfl⟩
abbrev main_cst_22 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_23 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The two programs, written once as compositions of whole-array stages.

  A GraphSAGE network of three layers over 50000 nodes and 800000 edges.  One layer: every node's row is replaced by
  the mean of its in-neighbours' rows (rows gathered at the edges' sources, summed into the edges' targets, divided by
  the in-degree clamped below by one), and the layer's output is  mean · Wlᵀ + own · Wrᵀ + b.  Between layers the
  columns are normalised (mean and variance over the 50000 rows, an epsilon under the reciprocal square root, then a
  gain and a bias per column) and clamped below at zero.

  The reference spells the division as a quotient and the normalisation as ((h − μ)·r)·γ + β.  The kernel multiplies
  by the reciprocal of the clamped degree, computes the linear stage and the normalise-and-clamp stage block by block
  (2000 rows at a time), and spells the normalisation as h·(γ·r) + (β − (μ·γ)·r).

  Everything here is a definition; nothing is proved.  The stages shared by the two programs (edge columns, the
  neighbour sum, the clamped degree, a column's mean and variance) are stated once, over the reference's shapes and
  dimension records.  The last section gives, entry by entry, what one block-wise stage of the kernel leaves.
-/
import proofs.«127429_j19473381720256_1_alg».proof.KernelIdeal
import proofs.«127429_j19473381720256_1_alg».proof.ReferenceIdeal
import Idealize.ShloMosaic.Lib.ValueIdx

noncomputable section

open Idealize.ShloMosaic

namespace Cert.Sage

variable {F : FTy → Type} [FloatOps F]

/-! ## Stages of the reference, and the stages both programs share -/

section Shared
open Cert.ReferenceIdeal Cert.ReferenceIdeal.Facts₀
variable [Cert.ReferenceIdeal.Facts₀]

set_option quotPrecheck false in
local notation "f32[" S "]" => (⟨S, .f32⟩ : BufTy).Contents (Elt F)
set_option quotPrecheck false in
local notation "i32[" S "]" => (⟨S, .i32⟩ : BufTy).Contents (Elt F)

/-- Row 0 of the edge list: each edge's source node. -/
def srcv (ei : i32[S2x800000]) : i32[S800000] :=
  shapeCast S800000 (extractStridedSlice S1x800000 ![0, 0] ei slices_S2x800000_S1x800000_0_0) shapeCasts_S1x800000_S800000

/-- Row 1 of the edge list: each edge's target node. -/
def dstv (ei : i32[S2x800000]) : i32[S800000] :=
  shapeCast S800000 (extractStridedSlice S1x800000 ![1, 0] ei slices_S2x800000_S1x800000_1_0) shapeCasts_S1x800000_S800000

/-- The sources as a column of start indices, a negative one counted from the end (plus 50000). -/
def srcCol (ei : i32[S2x800000]) : i32[S800000x1] :=
  broadcastInDim S800000x1 ![0] bcast_S800000_S800000x1_0
    (select (cmpi .slt (srcv (F := F) ei) (broadcastInDim S800000 ![] bcast_S_S800000 (constantI S_ 32 0#32)))
      (addi (srcv (F := F) ei) (broadcastInDim S800000 ![] bcast_S_S800000 (constantI S_ 32 50000#32)))
      (srcv (F := F) ei))

/-- The targets as a column of scatter indices. -/
def dstCol (ei : i32[S2x800000]) : i32[S800000x1] :=
  broadcastInDim S800000x1 ![0] bcast_S800000_S800000x1_0 (dstv (F := F) ei)

/-- The neighbour sum: row i is the sum, over the edges whose target is i, of the source's row of h. -/
def agg (h : f32[S50000x128]) (ei : i32[S2x800000]) : f32[S50000x128] :=
  Host.scatterAdd scatter_S50000x128_S800000x1_S800000x128_1_0_0_1
    (broadcastInDim S50000x128 ![] bcast_S_S50000x128 (constant S_ .f32 0x00000000#32))
    (dstCol (F := F) ei)
    (Host.gather gather_S50000x128_S800000x1_S800000x128_1_0_n_n_0_1_1128 h (srcCol (F := F) ei))

/-- The in-degree: entry i counts the edges whose target is i. -/
def cnt (ei : i32[S2x800000]) : f32[S50000] :=
  Host.scatterAdd scatter_S50000_S800000x1_S800000_n_0_0_1
    (broadcastInDim S50000 ![] bcast_S_S50000 (constant S_ .f32 0x00000000#32))
    (dstCol (F := F) ei)
    (broadcastInDim S800000 ![] bcast_S_S800000 (constant S_ .f32 0x3F800000#32))

/-- The in-degree clamped below by one. -/
def cnt1 (ei : i32[S2x800000]) : f32[S50000] :=
  maximumf (cnt (F := F) ei) (broadcastInDim S50000 ![] bcast_S_S50000 (constant S_ .f32 0x3F800000#32))

/-- A vector over the nodes copied along every row's 128 entries. -/
def nodeCols (v : f32[S50000]) : f32[S50000x128] :=
  broadcastInDim S50000x128 ![0, 1] bcast_S50000x1_S50000x128_0_1 (broadcastInDim S50000x1 ![0] bcast_S50000_S50000x1_0 v)

/-- The reference's neighbour mean: the neighbour sum divided by the clamped in-degree. -/
def meanR (h : f32[S50000x128]) (ei : i32[S2x800000]) : f32[S50000x128] :=
  Host.divf (agg h ei) (nodeCols (cnt1 (F := F) ei))

/-- A vector over 128 columns copied into every one of the 50000 rows. -/
def rows128 (v : f32[S128]) : f32[S50000x128] :=
  broadcastInDim S50000x128 ![0, 1] bcast_S1x128_S50000x128_0_1 (broadcastInDim S1x128 ![1] bcast_S128_S1x128_1 v)

/-- A vector over 64 columns copied into every one of the 50000 rows. -/
def rows64 (v : f32[S64]) : f32[S50000x64] :=
  broadcastInDim S50000x64 ![0, 1] bcast_S1x64_S50000x64_0_1 (broadcastInDim S1x64 ![1] bcast_S64_S1x64_1 v)

/-- The reference's linear stage at 128 output columns: mean · Wlᵀ + h · Wrᵀ + b. -/
def linR128 (mn h : f32[S50000x128]) (Wl Wr : f32[S128x128]) (b : f32[S128]) : f32[S50000x128] :=
  addf (addf
      (Host.dotGeneral dot_S50000x128_S128x128_S50000x128_1_0_0_1_n_n none mn (transpose S128x128 [1, 0] Wl transposes_S128x128_S128x128_1_0))
      (Host.dotGeneral dot_S50000x128_S128x128_S50000x128_1_0_0_1_n_n none h (transpose S128x128 [1, 0] Wr transposes_S128x128_S128x128_1_0)))
    (rows128 b)

/-- The reference's linear stage at 64 output columns. -/
def linR64 (mn h : f32[S50000x128]) (Wl Wr : f32[S64x128]) (b : f32[S64]) : f32[S50000x64] :=
  addf (addf
      (Host.dotGeneral dot_S50000x128_S128x64_S50000x64_1_0_0_1_n_n none mn (transpose S128x64 [1, 0] Wl transposes_S64x128_S128x64_1_0))
      (Host.dotGeneral dot_S50000x128_S128x64_S50000x64_1_0_0_1_n_n none h (transpose S128x64 [1, 0] Wr transposes_S64x128_S128x64_1_0)))
    (rows64 b)

/-- A column's sum over the 50000 rows. -/
def colSum (h : f32[S50000x128]) : f32[S128] :=
  Host.reduceAdd h (constant S_ .f32 0x00000000#32) reducesTo_S50000x128_S128_d0 h_S_

/-- A column's mean over the 50000 rows. -/
def mu (h : f32[S50000x128]) : f32[S128] :=
  Host.divf (colSum h) (broadcastInDim S128 ![] bcast_S_S128 (constant S_ .f32 0x47435000#32))

/-- The number of observations of the variance, 50000 less the degrees of freedom (none). -/
def nobs : f32[S_] :=
  subf (constant S_ .f32 0x47435000#32) (sitofp .f32 (constantI S_ 32 0#32))

/-- Every entry less its column's mean (the mean kept as a row of shape [1,128] on the way). -/
def centred (h : f32[S50000x128]) : f32[S50000x128] :=
  subf h (broadcastInDim S50000x128 ![0, 1] bcast_S1x128_S50000x128_0_1
    (Host.divf (broadcastInDim S1x128 ![1] bcast_S128_S1x128_1 (colSum h))
      (broadcastInDim S1x128 ![] bcast_S_S1x128 (constant S_ .f32 0x47435000#32))))

/-- A column's variance over the 50000 rows: the mean of the squared centred entries, guarded by a test on the number
    of observations that always passes (the other branch is a not-a-number word). -/
def var (h : f32[S50000x128]) : f32[S128] :=
  select (broadcastInDim S128 ![] bcast_S_S128 (cmpf .ogt (nobs (F := F)) (constant S_ .f32 0x00000000#32)))
    (Host.divf (colSum (mulf (centred h) (centred h))) (broadcastInDim S128 ![] bcast_S_S128 (nobs (F := F))))
    (broadcastInDim S128 ![] bcast_S_S128 (id (constant S_ .f32 0x7FC00000#32)))

/-- A column's reciprocal standard deviation: rsqrt(variance + epsilon). -/
def rstd (h : f32[S50000x128]) : f32[S128] :=
  Host.rsqrt (addf (var h) (broadcastInDim S128 ![] bcast_S_S128 (constant S_ .f32 0x3727C5AC#32)))

/-- The reference's normalise-and-clamp stage: max(((h − μ)·r)·γ + β, 0). -/
def bnR (h : f32[S50000x128]) (g be : f32[S128]) : f32[S50000x128] :=
  maximumf (addf (mulf (mulf (subf h (rows128 (mu h))) (rows128 (rstd h))) (rows128 g)) (rows128 be))
    (broadcastInDim S50000x128 ![] bcast_S_S50000x128 (constant S_ .f32 0x00000000#32))

/-- The reference's result as a function of the fifteen arguments. -/
def outR (x : f32[S50000x128]) (ei : i32[S2x800000]) (Wl1 Wr1 : f32[S128x128]) (b1 g1 be1 : f32[S128])
    (Wl2 Wr2 : f32[S128x128]) (b2 g2 be2 : f32[S128]) (Wl3 Wr3 : f32[S64x128]) (b3 : f32[S64]) : f32[S50000x64] :=
  linR64 (meanR (bnR (linR128 (meanR (bnR (linR128 (meanR x ei) x Wl1 Wr1 b1) g1 be1) ei) (bnR (linR128 (meanR x ei) x Wl1 Wr1 b1) g1 be1) Wl2 Wr2 b2) g2 be2) ei)
    (bnR (linR128 (meanR (bnR (linR128 (meanR x ei) x Wl1 Wr1 b1) g1 be1) ei) (bnR (linR128 (meanR x ei) x Wl1 Wr1 b1) g1 be1) Wl2 Wr2 b2) g2 be2)
    Wl3 Wr3 b3

end Shared

/-! ## Stages only the kernel has -/

section KernelOnly
open Cert.KernelIdeal Cert.KernelIdeal.Facts₀
variable [Cert.ReferenceIdeal.Facts₀] [Cert.KernelIdeal.Facts₀]

set_option quotPrecheck false in
local notation "f32[" S "]" => (⟨S, .f32⟩ : BufTy).Contents (Elt F)
set_option quotPrecheck false in
local notation "i32[" S "]" => (⟨S, .i32⟩ : BufTy).Contents (Elt F)

/-- The reciprocal of the clamped in-degree, as a column. -/
def cinvCol (ei : i32[S2x800000]) : f32[S50000x1] :=
  broadcastInDim S50000x1 ![0] bcast_S50000_S50000x1_0
    (Host.divf (broadcastInDim S50000 ![] bcast_S_S50000 (constant S_ .f32 0x3F800000#32)) (cnt1 (F := F) ei))

/-- The kernel's neighbour mean: the neighbour sum times the reciprocal of the clamped in-degree. -/
def meanK (h : f32[S50000x128]) (ei : i32[S2x800000]) : f32[S50000x128] :=
  mulf (agg h ei) (broadcastInDim S50000x128 ![0, 1] bcast_S50000x1_S50000x128_0_1 (cinvCol (F := F) ei))

/-- A weight matrix with 128 output columns, transposed. -/
def wT128 (W : f32[S128x128]) : f32[S128x128] := transpose S128x128 [1, 0] W transposes_S128x128_S128x128_1_0
/-- A weight matrix with 64 output columns, transposed. -/
def wT64 (W : f32[S64x128]) : f32[S128x64] := transpose S128x64 [1, 0] W transposes_S64x128_S128x64_1_0
/-- A bias over 128 columns kept as one row. -/
def bRow128 (b : f32[S128]) : f32[S1x128] := shapeCast S1x128 b shapeCasts_S128_S1x128
/-- A bias over 64 columns kept as one row. -/
def bRow64 (b : f32[S64]) : f32[S1x64] := shapeCast S1x64 b shapeCasts_S64_S1x64

/-- The kernel's per-column gain of the normalisation, γ·r, as one row. -/
def scaleRow (h : f32[S50000x128]) (g : f32[S128]) : f32[S1x128] :=
  shapeCast S1x128 (mulf g (rstd h)) shapeCasts_S128_S1x128

/-- The kernel's per-column offset of the normalisation, β − (μ·γ)·r, as one row. -/
def shiftRow (h : f32[S50000x128]) (g be : f32[S128]) : f32[S1x128] :=
  shapeCast S1x128 (subf be (mulf (mulf (mu h) g) (rstd h))) shapeCasts_S128_S1x128

end KernelOnly

/-! ## What a block-wise stage of the kernel leaves, entry by entry (at the exact values) -/

section Blockwise
open ValueIdx

/-- The linear stage at C output columns, entry (p, q): the two matrix products' entries, added, plus the bias row's
    entry of column q. -/
def linEntry {C : Nat} (mn h : (⟨2, ![50000, 128]⟩ : Shape).Idx → EReal) (wl wr : (⟨2, ![128, C]⟩ : Shape).Idx → EReal)
    (b : (⟨2, ![1, C]⟩ : Shape).Idx → EReal) (p : Fin 50000) (q : Fin C) : EReal :=
  ((∑ k : Fin 128, mn (ix2 p k) * wl (ix2 k q)) + (∑ k : Fin 128, h (ix2 p k) * wr (ix2 k q))) + b (ix2 0 q)

/-- The normalise-and-clamp stage, entry (p, q): max(h·scale + shift, 0) with the two rows read at column q. -/
def bnEntry (h : (⟨2, ![50000, 128]⟩ : Shape).Idx → EReal) (sc sh : (⟨2, ![1, 128]⟩ : Shape).Idx → EReal)
    (p : Fin 50000) (q : Fin 128) : EReal :=
  max (h (ix2 p q) * sc (ix2 0 q) + sh (ix2 0 q)) 0

end Blockwise

end Cert.Sage

end
-- ==== Proof.LibMoments.lean ====
/-
  Second moments on a finite index set, over the reals and carried to the extended reals.

  For real numbers x_i over a finite set s of N elements, with S = ∑ x_i:
      ( ∑ (x_i - S/N)² ) / N  =  ( ∑ x_i² ) / N  -  (S/N)²
  — the mean of the squared deviations from the mean is the mean of the squares minus the square of the mean. Over the
  extended reals the identity needs every x_i finite (at an infinite entry the left side is +∞ and the right side
  is +∞ - +∞), so it is stated for families given as coercions of real families, together with the small facts that
  keep finite sums, products, differences and quotients by a nonzero real inside the reals.
-/
import Idealize.ShloMosaic.PureOps.Ideal

noncomputable section

namespace Moments

open Finset Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is FINITE when it is the coercion of a real. -/
def Fin' (x : EReal) : Prop := ∃ r : ℝ, x = (r : EReal)

theorem Fin'.coe (r : ℝ) : Fin' (r : EReal) := ⟨r, rfl⟩
theorem Fin'.zero : Fin' (0 : EReal) := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.max {x y : EReal} (hx : Fin' x) (hy : Fin' y) : Fin' (max x y) := by
  rcases max_choice x y with h | h <;> rw [h] <;> assumption
/-- A quotient by a nonzero real stays finite: division by such a number is the product with its reciprocal. -/
theorem Fin'.div {x : EReal} (hx : Fin' x) {y : ℝ} (hy : y ≠ 0) : Fin' (Ideal.div x (y : EReal)) := by
  rw [Ideal.div_coe hy]; exact hx.mul (Fin'.coe _)
/-- A finite sum of finite extended reals is finite. -/
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- The quotient of a real by a nonzero real, as extended reals. -/
theorem div_coe_coe (a : ℝ) {y : ℝ} (hy : y ≠ 0) : Ideal.div (a : EReal) (y : EReal) = ((a / y : ℝ) : EReal) := by
  rw [Ideal.div_coe hy, ← EReal.coe_mul, mul_one_div]

/-- The two-moment identity over the reals: the mean of the squared deviations from the mean is the mean of the
    squares minus the square of the mean. -/
theorem var_real {ι : Type*} (s : Finset ι) (x : ι → ℝ) (N : ℝ) (hN : (s.card : ℝ) = N) (h0 : N ≠ 0) :
    (∑ i ∈ s, (x i - (∑ j ∈ s, x j) / N) * (x i - (∑ j ∈ s, x j) / N)) / N
      = (∑ i ∈ s, x i * x i) / N - ((∑ j ∈ s, x j) / N) * ((∑ j ∈ s, x j) / N) := by
  set S := ∑ j ∈ s, x j with hS
  have h1 : ∑ i ∈ s, (x i - S / N) * (x i - S / N)
      = (∑ i ∈ s, x i * x i) - 2 * (S / N) * S + N * ((S / N) * (S / N)) := by
    have e : ∀ i, (x i - S / N) * (x i - S / N) = x i * x i - 2 * (S / N) * x i + (S / N) * (S / N) := fun i => by ring
    simp only [e]
    rw [Finset.sum_add_distrib, Finset.sum_sub_distrib, ← Finset.mul_sum, Finset.sum_const, nsmul_eq_mul, hN]
  rw [h1]
  field_simp
  ring

end Moments

end
-- ==== Proof.Net.lean ====
/-
  The kernel's result as one composition, and the predicate "every entry is a real number".

  A block-wise stage of the kernel leaves, in the whole output array, the entry formulas of the last section of the
  stage definitions; here they are packaged as whole-array functions (linK, bnK), and the kernel's three layers are
  composed from them and from the host stages around them (outK).  Nothing is proved here beyond two unfoldings.
-/
import proofs.«127429_j19473381720256_1_alg».proof.Proof.Spec
import proofs.«127429_j19473381720256_1_alg».proof.Proof.LibMoments

noncomputable section

open Idealize.ShloMosaic Idealize.ShloMosaic.ValueIdx

namespace Cert.Sage

/-- Every entry of the array is a real number (neither infinity). -/
def AllReal {S : Shape} (x : S.Idx → EReal) : Prop := ∀ i, Moments.Fin' (x i)

/-- The kernel's linear stage as a whole array: entry j is the entry formula at j's two coordinates. -/
def linK {C : Nat} (mn h : (⟨2, ![50000, 128]⟩ : Shape).Idx → EReal) (wl wr : (⟨2, ![128, C]⟩ : Shape).Idx → EReal)
    (b : (⟨2, ![1, C]⟩ : Shape).Idx → EReal) : (⟨2, ![50000, C]⟩ : Shape).Idx → EReal :=
  fun j => linEntry mn h wl wr b ⟨(j 0).val, idx2_lt0 j⟩ ⟨(j 1).val, idx2_lt1 j⟩

/-- The kernel's normalise-and-clamp stage as a whole array. -/
def bnK (h : (⟨2, ![50000, 128]⟩ : Shape).Idx → EReal) (sc sh : (⟨2, ![1, 128]⟩ : Shape).Idx → EReal) :
    (⟨2, ![50000, 128]⟩ : Shape).Idx → EReal :=
  fun j => bnEntry h sc sh ⟨(j 0).val, idx2_lt0 j⟩ ⟨(j 1).val, idx2_lt1 j⟩

theorem linK_ix2 {C : Nat} (mn h : (⟨2, ![50000, 128]⟩ : Shape).Idx → EReal) (wl wr : (⟨2, ![128, C]⟩ : Shape).Idx → EReal)
    (b : (⟨2, ![1, C]⟩ : Shape).Idx → EReal) (p : Fin 50000) (q : Fin C) :
    linK mn h wl wr b (ix2 p q) = linEntry mn h wl wr b p q := rfl

theorem bnK_ix2 (h : (⟨2, ![50000, 128]⟩ : Shape).Idx → EReal) (sc sh : (⟨2, ![1, 128]⟩ : Shape).Idx → EReal)
    (p : Fin 50000) (q : Fin 128) : bnK h sc sh (ix2 p q) = bnEntry h sc sh p q := rfl

section
variable [Cert.ReferenceIdeal.Facts₀] [Cert.KernelIdeal.Facts₀]

/-- One layer of the kernel at 128 output columns: the block-wise linear stage of the kernel's neighbour mean. -/
def layerK128 (h : (⟨2, ![50000, 128]⟩ : Shape).Idx → EReal) (ei : (⟨2, ![2, 800000]⟩ : Shape).Idx → BitVec 32)
    (Wl Wr : (⟨2, ![128, 128]⟩ : Shape).Idx → EReal) (b : (⟨1, ![128]⟩ : Shape).Idx → EReal) :
    (⟨2, ![50000, 128]⟩ : Shape).Idx → EReal :=
  linK (meanK (F := Ideal) h ei) h (wT128 (F := Ideal) Wl) (wT128 (F := Ideal) Wr) (bRow128 (F := Ideal) b)

/-- The last layer of the kernel, at 64 output columns. -/
def layerK64 (h : (⟨2, ![50000, 128]⟩ : Shape).Idx → EReal) (ei : (⟨2, ![2, 800000]⟩ : Shape).Idx → BitVec 32)
    (Wl Wr : (⟨2, ![64, 128]⟩ : Shape).Idx → EReal) (b : (⟨1, ![64]⟩ : Shape).Idx → EReal) :
    (⟨2, ![50000, 64]⟩ : Shape).Idx → EReal :=
  linK (meanK (F := Ideal) h ei) h (wT64 (F := Ideal) Wl) (wT64 (F := Ideal) Wr) (bRow64 (F := Ideal) b)

/-- The kernel's normalise-and-clamp of a layer's output, with its own per-column gain and offset rows. -/
def normK (h : (⟨2, ![50000, 128]⟩ : Shape).Idx → EReal) (g be : (⟨1, ![128]⟩ : Shape).Idx → EReal) :
    (⟨2, ![50000, 128]⟩ : Shape).Idx → EReal :=
  bnK h (scaleRow (F := Ideal) h g) (shiftRow (F := Ideal) h g be)

/-- The kernel's result as a function of the fifteen arguments. -/
def outK (x : (⟨2, ![50000, 128]⟩ : Shape).Idx → EReal) (ei : (⟨2, ![2, 800000]⟩ : Shape).Idx → BitVec 32)
    (Wl1 Wr1 : (⟨2, ![128, 128]⟩ : Shape).Idx → EReal) (b1 g1 be1 : (⟨1, ![128]⟩ : Shape).Idx → EReal)
    (Wl2 Wr2 : (⟨2, ![128, 128]⟩ : Shape).Idx → EReal) (b2 g2 be2 : (⟨1, ![128]⟩ : Shape).Idx → EReal)
    (Wl3 Wr3 : (⟨2, ![64, 128]⟩ : Shape).Idx → EReal) (b3 : (⟨1, ![64]⟩ : Shape).Idx → EReal) :
    (⟨2, ![50000, 64]⟩ : Shape).Idx → EReal :=
  layerK64 (normK (layerK128 (normK (layerK128 x ei Wl1 Wr1 b1) g1 be1) ei Wl2 Wr2 b2) g2 be2) ei Wl3 Wr3 b3

end

end Cert.Sage

end
-- ==== Proof.LibColumnBroadcast.lean ====
/-
  A per-row quantity put back beside every entry of its row, in the host's spelling: a vector of a entries kept as an
  a × 1 column (broadcast_in_dim along axis 0) reads its entry p at (p, 0); an a × 1 column copied along its unit
  axis into an a × b matrix (broadcast_in_dim along axes 0, 1) reads, at (p, d), the column's entry p.
-/
import Idealize.ShloMosaic.Lib.ValueLayout
import Idealize.ShloMosaic.Lib.Pipeline.Value

namespace ColumnBroadcast

open Idealize.ShloMosaic Idealize.ShloMosaic.ValueIdx

variable {α : Type}

/-- A vector kept as a column reads, at (p, u), the vector at p. -/
theorem column_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) (fun ax => ?_)
  match ax with
  | ⟨0, _⟩ =>
    show p.val = if a = 1 then 0 else p.val
    have := p.isLt
    split <;> omega

/-- A column copied along its unit axis reads, at (p, d), the column at (p, 0). -/
theorem columns_apply {a b : ℕ} (w : (⟨2, ![a, 1]⟩ : Shape).Idx → α)
    (h : (⟨2, ![a, 1]⟩ : Shape).BroadcastsInDim ⟨2, ![a, b]⟩ ![0, 1]) (p : Fin a) (d : Fin b) :
    broadcastInDim ⟨2, ![a, b]⟩ ![0, 1] h w (ix2 p d) = w (ix2 p (0 : Fin 1)) := by
  refine broadcastInDim_apply ![0, 1] h w (ix2 p d) (ix2 p (0 : Fin 1)) (fun ax => ?_)
  match ax with
  | ⟨0, _⟩ =>
    show p.val = if a = 1 then 0 else p.val
    have := p.isLt
    split <;> omega
  | ⟨1, _⟩ => rfl

end ColumnBroadcast
-- ==== Proof.LibScatterAdd.lean ====
/-
  Two general facts about an accumulating scatter read at one element of its result.

  1. `ScatterDims.resultIdx?_eq_some_iff`: update index `j` lands on the operand index `i` exactly when, on every operand
     axis, the window's start plus the window coordinate IS `i`'s coordinate (as integers: the start is read signed and is
     not clamped, and an update that leaves the operand lands nowhere).
  2. `sum_filter_two`: a sum over the indices satisfying a predicate that has at most two solutions, `a` (when `ca`)
     and `b` (when `cb`), is the sum of the two terms that are there. In an overlap-add every output sample is met by
     at most two update elements; the same shape serves any scatter whose colliding updates are at most two.
  Together with `Ideal.hostScatterAdd` (the operand element plus the sum of the updates that land on it) they read the
  scatter at an index without listing the updates.
-/
import Idealize.ShloMosaic.PureOps.Ideal

namespace Idealize.ShloMosaic

namespace ScatterDims

variable {s si u : Shape} (d : ScatterDims s si u)

/-- Update index `j` lands on `i` iff start plus window coordinate is `i`'s coordinate on every operand axis. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show d.start j idx a + (d.window j a : Int) = (((d.start j idx a + (d.window j a : Int)).toNat : Nat) : Int)
      omega
    · intro hh
      funext a
      apply Fin.ext
      have := hh a
      show (d.start j idx a + (d.window j a : Int)).toNat = (i a).val
      omega
  · rename_i h
    constructor
    · intro hh; exact absurd hh (by simp)
    · intro hh
      exact absurd (fun a => by have := hh a; have := (i a).isLt; omega) h

end ScatterDims

/-- A sum over the solutions of a predicate with at most two solutions: `a` when `ca` holds, `b` when `cb` holds. -/
theorem sum_filter_two {ι M : Type*} [Fintype ι] [DecidableEq ι] [AddCommMonoid M] (P : ι → Prop) [DecidablePred P]
    (f : ι → M) (a b : ι) (ca cb : Prop) [Decidable ca] [Decidable cb] (hab : a ≠ b)
    (hP : ∀ j, P j ↔ (ca ∧ j = a) ∨ (cb ∧ j = b)) :
    ∑ j ∈ Finset.univ.filter P, f j = (if ca then f a else 0) + (if cb then f b else 0) := by
  by_cases ha : ca <;> by_cases hb : cb
  · have e : Finset.univ.filter P = {a, b} := by
      ext j; simp only [Finset.mem_filter, Finset.mem_univ, true_and, Finset.mem_insert, Finset.mem_singleton, hP j]
      constructor
      · rintro (⟨-, h⟩ | ⟨-, h⟩)
        · exact Or.inl h
        · exact Or.inr h
      · rintro (h | h)
        · exact Or.inl ⟨ha, h⟩
        · exact Or.inr ⟨hb, h⟩
    rw [e, Finset.sum_pair hab, if_pos ha, if_pos hb]
  · have e : Finset.univ.filter P = {a} := by
      ext j; simp only [Finset.mem_filter, Finset.mem_univ, true_and, Finset.mem_singleton, hP j]
      constructor
      · rintro (⟨-, h⟩ | ⟨h, -⟩)
        · exact h
        · exact absurd h hb
      · intro h; exact Or.inl ⟨ha, h⟩
    rw [e, Finset.sum_singleton, if_pos ha, if_neg hb, add_zero]
  · have e : Finset.univ.filter P = {b} := by
      ext j; simp only [Finset.mem_filter, Finset.mem_univ, true_and, Finset.mem_singleton, hP j]
      constructor
      · rintro (⟨h, -⟩ | ⟨-, h⟩)
        · exact absurd h ha
        · exact h
      · intro h; exact Or.inr ⟨hb, h⟩
    rw [e, Finset.sum_singleton, if_neg ha, if_pos hb, zero_add]
  · have e : Finset.univ.filter P = ∅ := by
      ext j; simp only [Finset.mem_filter, Finset.mem_univ, true_and, hP j, Finset.notMem_empty, iff_false]
      rintro (⟨h, -⟩ | ⟨h, -⟩)
      · exact ha h
      · exact hb h
    rw [e, Finset.sum_empty, if_neg ha, if_neg hb, add_zero]

end Idealize.ShloMosaic
-- ==== Proof.LibRowIndexed.lean ====
/-
  Row-indexed gathers and scatters, read at coordinates.

  A table of rows `[N, C]` (or a vector `[N]`) is addressed by a column of index words `[E, 1]`:
  * a scatter (`x.at[idx].add(u)`) lands update row `e` on table row `i` exactly when the word `idx[e, 0]`, read as a
    signed integer and NOT clamped, is `i`; a word outside `[0, N)` lands nowhere;
  * a gather (`x[idx]`) reads, for result row `e`, the table row `nodeOf idx[e, 0]`: the word read signed and clamped
    into `[0, N - 1]`.
  So the accumulating scatter at table row `i` is the operand plus the sum over the edges `e` with `idx[e, 0] = i`.
-/
import Idealize.ShloMosaic.PureOps.Ideal
import Idealize.ShloMosaic.Lib.ValueIdx
import Idealize.ShloMosaic.Lib.Pipeline.Value
import proofs.«127429_j19473381720256_1_alg».proof.Proof.LibScatterAdd

namespace Idealize.ShloMosaic.RowIndexed

open ValueIdx

/-- The row an index word addresses in a gather: read signed, clamped into `[0, N - 1]`. -/
def nodeOf (N : Nat) (hN : 0 < N) {w : Nat} (v : BitVec w) : Fin N := ⟨min v.toInt.toNat (N - 1), by omega⟩

/-! ## Scatter into a table of rows -/

/-- The dimension numbers of `x.at[idx].add(u)` for a table `[N, C]`, index words `[E, 1]`, update rows `[E, C]`. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update entry `(e, c)` lands on table entry `(i, c')` iff the index word of row `e`, read signed, is `i`, and `c = c'`. -/
theorem rowScatter_lands {N E C w : Nat} (wf) (idx : IVec ⟨2, ![E, 1]⟩ w) (e : Fin E) (c : Fin C) (i : Fin N) (c' : Fin C) :
    (rowScatter N E C wf).resultIdx? (ix2 e c) idx = some (ix2 i c') ↔ (idx (ix2 e 0)).toInt = (i.val : Int) ∧ c = c' := by
  rw [ScatterDims.resultIdx?_eq_some_iff]
  have hs0 : (rowScatter N E C wf).start (ix2 e c) idx 0 = (idx (ix2 e 0)).toInt := by
    unfold ScatterDims.start
    rw [dif_pos (show (0 : Fin 2) ∈ (rowScatter N E C wf).scatterDimsToOperandDims from List.mem_singleton.mpr rfl)]
    congr 2
    funext b
    refine Fin.ext ?_
    match b with
    | ⟨0, _⟩ => rfl
    | ⟨1, _⟩ => rfl
  have hs1 : (rowScatter N E C wf).start (ix2 e c) idx 1 = 0 := by
    unfold ScatterDims.start
    rw [dif_neg (show (1 : Fin 2) ∉ ([0] : List (Fin 2)) from by decide)]
  have hw0 : (rowScatter N E C wf).window (ix2 e c) 0 = 0 := by
    unfold ScatterDims.window
    have hm : (0 : Fin 2) ∉ (rowScatter N E C wf).sKept := by
      show (0 : Fin 2) ∉ (List.finRange 2).filter (· ∉ ([0] : List (Fin 2)))
      decide
    rw [dif_neg hm]
  have hw1 : (rowScatter N E C wf).window (ix2 e c) 1 = c.val := by
    unfold ScatterDims.window
    have hm : (1 : Fin 2) ∈ (rowScatter N E C wf).sKept := by
      show (1 : Fin 2) ∈ (List.finRange 2).filter (· ∉ ([0] : List (Fin 2)))
      decide
    rw [dif_pos hm]
    rfl
  constructor
  · intro h
    have h0 := h 0
    have h1 := h 1
    rw [hs0, hw0] at h0
    rw [hs1, hw1] at h1
    have e0 : (((ix2 i c' : (⟨2, ![N, C]⟩ : Shape).Idx) 0).val : Int) = (i.val : Int) := rfl
    have e1 : (((ix2 i c' : (⟨2, ![N, C]⟩ : Shape).Idx) 1).val : Int) = (c'.val : Int) := rfl
    refine ⟨by omega, Fin.ext (by omega)⟩
  · rintro ⟨h0, rfl⟩ a
    match a with
    | ⟨0, _⟩ => show (rowScatter N E C wf).start (ix2 e c) idx 0 + ((rowScatter N E C wf).window (ix2 e c) 0 : Int) = _; rw [hs0, hw0, h0]; simp
    | ⟨1, _⟩ => show (rowScatter N E C wf).start (ix2 e c) idx 1 + ((rowScatter N E C wf).window (ix2 e c) 1 : Int) = _; rw [hs1, hw1]; simp

/-- The accumulating scatter at table entry `(i, c)`: the operand there plus the update entries `(e, c)` of the edges
    `e` whose index word is `i`. -/
theorem rowScatter_add_apply {N E C w : Nat} (wf) (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (rowScatter N E C wf) x idx upd (ix2 i c)
      = x (ix2 i c) + ∑ e ∈ Finset.univ.filter (fun e : Fin E => (idx (ix2 e 0)).toInt = (i.val : Int)), upd (ix2 e c) := by
  unfold Ideal.hostScatterAdd
  congr 1
  rw [Finset.sum_filter, sum_idx2, Finset.sum_filter]
  refine Finset.sum_congr rfl fun e _ => ?_
  simp only [rowScatter_lands]
  by_cases h : (idx (ix2 e 0)).toInt = (i.val : Int)
  · simp only [h, true_and, if_true]
    rw [Finset.sum_ite_eq' Finset.univ c (fun c' => upd (ix2 e c'))]
    simp
  · simp only [h, false_and, if_false]
    exact Finset.sum_const_zero

/-! ## Scatter into a vector -/

/-- The dimension numbers of `x.at[idx].add(u)` for a vector `[N]`, index words `[E, 1]`, updates `[E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on vector entry `i` iff the index word of row `e`, read signed, is `i`. -/
theorem vecScatter_lands {N E w : Nat} (wf) (idx : IVec ⟨2, ![E, 1]⟩ w) (e : Fin E) (i : Fin N) :
    (vecScatter N E wf).resultIdx? (ix1 e) idx = some (ix1 i) ↔ (idx (ix2 e 0)).toInt = (i.val : Int) := by
  rw [ScatterDims.resultIdx?_eq_some_iff]
  have hs0 : (vecScatter N E wf).start (ix1 e) idx 0 = (idx (ix2 e 0)).toInt := by
    unfold ScatterDims.start
    rw [dif_pos (show (0 : Fin 1) ∈ (vecScatter N E wf).scatterDimsToOperandDims from List.mem_singleton.mpr rfl)]
    congr 2
    funext b
    refine Fin.ext ?_
    match b with
    | ⟨0, _⟩ => rfl
    | ⟨1, _⟩ => rfl
  have hw0 : (vecScatter N E wf).window (ix1 e) 0 = 0 := by
    unfold ScatterDims.window
    have hm : (0 : Fin 1) ∉ (vecScatter N E wf).sKept := by
      show (0 : Fin 1) ∉ (List.finRange 1).filter (· ∉ ([0] : List (Fin 1)))
      decide
    rw [dif_neg hm]
  have e0 : (((ix1 i : (⟨1, ![N]⟩ : Shape).Idx) 0).val : Int) = (i.val : Int) := rfl
  constructor
  · intro h
    have h0 := h 0
    rw [hs0, hw0] at h0
    omega
  · intro h0 a
    obtain rfl : a = 0 := Subsingleton.elim _ _
    rw [hs0, hw0, h0]; omega

/-- A sum over the index set of a vector is the sum over its one coordinate. -/
theorem sum_idx1 {M : Type*} [AddCommMonoid M] {n : Nat} (f : (⟨1, ![n]⟩ : Shape).Idx → M) :
    ∑ i, f i = ∑ a : Fin n, f (ix1 a) :=
  (Fintype.sum_equiv (⟨fun i => i 0, ix1, fun i => (eq_ix1 i).symm, fun _ => rfl⟩ : (⟨1, ![n]⟩ : Shape).Idx ≃ Fin n)
    f (fun a => f (ix1 a)) (fun i => congrArg f (eq_ix1 i)))

/-- The accumulating scatter at vector entry `i`: the operand there plus the updates of the edges whose index word is `i`. -/
theorem vecScatter_add_apply {N E w : Nat} (wf) (x : (⟨1, ![N]⟩ : Shape).Idx → EReal) (idx : IVec ⟨2, ![E, 1]⟩ w)
    (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e 0)).toInt = (i.val : Int)), upd (ix1 e) := by
  unfold Ideal.hostScatterAdd
  congr 1
  rw [Finset.sum_filter, sum_idx1, Finset.sum_filter]
  refine Finset.sum_congr rfl fun e _ => ?_
  simp only [vecScatter_lands]

/-! ## Gathers of rows and of vector entries -/

/-- The dimension numbers of `x[idx]` for a table `[N, C]` and index words `[E, 1]`: whole rows, `[E, C]`. -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result entry `(e, c)` of a row gather is the table's entry `(nodeOf idx[e, 0], c)`. -/
theorem rowGather_apply {α : Type} {N E C w : Nat} (hN : 0 < N) (wf) (x : (⟨2, ![N, C]⟩ : Shape).Idx → α)
    (idx : IVec ⟨2, ![E, 1]⟩ w) (e : Fin E) (c : Fin C) :
    Host.gather (rowGather N E C wf) x idx (ix2 e c) = x (ix2 (nodeOf N hN (idx (ix2 e 0))) c) := by
  unfold Host.gather
  congr 1
  funext a
  refine Fin.ext ?_
  match a with
  | ⟨0, _⟩ =>
    show (rowGather N E C wf).start (ix2 e c) idx 0 + (rowGather N E C wf).batchCoord (ix2 e c) 0 + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1 + (rowGather N E C wf).offCoord (ix2 e c) 1 = c.val
    rw [GatherDims.batchCoord_eq_zero _ _ _ List.not_mem_nil]
    have hs : (rowGather N E C wf).start (ix2 e c) idx 1 = 0 := by
      unfold GatherDims.start
      rw [dif_neg (show (1 : Fin 2) ∉ ([0] : List (Fin 2)) from by decide)]
    have ho : (rowGather N E C wf).offCoord (ix2 e c) 1 = c.val := by
      unfold GatherDims.offCoord
      have hm : (1 : Fin 2) ∈ (rowGather N E C wf).sKept :=
        (GatherDims.mem_sKept _ _).mpr ⟨fun h => absurd (List.mem_singleton.mp h) (show (1 : Fin 2) ≠ 0 from by decide), List.not_mem_nil⟩
      rw [dif_pos hm]
      rfl
    rw [hs, ho]; simp

/-- The dimension numbers of `x[idx]` for a vector `[N]` and index words `[E, 1]`: entries, `[E]`. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result entry `e` of a vector gather is the vector's entry `nodeOf idx[e, 0]`. -/
theorem vecGather_apply {α : Type} {N E w : Nat} (hN : 0 < N) (wf) (x : (⟨1, ![N]⟩ : Shape).Idx → α)
    (idx : IVec ⟨2, ![E, 1]⟩ w) (e : Fin E) :
    Host.gather (vecGather N E wf) x idx (ix1 e) = x (ix1 (nodeOf N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Small reads used with the above -/

/-- At the exact values the host's accumulating scatter is the sum form. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- A scalar broadcast to any shape reads the scalar everywhere. -/
theorem bcast_scalar_apply {t : Shape} {α : Type} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector of `E` entries kept as a column `[E, 1]` reads entry `e` at `(e, 0)`. -/
theorem col_apply {E : Nat} {α : Type} (h : (⟨1, ![E]⟩ : Shape).BroadcastsInDim ⟨2, ![E, 1]⟩ ![0])
    (v : (⟨1, ![E]⟩ : Shape).Idx → α) (e : Fin E) : broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

end Idealize.ShloMosaic.RowIndexed
-- ==== Proof.MeanMath.lean ====
/-
  The neighbour mean, in its two spellings, at the exact values.

  Both programs divide the neighbour sum by the in-degree clamped below by one.  The reference writes the quotient
  agg / c; the kernel writes the product agg · (1 / c), the reciprocal computed once per node and copied along the
  node's row.  At the exact values a quotient x / y with y ≠ 0 is x · y⁻¹, and c = max(cnt, 1) ≥ 1 is never 0, so the
  two agree entry by entry, whatever the entries of the operands are.

  When every entry of the table is a real number, so is every entry of the mean: a gathered row is a row of the table,
  the neighbour sum is a finite sum of gathered entries, the in-degree is a finite sum of ones, and a real divided by
  a nonzero real is a real.
-/
import proofs.«127429_j19473381720256_1_alg».proof.Proof.Net
import proofs.«127429_j19473381720256_1_alg».proof.Proof.LibMoments
import proofs.«127429_j19473381720256_1_alg».proof.Proof.LibColumnBroadcast
import proofs.«127429_j19473381720256_1_alg».proof.Proof.LibRowIndexed

noncomputable section

open Idealize.ShloMosaic Idealize.ShloMosaic.ValueIdx

namespace Cert.Sage

variable [Cert.ReferenceIdeal.Facts₀] [Cert.KernelIdeal.Facts₀]

/-- The single-precision word 0x3F800000 is the number 1 = 2^23 · 2^(127 − 127 − 23). -/
private theorem one_word : Ideal.ofBits .f32 0x3F800000#32 = (1 : EReal) := by
  simp [Ideal.ofBits, Ideal.ieee]
  rw [← EReal.coe_mul]
  norm_num

/-- The single-precision word of all zeros is the number 0. -/
private theorem zero_word' : Ideal.ofBits .f32 0x00000000#32 = (0 : EReal) := by simp [Ideal.ofBits, Ideal.ieee]

/-- Every index of a matrix is a pair of coordinates. -/
private theorem idx2_cases {a b : Nat} (j : (⟨2, ![a, b]⟩ : Shape).Idx) : ∃ (p : Fin a) (q : Fin b), j = ix2 p q :=
  ⟨j 0, j 1, eq_ix2 j⟩

/-- Every index of a vector is one coordinate. -/
private theorem idx1_cases {a : Nat} (j : (⟨1, ![a]⟩ : Shape).Idx) : ∃ p : Fin a, j = ix1 p := ⟨j 0, eq_ix1 j⟩

/-! ## The clamped in-degree -/

/-- The clamped in-degree is the maximum of the in-degree and one. -/
private theorem cnt1_apply (ei : (⟨2, ![2, 800000]⟩ : Shape).Idx → BitVec 32) (i : (⟨1, ![50000]⟩ : Shape).Idx) :
    cnt1 (F := Ideal) ei i = max (cnt (F := Ideal) ei i) 1 := by
  unfold cnt1
  rw [maximumf_apply, RowIndexed.bcast_scalar_apply, constant_apply, one_word]

/-- The clamped in-degree is at least one, so it is not zero. -/
private theorem cnt1_ne_zero (ei : (⟨2, ![2, 800000]⟩ : Shape).Idx → BitVec 32) (i : (⟨1, ![50000]⟩ : Shape).Idx) :
    cnt1 (F := Ideal) ei i ≠ 0 := by
  rw [cnt1_apply]
  intro h
  have h1 : (1 : EReal) ≤ max (cnt (F := Ideal) ei i) 1 := le_max_right _ _
  rw [h] at h1
  exact absurd h1 (by norm_num)

/-- The host's quotient read at an index. -/
private theorem hostDivf_apply {s : Shape} (a b : FVec Ideal s .f32) (i : s.Idx) :
    Host.divf a b i = Ideal.div (a i) (b i) := rfl

/-- The reference's divisor at (p, q) is the clamped in-degree of node p. -/
private theorem nodeCols_apply (v : (⟨1, ![50000]⟩ : Shape).Idx → EReal) (p : Fin 50000) (q : Fin 128) :
    nodeCols (F := Ideal) v (ix2 p q) = v (ix1 p) := by
  unfold nodeCols
  rw [ColumnBroadcast.columns_apply, ColumnBroadcast.column_apply]

/-- The kernel's factor at (p, q) is one over the clamped in-degree of node p. -/
private theorem cinv_apply (ei : (⟨2, ![2, 800000]⟩ : Shape).Idx → BitVec 32) (p : Fin 50000) (q : Fin 128) :
    broadcastInDim (⟨2, ![50000, 128]⟩ : Shape) ![0, 1] Cert.KernelIdeal.Facts₀.bcast_S50000x1_S50000x128_0_1
        (cinvCol (F := Ideal) ei) (ix2 p q)
      = Ideal.div 1 (cnt1 (F := Ideal) ei (ix1 p)) := by
  rw [ColumnBroadcast.columns_apply]
  unfold cinvCol
  rw [ColumnBroadcast.column_apply]
  rw [hostDivf_apply, RowIndexed.bcast_scalar_apply, constant_apply, one_word]

/-! ## The two spellings of the mean agree -/

theorem meanK_eq_meanR (h : (⟨2, ![50000, 128]⟩ : Shape).Idx → EReal) (ei : (⟨2, ![2, 800000]⟩ : Shape).Idx → BitVec 32) :
    meanK (F := Ideal) h ei = meanR (F := Ideal) h ei := by
  funext j
  obtain ⟨p, q, rfl⟩ := idx2_cases j
  unfold meanK meanR
  rw [mulf_apply, cinv_apply, hostDivf_apply, nodeCols_apply]
  have hc := cnt1_ne_zero ei (ix1 p)
  unfold Ideal.div
  rw [if_neg hc, if_neg hc, one_mul]

/-! ## Every entry of the mean is a real number -/

/-- A gathered entry is an entry of the table. -/
private theorem gather_real {s si t : Shape} {w : Nat} (d : GatherDims s si t) (x : s.Idx → EReal) (idx : IVec si w)
    (hx : AllReal x) : AllReal (Host.gather d x idx) := fun j => hx _

/-- An accumulating scatter of real updates into a real operand is real: each entry is the operand's entry plus a
    finite sum of updates. -/
private theorem scatterAdd_real {s si u : Shape} {w : Nat} (d : ScatterDims s si u) (x : FVec Ideal s .f32) (idx : IVec si w)
    (upd : FVec Ideal u .f32) (hx : AllReal x) (hu : AllReal upd) : AllReal (Host.scatterAdd d x idx upd) := by
  intro i
  rw [RowIndexed.scatterAdd_ideal]
  unfold Ideal.hostScatterAdd
  exact (hx i).add (Moments.Fin'.sum _ _ fun j _ => hu j)

/-- The array of zeros is real. -/
private theorem zeros_real {t : Shape} (hb : (⟨0, ![]⟩ : Shape).BroadcastsInDim t ![]) :
    AllReal (broadcastInDim t ![] hb (constant (F := Ideal) ⟨0, ![]⟩ .f32 0x00000000#32)) := by
  intro i
  rw [RowIndexed.bcast_scalar_apply, constant_apply, zero_word']
  exact Moments.Fin'.zero

/-- The array of ones is real. -/
private theorem ones_real {t : Shape} (hb : (⟨0, ![]⟩ : Shape).BroadcastsInDim t ![]) :
    AllReal (broadcastInDim t ![] hb (constant (F := Ideal) ⟨0, ![]⟩ .f32 0x3F800000#32)) := by
  intro i
  rw [RowIndexed.bcast_scalar_apply, constant_apply, one_word]
  exact ⟨1, EReal.coe_one.symm⟩

/-- The neighbour sum of a real table is real. -/
private theorem agg_real (h : (⟨2, ![50000, 128]⟩ : Shape).Idx → EReal) (ei : (⟨2, ![2, 800000]⟩ : Shape).Idx → BitVec 32)
    (hh : AllReal h) : AllReal (agg (F := Ideal) h ei) := by
  unfold agg
  exact scatterAdd_real _ _ _ _ (zeros_real _) (gather_real _ _ _ hh)

/-- The in-degree is real: a finite sum of ones. -/
private theorem cnt_real (ei : (⟨2, ![2, 800000]⟩ : Shape).Idx → BitVec 32) : AllReal (cnt (F := Ideal) ei) := by
  unfold cnt
  exact scatterAdd_real _ _ _ _ (zeros_real _) (ones_real _)

/-- The clamped in-degree is a nonzero real. -/
private theorem cnt1_real (ei : (⟨2, ![2, 800000]⟩ : Shape).Idx → BitVec 32) (i : (⟨1, ![50000]⟩ : Shape).Idx) :
    ∃ r : ℝ, r ≠ 0 ∧ cnt1 (F := Ideal) ei i = (r : EReal) := by
  have hne := cnt1_ne_zero ei i
  have hfin : Moments.Fin' (cnt1 (F := Ideal) ei i) := by
    rw [cnt1_apply]
    exact (cnt_real ei i).max ⟨1, EReal.coe_one.symm⟩
  obtain ⟨r, hr⟩ := hfin
  refine ⟨r, ?_, hr⟩
  rintro rfl
  exact hne (by rw [hr, EReal.coe_zero])

theorem meanR_real (h : (⟨2, ![50000, 128]⟩ : Shape).Idx → EReal) (ei : (⟨2, ![2, 800000]⟩ : Shape).Idx → BitVec 32)
    (hh : AllReal h) : AllReal (meanR (F := Ideal) h ei) := by
  intro j
  obtain ⟨p, q, rfl⟩ := idx2_cases j
  unfold meanR
  rw [hostDivf_apply, nodeCols_apply]
  obtain ⟨r, hr0, hr⟩ := cnt1_real ei (ix1 p)
  rw [hr]
  exact (agg_real h ei hh _).div hr0

end Cert.Sage

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«127429_j19473381720256_1_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.LinMath.lean ====
/-
  The reference's linear stage  mean · Wlᵀ + own · Wrᵀ + b  read entry by entry.

  Each of the two products is a plain matrix product (left axis 1 contracted against right axis 0), so its entry (p, q)
  is the sum over k of left(p, k) · right(k, q); the right operands are the transposed weight matrices, kept folded, so
  the sums are term by term the ones of the block-wise stage's entry formula.  The bias reaches entry (p, q) through two
  broadcasts ([C] to [1, C] along axis 1, then [1, C] to [50000, C]) and reads b(q); the block-wise stage keeps the bias
  as one row [1, C] through a reshape and reads, at (0, q), the same b(q).

  From the entry formula every entry of the stage is a real number once every entry of the five operands is: a product
  of reals is real, a finite sum of reals is real, and entries of a transposed matrix or of a reshaped vector are entries
  of the original.
-/
import proofs.«127429_j19473381720256_1_alg».proof.Proof.Net
import proofs.«127429_j19473381720256_1_alg».proof.Proof.LibPlainDot
import proofs.«127429_j19473381720256_1_alg».proof.Proof.LibMoments
import Idealize.ShloMosaic.Lib.ValueLayout
import Idealize.ShloMosaic.Lib.Pipeline.Value

set_option quotPrecheck false

noncomputable section

open Idealize.ShloMosaic Idealize.ShloMosaic.ValueIdx

namespace Cert.Sage

/-! ## A vector copied into every row, and a vector kept as one row -/

section Rows
variable {α : Type}

/-- A vector of b entries kept as a 1 × b row (broadcast along axis 1) reads, at (u, q), the vector at q. -/
theorem row_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply ![1] h v (ix2 u q) (ix1 q) (fun ax => ?_)
  match ax with
  | ⟨0, _⟩ =>
    show q.val = if b = 1 then 0 else q.val
    have := q.isLt
    split <;> omega

/-- A 1 × b row copied into a rows (broadcast along axes 0, 1) reads, at (p, q), the row at (0, q). -/
theorem rows_apply {a b : ℕ} (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) (fun ax => ?_)
  match ax with
  | ⟨0, _⟩ => rfl
  | ⟨1, _⟩ =>
    show q.val = if b = 1 then 0 else q.val
    have := q.isLt
    split <;> omega

end Rows

variable [Cert.ReferenceIdeal.Facts₀] [Cert.KernelIdeal.Facts₀]

local notation "A[" a "," b "]" => (⟨2, ![a, b]⟩ : Shape).Idx → EReal
local notation "V[" a "]" => (⟨1, ![a]⟩ : Shape).Idx → EReal

/-- The bias copied into every row reads, at (p, q), the bias at q. -/
theorem rows128_apply (b : V[128]) (p : Fin 50000) (q : Fin 128) : rows128 (F := Ideal) b (ix2 p q) = b (ix1 q) := by
  unfold rows128
  rw [rows_apply, row_apply]

/-- The bias kept as one row reads, at (0, q), the bias at q. -/
theorem bRow128_apply (b : V[128]) (q : Fin 128) : bRow128 (F := Ideal) b (ix2 0 q) = b (ix1 q) := by
  unfold bRow128
  exact shapeCast_a_1a_apply b _ 0 q

theorem rows64_apply (b : V[64]) (p : Fin 50000) (q : Fin 64) : rows64 (F := Ideal) b (ix2 p q) = b (ix1 q) := by
  unfold rows64
  rw [rows_apply, row_apply]

theorem bRow64_apply (b : V[64]) (q : Fin 64) : bRow64 (F := Ideal) b (ix2 0 q) = b (ix1 q) := by
  unfold bRow64
  exact shapeCast_a_1a_apply b _ 0 q

theorem linR128_apply (mn h : A[50000,128]) (Wl Wr : A[128,128]) (b : V[128]) (p : Fin 50000) (q : Fin 128) :
    linR128 (F := Ideal) mn h Wl Wr b (ix2 p q)
      = linEntry mn h (wT128 (F := Ideal) Wl) (wT128 (F := Ideal) Wr) (bRow128 (F := Ideal) b) p q := by
  unfold linR128 linEntry
  rw [addf_apply, addf_apply, rows128_apply, bRow128_apply]
  have e1 := PlainDot.apply (M := 50000) (K := 128) (N := 128) (φ₁ := .f32) (φ₂ := .f32) none mn (wT128 (F := Ideal) Wl) p q
  have e2 := PlainDot.apply (M := 50000) (K := 128) (N := 128) (φ₁ := .f32) (φ₂ := .f32) none h (wT128 (F := Ideal) Wr) p q
  exact congrArg₂ (fun x y => x + y + b (ix1 q)) e1 e2

theorem linR64_apply (mn h : A[50000,128]) (Wl Wr : A[64,128]) (b : V[64]) (p : Fin 50000) (q : Fin 64) :
    linR64 (F := Ideal) mn h Wl Wr b (ix2 p q)
      = linEntry mn h (wT64 (F := Ideal) Wl) (wT64 (F := Ideal) Wr) (bRow64 (F := Ideal) b) p q := by
  unfold linR64 linEntry
  rw [addf_apply, addf_apply, rows64_apply, bRow64_apply]
  have e1 := PlainDot.apply (M := 50000) (K := 128) (N := 64) (φ₁ := .f32) (φ₂ := .f32) none mn (wT64 (F := Ideal) Wl) p q
  have e2 := PlainDot.apply (M := 50000) (K := 128) (N := 64) (φ₁ := .f32) (φ₂ := .f32) none h (wT64 (F := Ideal) Wr) p q
  exact congrArg₂ (fun x y => x + y + b (ix1 q)) e1 e2

/-! ## Every entry of the stage is a real number -/

/-- An entry of the transposed weight matrix is an entry of the matrix. -/
theorem wT128_apply (W : A[128,128]) (k q : Fin 128) : wT128 (F := Ideal) W (ix2 k q) = W (ix2 q k) := by
  unfold wT128
  exact transpose_ix2_apply W _ k q

theorem wT64_apply (W : A[64,128]) (k : Fin 128) (q : Fin 64) : wT64 (F := Ideal) W (ix2 k q) = W (ix2 q k) := by
  unfold wT64
  exact transpose_ix2_apply W _ k q

/-- The entry formula is a real number once every entry it reads is. -/
theorem linEntry_real {C : ℕ} (mn h : A[50000,128]) (wl wr : A[128,C]) (br : A[1,C]) (p : Fin 50000) (q : Fin C)
    (h1 : AllReal mn) (h2 : AllReal h) (h3 : ∀ k : Fin 128, Moments.Fin' (wl (ix2 k q)))
    (h4 : ∀ k : Fin 128, Moments.Fin' (wr (ix2 k q))) (h5 : Moments.Fin' (br (ix2 0 q))) :
    Moments.Fin' (linEntry mn h wl wr br p q) := by
  unfold linEntry
  exact ((Moments.Fin'.sum _ _ fun k _ => (h1 _).mul (h3 k)).add (Moments.Fin'.sum _ _ fun k _ => (h2 _).mul (h4 k))).add h5

theorem linR128_real (mn h : A[50000,128]) (Wl Wr : A[128,128]) (b : V[128]) (h1 : AllReal mn) (h2 : AllReal h)
    (h3 : AllReal Wl) (h4 : AllReal Wr) (h5 : AllReal b) : AllReal (linR128 (F := Ideal) mn h Wl Wr b) := by
  intro (j : (⟨2, ![50000, 128]⟩ : Shape).Idx)
  obtain ⟨p, q, rfl⟩ : ∃ (p : Fin 50000) (q : Fin 128), j = ix2 p q := ⟨j 0, j 1, eq_ix2 j⟩
  rw [linR128_apply]
  refine linEntry_real _ _ _ _ _ _ _ h1 h2 (fun k => ?_) (fun k => ?_) ?_
  · rw [wT128_apply]; exact h3 _
  · rw [wT128_apply]; exact h4 _
  · rw [bRow128_apply]; exact h5 _

theorem linR64_real (mn h : A[50000,128]) (Wl Wr : A[64,128]) (b : V[64]) (h1 : AllReal mn) (h2 : AllReal h)
    (h3 : AllReal Wl) (h4 : AllReal Wr) (h5 : AllReal b) : AllReal (linR64 (F := Ideal) mn h Wl Wr b) := by
  intro (j : (⟨2, ![50000, 64]⟩ : Shape).Idx)
  obtain ⟨p, q, rfl⟩ : ∃ (p : Fin 50000) (q : Fin 64), j = ix2 p q := ⟨j 0, j 1, eq_ix2 j⟩
  rw [linR64_apply]
  refine linEntry_real _ _ _ _ _ _ _ h1 h2 (fun k => ?_) (fun k => ?_) ?_
  · rw [wT64_apply]; exact h3 _
  · rw [wT64_apply]; exact h4 _
  · rw [bRow64_apply]; exact h5 _

end Cert.Sage

end
-- ==== Proof.LibVariance.lean ====
/-
  The variance identity on the extended reals, in the shape the two programs compute it.

  For a family f of N finite values, with every sum started from the zero word Z and every quotient the extended
  reals' division by the count word C = N, and μ = (Z + ∑ f) / C the mean:
      (Z + ∑ (f − μ)²) / C  =  (Z + ∑ f²) / C  −  μ²
  — the mean of the squared deviations from the mean on the left (what a variance over the whole array computes), the
  mean of the squares less the square of the mean on the right (what is computed from column sums and column sums of
  squares). Both sides are then reals, the common value is nonnegative, so adding a positive real leaves a positive real
  and the reciprocal square root of that is a real. Finiteness of every f r is needed: at an infinite entry the left
  side is +∞ and the right side is +∞ − +∞.

  Also here: the words that occur (zero, the counts 160000 and 400000, the stabiliser 1e-5) read as reals.
-/
import Mathlib
import Idealize.ShloMosaic.PureOps.Ideal
import proofs.«127429_j19473381720256_1_alg».proof.Proof.LibMoments

noncomputable section

namespace Moments

open Finset Idealize.ShloMosaic

/-! ## The words as reals -/

/-- The single-precision word of all zeros is the number 0. -/
theorem zero_word : Ideal.ofBits .f32 0x00000000#32 = 0 := by simp [Ideal.ofBits, Ideal.ieee]

/-- The word 0x481C4000 is the number 160000 = (2^23 + 1851392) · 2^(144 − 127 − 23). -/
theorem count160000_word : Ideal.ofBits .f32 0x481C4000#32 = ((160000 : ℝ) : EReal) := by
  simp [Ideal.ofBits, Ideal.ieee]
  rw [← EReal.coe_mul]
  norm_num

/-- The word 0x48C35000 is the number 400000 = (2^23 + 4411392) · 2^(145 − 127 − 23). -/
theorem count400000_word : Ideal.ofBits .f32 0x48C35000#32 = ((400000 : ℝ) : EReal) := by
  simp [Ideal.ofBits, Ideal.ieee]
  rw [← EReal.coe_mul]
  norm_num

/-- The stabiliser word 0x3727C5AC (about 1e-5) is a positive real. -/
theorem eps_word : ∃ e : ℝ, 0 < e ∧ Ideal.ofBits .f32 0x3727C5AC#32 = (e : EReal) := by
  refine ⟨_, ?_, by simp [Ideal.ofBits, Ideal.ieee]; rfl⟩
  positivity

/-! ## The reciprocal square root of a positive real -/

/-- At a positive real the reciprocal square root is the real 1 / √x. -/
theorem rsqrt_coe_pos {x : ℝ} (hx : 0 < x) : Ideal.rsqrt ((x : ℝ) : EReal) = (((Real.sqrt x)⁻¹ : ℝ) : EReal) := by
  rw [Ideal.rsqrt_coe, if_neg (not_lt.2 hx.le), if_neg hx.ne']

/-- The reciprocal square root of a positive real is finite. -/
theorem rsqrt_fin {x : ℝ} (hx : 0 < x) : Fin' (Ideal.rsqrt ((x : ℝ) : EReal)) := ⟨_, rsqrt_coe_pos hx⟩

/-- The reciprocal square root of a positive real is a positive real. -/
theorem rsqrt_pos {x : ℝ} (hx : 0 < x) : ∃ y : ℝ, 0 < y ∧ Ideal.rsqrt ((x : ℝ) : EReal) = (y : EReal) :=
  ⟨_, inv_pos.2 (Real.sqrt_pos.2 hx), rsqrt_coe_pos hx⟩

/-! ## The identity for a family of reals -/

/-- The two-moment identity on the extended reals for a family of reals: every quotient the extended reals'
    division by the count N, every sum started from 0. -/
theorem var_coe {ι : Type*} (s : Finset ι) (x : ι → ℝ) (N : ℝ) (hN : (s.card : ℝ) = N) (h0 : N ≠ 0) :
    Ideal.div (0 + ∑ i ∈ s, ((x i : EReal) - Ideal.div (0 + ∑ j ∈ s, (x j : EReal)) (N : EReal))
        * ((x i : EReal) - Ideal.div (0 + ∑ j ∈ s, (x j : EReal)) (N : EReal))) (N : EReal)
      = Ideal.div (0 + ∑ i ∈ s, (x i : EReal) * (x i : EReal)) (N : EReal)
        - Ideal.div (0 + ∑ j ∈ s, (x j : EReal)) (N : EReal) * Ideal.div (0 + ∑ j ∈ s, (x j : EReal)) (N : EReal) := by
  have hμ : Ideal.div (0 + ∑ j ∈ s, (x j : EReal)) (N : EReal) = (((∑ j ∈ s, x j) / N : ℝ) : EReal) := by
    rw [zero_add, ← coe_sum, div_coe_coe _ h0]
  rw [hμ]
  have h1 : ∀ i, ((x i : EReal) - (((∑ j ∈ s, x j) / N : ℝ) : EReal)) * ((x i : EReal) - (((∑ j ∈ s, x j) / N : ℝ) : EReal))
      = (((x i - (∑ j ∈ s, x j) / N) * (x i - (∑ j ∈ s, x j) / N) : ℝ) : EReal) := fun i => by
    rw [← EReal.coe_sub, ← EReal.coe_mul]
  have h2 : ∀ i, (x i : EReal) * (x i : EReal) = ((x i * x i : ℝ) : EReal) := fun i => (EReal.coe_mul _ _).symm
  simp only [h1, h2]
  rw [zero_add, zero_add, ← coe_sum, ← coe_sum, div_coe_coe _ h0, div_coe_coe _ h0, ← EReal.coe_mul, ← EReal.coe_sub,
    var_real s x N hN h0]

/-- The mean of squared deviations of a family of reals from any real m, over a positive count, is a nonnegative real. -/
theorem dev_coe_nonneg {ι : Type*} (s : Finset ι) (x : ι → ℝ) (m : ℝ) (N : ℝ) (hpos : 0 < N) :
    ∃ v : ℝ, 0 ≤ v ∧ Ideal.div (0 + ∑ i ∈ s, ((x i : EReal) - (m : EReal)) * ((x i : EReal) - (m : EReal))) (N : EReal) = (v : EReal) := by
  have h1 : ∀ i, ((x i : EReal) - (m : EReal)) * ((x i : EReal) - (m : EReal)) = (((x i - m) * (x i - m) : ℝ) : EReal) := fun i => by
    rw [← EReal.coe_sub, ← EReal.coe_mul]
  refine ⟨(∑ i ∈ s, (x i - m) * (x i - m)) / N, div_nonneg (Finset.sum_nonneg fun i _ => mul_self_nonneg _) hpos.le, ?_⟩
  simp only [h1]
  rw [zero_add, ← coe_sum, div_coe_coe _ hpos.ne']

/-! ## The identity for a finite family over a finite index type

  Z is the zero word, C the count word: hZ and hC say what numbers they are. -/

section Family

variable {ι : Type*} [Fintype ι] (N : ℝ) (Z C : EReal) (f : ι → EReal)

/-- The mean of a finite family is finite. -/
theorem mean_fin (h0 : N ≠ 0) (hZ : Z = 0) (hC : C = (N : EReal)) (hf : ∀ r, Fin' (f r)) :
    Fin' (Ideal.div (Z + ∑ j, f j) C) := by
  subst hZ hC
  exact (Fin'.zero.add (Fin'.sum _ _ fun i _ => hf i)).div h0

/-- The mean of the squares of a finite family is finite. -/
theorem meansq_fin (h0 : N ≠ 0) (hZ : Z = 0) (hC : C = (N : EReal)) (hf : ∀ r, Fin' (f r)) :
    Fin' (Ideal.div (Z + ∑ r, f r * f r) C) := by
  subst hZ hC
  exact (Fin'.zero.add (Fin'.sum _ _ fun i _ => (hf i).mul (hf i))).div h0

/-- The variance identity: the mean of the squared deviations from the mean is the mean of the squares less the square
    of the mean. -/
theorem var_fin (hN : (Fintype.card ι : ℝ) = N) (h0 : N ≠ 0) (hZ : Z = 0) (hC : C = (N : EReal)) (hf : ∀ r, Fin' (f r)) :
    Ideal.div (Z + ∑ r, (f r - Ideal.div (Z + ∑ j, f j) C) * (f r - Ideal.div (Z + ∑ j, f j) C)) C
      = Ideal.div (Z + ∑ r, f r * f r) C - Ideal.div (Z + ∑ j, f j) C * Ideal.div (Z + ∑ j, f j) C := by
  subst hZ hC
  choose x hx using hf
  obtain rfl : f = fun r => (x r : EReal) := funext hx
  exact var_coe Finset.univ x N (by rw [Finset.card_univ]; exact hN) h0

/-- The left side is a nonnegative real. -/
theorem var_nonneg (hpos : 0 < N) (hZ : Z = 0) (hC : C = (N : EReal)) (hf : ∀ r, Fin' (f r)) :
    ∃ v : ℝ, 0 ≤ v ∧
      Ideal.div (Z + ∑ r, (f r - Ideal.div (Z + ∑ j, f j) C) * (f r - Ideal.div (Z + ∑ j, f j) C)) C = (v : EReal) := by
  obtain ⟨m, hm⟩ := mean_fin N Z C f hpos.ne' hZ hC hf
  rw [hm]
  subst hZ hC
  choose x hx using hf
  obtain rfl : f = fun r => (x r : EReal) := funext hx
  exact dev_coe_nonneg Finset.univ x m N hpos

/-- The right side is the same nonnegative real. -/
theorem var2_nonneg (hN : (Fintype.card ι : ℝ) = N) (hpos : 0 < N) (hZ : Z = 0) (hC : C = (N : EReal)) (hf : ∀ r, Fin' (f r)) :
    ∃ v : ℝ, 0 ≤ v ∧
      Ideal.div (Z + ∑ r, f r * f r) C - Ideal.div (Z + ∑ j, f j) C * Ideal.div (Z + ∑ j, f j) C = (v : EReal) := by
  rw [← var_fin N Z C f hN hpos.ne' hZ hC hf]
  exact var_nonneg N Z C f hpos hZ hC hf

/-- Both sides are finite. -/
theorem var_fin' (hpos : 0 < N) (hZ : Z = 0) (hC : C = (N : EReal)) (hf : ∀ r, Fin' (f r)) :
    Fin' (Ideal.div (Z + ∑ r, (f r - Ideal.div (Z + ∑ j, f j) C) * (f r - Ideal.div (Z + ∑ j, f j) C)) C) := by
  obtain ⟨v, _, hv⟩ := var_nonneg N Z C f hpos hZ hC hf
  exact ⟨v, hv⟩

theorem var2_fin' (hN : (Fintype.card ι : ℝ) = N) (hpos : 0 < N) (hZ : Z = 0) (hC : C = (N : EReal)) (hf : ∀ r, Fin' (f r)) :
    Fin' (Ideal.div (Z + ∑ r, f r * f r) C - Ideal.div (Z + ∑ j, f j) C * Ideal.div (Z + ∑ j, f j) C) := by
  obtain ⟨v, _, hv⟩ := var2_nonneg N Z C f hN hpos hZ hC hf
  exact ⟨v, hv⟩

/-- The left side plus a positive real E is a positive real. -/
theorem var_add_pos (hpos : 0 < N) (hZ : Z = 0) (hC : C = (N : EReal)) (hf : ∀ r, Fin' (f r))
    (E : EReal) (hE : ∃ e : ℝ, 0 < e ∧ E = (e : EReal)) :
    ∃ y : ℝ, 0 < y ∧
      Ideal.div (Z + ∑ r, (f r - Ideal.div (Z + ∑ j, f j) C) * (f r - Ideal.div (Z + ∑ j, f j) C)) C + E = (y : EReal) := by
  obtain ⟨v, hv0, hv⟩ := var_nonneg N Z C f hpos hZ hC hf
  obtain ⟨e, he0, rfl⟩ := hE
  exact ⟨v + e, by linarith, by rw [hv, EReal.coe_add]⟩

/-- The reciprocal square root of the left side plus a positive real is finite. -/
theorem rsqrt_var_fin (hpos : 0 < N) (hZ : Z = 0) (hC : C = (N : EReal)) (hf : ∀ r, Fin' (f r))
    (E : EReal) (hE : ∃ e : ℝ, 0 < e ∧ E = (e : EReal)) :
    Fin' (Ideal.rsqrt
      (Ideal.div (Z + ∑ r, (f r - Ideal.div (Z + ∑ j, f j) C) * (f r - Ideal.div (Z + ∑ j, f j) C)) C + E)) := by
  obtain ⟨y, hy0, hy⟩ := var_add_pos N Z C f hpos hZ hC hf E hE
  rw [hy]
  exact rsqrt_fin hy0

end Family

/-! ## The two instances: 160000 rows and 400000 rows, with the words as the programs carry them -/

/-- 160000 rows. -/
theorem var160000 (f : Fin 160000 → EReal) (hf : ∀ r, Fin' (f r)) :
    Ideal.div (Ideal.ofBits .f32 0x00000000#32 + ∑ r, (f r - Ideal.div (Ideal.ofBits .f32 0x00000000#32 + ∑ j, f j) (Ideal.ofBits .f32 0x481C4000#32))
        * (f r - Ideal.div (Ideal.ofBits .f32 0x00000000#32 + ∑ j, f j) (Ideal.ofBits .f32 0x481C4000#32))) (Ideal.ofBits .f32 0x481C4000#32)
      = Ideal.div (Ideal.ofBits .f32 0x00000000#32 + ∑ r, f r * f r) (Ideal.ofBits .f32 0x481C4000#32)
        - Ideal.div (Ideal.ofBits .f32 0x00000000#32 + ∑ j, f j) (Ideal.ofBits .f32 0x481C4000#32)
          * Ideal.div (Ideal.ofBits .f32 0x00000000#32 + ∑ j, f j) (Ideal.ofBits .f32 0x481C4000#32) :=
  var_fin 160000 _ _ f (by rw [Fintype.card_fin]; norm_num) (by norm_num) zero_word count160000_word hf

theorem mean160000_fin (f : Fin 160000 → EReal) (hf : ∀ r, Fin' (f r)) :
    Fin' (Ideal.div (Ideal.ofBits .f32 0x00000000#32 + ∑ j, f j) (Ideal.ofBits .f32 0x481C4000#32)) :=
  mean_fin 160000 _ _ f (by norm_num) zero_word count160000_word hf

/-- 160000 rows: the variance plus the stabiliser is a positive real. -/
theorem var160000_add_eps_pos (f : Fin 160000 → EReal) (hf : ∀ r, Fin' (f r)) :
    ∃ y : ℝ, 0 < y ∧
      Ideal.div (Ideal.ofBits .f32 0x00000000#32 + ∑ r, (f r - Ideal.div (Ideal.ofBits .f32 0x00000000#32 + ∑ j, f j) (Ideal.ofBits .f32 0x481C4000#32))
        * (f r - Ideal.div (Ideal.ofBits .f32 0x00000000#32 + ∑ j, f j) (Ideal.ofBits .f32 0x481C4000#32))) (Ideal.ofBits .f32 0x481C4000#32)
        + Ideal.ofBits .f32 0x3727C5AC#32 = (y : EReal) :=
  var_add_pos 160000 _ _ f (by norm_num) zero_word count160000_word hf _ eps_word

/-- 400000 rows. -/
theorem var400000 (f : Fin 400000 → EReal) (hf : ∀ r, Fin' (f r)) :
    Ideal.div (Ideal.ofBits .f32 0x00000000#32 + ∑ r, (f r - Ideal.div (Ideal.ofBits .f32 0x00000000#32 + ∑ j, f j) (Ideal.ofBits .f32 0x48C35000#32))
        * (f r - Ideal.div (Ideal.ofBits .f32 0x00000000#32 + ∑ j, f j) (Ideal.ofBits .f32 0x48C35000#32))) (Ideal.ofBits .f32 0x48C35000#32)
      = Ideal.div (Ideal.ofBits .f32 0x00000000#32 + ∑ r, f r * f r) (Ideal.ofBits .f32 0x48C35000#32)
        - Ideal.div (Ideal.ofBits .f32 0x00000000#32 + ∑ j, f j) (Ideal.ofBits .f32 0x48C35000#32)
          * Ideal.div (Ideal.ofBits .f32 0x00000000#32 + ∑ j, f j) (Ideal.ofBits .f32 0x48C35000#32) :=
  var_fin 400000 _ _ f (by rw [Fintype.card_fin]; norm_num) (by norm_num) zero_word count400000_word hf

theorem mean400000_fin (f : Fin 400000 → EReal) (hf : ∀ r, Fin' (f r)) :
    Fin' (Ideal.div (Ideal.ofBits .f32 0x00000000#32 + ∑ j, f j) (Ideal.ofBits .f32 0x48C35000#32)) :=
  mean_fin 400000 _ _ f (by norm_num) zero_word count400000_word hf

/-- 400000 rows: the variance plus the stabiliser is a positive real. -/
theorem var400000_add_eps_pos (f : Fin 400000 → EReal) (hf : ∀ r, Fin' (f r)) :
    ∃ y : ℝ, 0 < y ∧
      Ideal.div (Ideal.ofBits .f32 0x00000000#32 + ∑ r, (f r - Ideal.div (Ideal.ofBits .f32 0x00000000#32 + ∑ j, f j) (Ideal.ofBits .f32 0x48C35000#32))
        * (f r - Ideal.div (Ideal.ofBits .f32 0x00000000#32 + ∑ j, f j) (Ideal.ofBits .f32 0x48C35000#32))) (Ideal.ofBits .f32 0x48C35000#32)
        + Ideal.ofBits .f32 0x3727C5AC#32 = (y : EReal) :=
  var_add_pos 400000 _ _ f (by norm_num) zero_word count400000_word hf _ eps_word

end Moments

end
-- ==== Proof.NormMathA.lean ====
/-
  Layout operations and a column sum, read at coordinates.

  A scalar copied everywhere reads the scalar; a vector of b entries kept as a 1 × b row reads its entry q at (0, q);
  a 1 × b row copied into every one of a rows reads, at (p, q), the row's entry q; and the host's sum of an a × b matrix
  over its first axis is, at column q, the initial value plus the sum of the a entries (k, q) of that column. At the
  exact values the host's quotient and reciprocal square root read entry by entry.
-/
import Idealize.ShloMosaic.Lib.ValueLayout
import Idealize.ShloMosaic.Lib.Pipeline.Value
import Idealize.ShloMosaic.PureOps.Ideal.Laws

noncomputable section

namespace ColumnStats

open Idealize.ShloMosaic Idealize.ShloMosaic.ValueIdx

variable {α : Type}

/-- A scalar copied everywhere reads the scalar's one entry. -/
theorem splat_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector kept as one row reads, at (u, q), the vector at q. -/
theorem row_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply ![1] h v (ix2 u q) (ix1 q) (fun ax => ?_)
  match ax with
  | ⟨0, _⟩ =>
    show q.val = if b = 1 then 0 else q.val
    have := q.isLt
    split <;> omega

/-- One row copied into every row reads, at (p, q), the row at (0, q). -/
theorem rows_apply {a b : ℕ} (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) (fun ax => ?_)
  match ax with
  | ⟨0, _⟩ => rfl
  | ⟨1, _⟩ =>
    show q.val = if b = 1 then 0 else q.val
    have := q.isLt
    split <;> omega

/-- The host's quotient at an index, at the exact values: the extended reals' division of the entries. -/
theorem hostDivf_apply {s : Shape} {φ : FTy} (x y : FVec Ideal s φ) (i : s.Idx) :
    Host.divf x y i = Ideal.div (x i) (y i) := rfl

/-- The host's reciprocal square root at an index, at the exact values. -/
theorem hostRsqrt_apply {s : Shape} {φ : FTy} (x : FVec Ideal s φ) (i : s.Idx) :
    Host.rsqrt x i = Ideal.rsqrt (x i) := rfl

/-- The index a reduction over axis 0 reads at column q and position k is (k, q). -/
theorem lift_col {a b : ℕ} (h : (⟨2, ![a, b]⟩ : Shape).Reduces [0] ⟨1, ![b]⟩) (q : Fin b) (k : Fin a) :
    h.lift (ix1 q) k = ix2 k q :=
  funext fun ax => Fin.ext (by match ax with | ⟨0, _⟩ => rfl | ⟨1, _⟩ => rfl)

/-- The host's sum over the first axis, at column q: the initial value plus the sum of that column's entries. -/
theorem hostColSum_at {a b : ℕ} {u : Shape} (x : FVec Ideal ⟨2, ![a, b]⟩ .f32) (init : FVec Ideal u .f32)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduceAdd (F := Ideal) x init h' hu (ix1 q) = init (Shape.Idx.first hu) + ∑ k : Fin a, x (ix2 k q) := by
  simp only [Host.reduceAdd, Ideal.hostReduceAdd_def]
  rw [Ideal.hostReduceAdd_single h' h]
  exact congrArg (_ + ·) (Finset.sum_congr rfl fun k _ => congrArg x (lift_col h q k))

end ColumnStats

end
-- ==== Proof.NormMath.lean ====
/-
  The normalise-and-clamp stage: the reference's spelling and the kernel's agree entry by entry on real inputs.

  Column q of a 50000 × 128 array h of reals has mean μ = (∑ h)/50000, variance v = (∑ (h − μ)²)/50000 ≥ 0 and
  reciprocal standard deviation r = 1/√(v + ε) with ε > 0; all three are real numbers. The reference computes
  max(((h − μ)·r)·γ + β, 0) and the kernel max(h·(γ·r) + (β − (μ·γ)·r), 0); with every quantity real the two
  agree by distributivity (which fails at the infinities: this is where realness is used), and the common value is real.
-/
import proofs.«127429_j19473381720256_1_alg».proof.Proof.Net
import proofs.«127429_j19473381720256_1_alg».proof.Proof.LibVariance
import proofs.«127429_j19473381720256_1_alg».proof.Proof.NormMathA

set_option quotPrecheck false

noncomputable section

open Idealize.ShloMosaic Idealize.ShloMosaic.ValueIdx

namespace Cert.Sage
variable [Cert.ReferenceIdeal.Facts₀] [Cert.KernelIdeal.Facts₀]
open Cert.ReferenceIdeal Cert.ReferenceIdeal.Facts₀ Moments

local notation "A[" a "," b "]" => (⟨2, ![a, b]⟩ : Shape).Idx → EReal
local notation "V[" a "]" => (⟨1, ![a]⟩ : Shape).Idx → EReal
local notation "Zw" => Ideal.ofBits .f32 0x00000000#32
local notation "Cw" => Ideal.ofBits .f32 0x47435000#32
local notation "Ew" => Ideal.ofBits .f32 0x3727C5AC#32

/-- The word 0x47435000 is the number 50000 = (2^23 + 4411392) · 2^(142 − 127 − 23). -/
private theorem count50000_word : Cw = ((50000 : ℝ) : EReal) := by
  simp [Ideal.ofBits, Ideal.ieee]
  rw [← EReal.coe_mul]
  norm_num

/-! ## The stages read at coordinates -/

/-- A column's sum at q: the zero word plus the sum of the column's 50000 entries. -/
private theorem colSum_apply (x : A[50000,128]) (q : Fin 128) :
    colSum (F := Ideal) x (ix1 q) = Zw + ∑ k : Fin 50000, x (ix2 k q) :=
  ColumnStats.hostColSum_at x _ reducesTo_S50000x128_S128_d0 (by decide) h_S_ q

/-- A column's mean at q. -/
private theorem mu_apply (x : A[50000,128]) (q : Fin 128) :
    mu (F := Ideal) x (ix1 q) = Ideal.div (Zw + ∑ k : Fin 50000, x (ix2 k q)) Cw := by
  unfold mu
  rw [ColumnStats.hostDivf_apply, colSum_apply, ColumnStats.splat_apply, constant_apply]

/-- A vector over the columns copied into every row reads, at (p, q), the vector at q. -/
private theorem rows128_apply (v : V[128]) (p : Fin 50000) (q : Fin 128) :
    rows128 (F := Ideal) v (ix2 p q) = v (ix1 q) := by
  unfold rows128
  rw [ColumnStats.rows_apply, ColumnStats.row_apply]

/-- A centred entry: the entry less its column's mean. -/
private theorem centred_apply (x : A[50000,128]) (p : Fin 50000) (q : Fin 128) :
    centred (F := Ideal) x (ix2 p q) = x (ix2 p q) - Ideal.div (Zw + ∑ k : Fin 50000, x (ix2 k q)) Cw := by
  unfold centred
  rw [subf_apply, ColumnStats.rows_apply, ColumnStats.hostDivf_apply, ColumnStats.row_apply, ColumnStats.splat_apply,
    colSum_apply, constant_apply]

/-- The number of observations is 50000. -/
private theorem nobs_apply (i : S_.Idx) : nobs (F := Ideal) i = ((50000 : ℝ) : EReal) := by
  show Cw - (((0#32 : BitVec 32).toInt : ℝ) : EReal) = _
  rw [count50000_word, ← EReal.coe_sub]
  norm_num

/-- A column's variance at q: the guard on the number of observations passes, and what is left is the mean of the
    squared deviations of the column's entries from the column's mean. -/
private theorem var_apply (x : A[50000,128]) (q : Fin 128) :
    var (F := Ideal) x (ix1 q)
      = Ideal.div (Zw + ∑ r : Fin 50000, (x (ix2 r q) - Ideal.div (Zw + ∑ j : Fin 50000, x (ix2 j q)) Cw)
          * (x (ix2 r q) - Ideal.div (Zw + ∑ j : Fin 50000, x (ix2 j q)) Cw)) Cw := by
  have hc : broadcastInDim S128 ![] bcast_S_S128
      (cmpf .ogt (nobs (F := Ideal)) (constant (F := Ideal) S_ .f32 0x00000000#32)) (ix1 q) = 1#1 := by
    rw [ColumnStats.splat_apply, cmpf_apply, nobs_apply, constant_apply, Ideal.cmpf_def, zero_word]
    have h0 : (0 : EReal) < ((50000 : ℝ) : EReal) := by exact_mod_cast (by norm_num : (0 : ℝ) < 50000)
    simp [Ideal.cmp, h0]
  unfold var
  rw [select_apply, hc, select_one]
  rw [ColumnStats.hostDivf_apply, colSum_apply, ColumnStats.splat_apply, nobs_apply, ← count50000_word]
  simp only [mulf_apply, centred_apply]

/-- A column's reciprocal standard deviation at q. -/
private theorem rstd_apply (x : A[50000,128]) (q : Fin 128) :
    rstd (F := Ideal) x (ix1 q)
      = Ideal.rsqrt (Ideal.div (Zw + ∑ r : Fin 50000, (x (ix2 r q) - Ideal.div (Zw + ∑ j : Fin 50000, x (ix2 j q)) Cw)
          * (x (ix2 r q) - Ideal.div (Zw + ∑ j : Fin 50000, x (ix2 j q)) Cw)) Cw + Ew) := by
  unfold rstd
  rw [ColumnStats.hostRsqrt_apply, addf_apply, var_apply, ColumnStats.splat_apply, constant_apply]

/-- The kernel's gain row at column q: γ·r. -/
private theorem scaleRow_apply (x : A[50000,128]) (g : V[128]) (q : Fin 128) :
    scaleRow (F := Ideal) x g (ix2 (0 : Fin 1) q) = g (ix1 q) * rstd (F := Ideal) x (ix1 q) := by
  unfold scaleRow
  rw [shapeCast_a_1a_apply, mulf_apply]

/-- The kernel's offset row at column q: β − (μ·γ)·r. -/
private theorem shiftRow_apply (x : A[50000,128]) (g be : V[128]) (q : Fin 128) :
    shiftRow (F := Ideal) x g be (ix2 (0 : Fin 1) q)
      = be (ix1 q) - (mu (F := Ideal) x (ix1 q) * g (ix1 q)) * rstd (F := Ideal) x (ix1 q) := by
  unfold shiftRow
  rw [shapeCast_a_1a_apply, subf_apply, mulf_apply, mulf_apply]

/-! ## The column statistics of a real array are real -/

/-- The mean of a column of reals is real. -/
private theorem mu_real (x : A[50000,128]) (hx : AllReal x) (q : Fin 128) : Fin' (mu (F := Ideal) x (ix1 q)) := by
  rw [mu_apply]
  exact mean_fin 50000 _ _ (fun k : Fin 50000 => x (ix2 k q)) (by norm_num) zero_word count50000_word (fun r => hx _)

/-- The reciprocal standard deviation of a column of reals is real: the variance is a nonnegative real and the
    stabiliser a positive one. -/
private theorem rstd_real (x : A[50000,128]) (hx : AllReal x) (q : Fin 128) : Fin' (rstd (F := Ideal) x (ix1 q)) := by
  rw [rstd_apply]
  exact rsqrt_var_fin 50000 _ _ (fun k : Fin 50000 => x (ix2 k q)) (by norm_num) zero_word count50000_word
    (fun r => hx _) _ eps_word

/-! ## The two spellings agree -/

/-- Over the reals: ((a − m)·r)·c + b = a·(c·r) + (b − (m·c)·r), carried to the extended reals. -/
private theorem norm_identity (a m r c b : ℝ) :
    (((a : EReal) - (m : EReal)) * (r : EReal)) * (c : EReal) + (b : EReal)
      = (a : EReal) * ((c : EReal) * (r : EReal)) + ((b : EReal) - ((m : EReal) * (c : EReal)) * (r : EReal)) := by
  rw [← EReal.coe_sub, ← EReal.coe_mul, ← EReal.coe_mul, ← EReal.coe_add, ← EReal.coe_mul, ← EReal.coe_mul,
    ← EReal.coe_mul, ← EReal.coe_mul, ← EReal.coe_sub, ← EReal.coe_add]
  exact congrArg _ (by ring)

theorem bnR_apply (h : A[50000,128]) (g be : V[128]) (hh : AllReal h) (hg : AllReal g) (hbe : AllReal be)
    (p : Fin 50000) (q : Fin 128) :
    bnR (F := Ideal) h g be (ix2 p q) = bnEntry h (scaleRow (F := Ideal) h g) (shiftRow (F := Ideal) h g be) p q := by
  obtain ⟨a, ha⟩ := hh (ix2 p q)
  obtain ⟨m, hm⟩ := mu_real h hh q
  obtain ⟨r, hr⟩ := rstd_real h hh q
  obtain ⟨c, hc⟩ := hg (ix1 q)
  obtain ⟨b, hb⟩ := hbe (ix1 q)
  unfold bnR bnEntry
  rw [maximumf_apply, addf_apply, mulf_apply, mulf_apply, subf_apply, rows128_apply, rows128_apply, rows128_apply,
    rows128_apply, ColumnStats.splat_apply, constant_apply, zero_word, scaleRow_apply, shiftRow_apply,
    ha, hm, hr, hc, hb, norm_identity]

theorem bnR_real (h : A[50000,128]) (g be : V[128]) (hh : AllReal h) (hg : AllReal g) (hbe : AllReal be) :
    AllReal (bnR (F := Ideal) h g be) := by
  intro i
  obtain ⟨p, q, rfl⟩ : ∃ (p : Fin 50000) (q : Fin 128), i = ix2 p q := ⟨i 0, i 1, eq_ix2 i⟩
  rw [bnR_apply h g be hh hg hbe p q]
  unfold bnEntry
  rw [scaleRow_apply, shiftRow_apply]
  exact Fin'.max
    (Fin'.add (Fin'.mul (hh _) (Fin'.mul (hg _) (rstd_real h hh q)))
      (Fin'.sub (hbe _) (Fin'.mul (Fin'.mul (mu_real h hh q) (hg _)) (rstd_real h hh q))))
    Fin'.zero

end Cert.Sage

end
-- ==== Proof.Bridge.lean ====
/-
  The two compositions are one function of the arguments when every float argument is real.

  Layer by layer.  The neighbour mean is the same array in both programs (a product with the reciprocal of a number
  that is at least one is the quotient by it).  The block-wise linear stage and the reference's matrix products have
  the same entries, so a layer's output is the same array, and it is real when its inputs are.  On a real array the
  two spellings of the normalisation, h·(γ·r) + (β − (μ·γ)·r) and ((h − μ)·r)·γ + β, agree (distributivity, which
  needs every factor real), and the clamped result is real again.  Three layers, two normalisations.
-/
import proofs.«127429_j19473381720256_1_alg».proof.Proof.Net
import proofs.«127429_j19473381720256_1_alg».proof.Proof.MeanMath
import proofs.«127429_j19473381720256_1_alg».proof.Proof.LinMath
import proofs.«127429_j19473381720256_1_alg».proof.Proof.NormMath

set_option quotPrecheck false

noncomputable section

open Idealize.ShloMosaic Idealize.ShloMosaic.ValueIdx

namespace Cert.Sage

variable [Cert.ReferenceIdeal.Facts₀] [Cert.KernelIdeal.Facts₀]

local notation "A[" a "," b "]" => (⟨2, ![a, b]⟩ : Shape).Idx → EReal
local notation "V[" a "]" => (⟨1, ![a]⟩ : Shape).Idx → EReal
local notation "EI" => (⟨2, ![2, 800000]⟩ : Shape).Idx → BitVec 32

/-- A layer at 128 output columns: the kernel's block-wise stage of its own mean is the reference's stage of its
    mean, entry by entry. -/
theorem layerK128_eq (h : A[50000,128]) (ei : EI) (Wl Wr : A[128,128]) (b : V[128]) :
    layerK128 h ei Wl Wr b = linR128 (F := Ideal) (meanR (F := Ideal) h ei) h Wl Wr b := by
  funext j
  obtain ⟨p, q, rfl⟩ : ∃ (p : Fin 50000) (q : Fin 128), j = ix2 p q := ⟨j 0, j 1, eq_ix2 j⟩
  unfold layerK128
  rw [linK_ix2, meanK_eq_meanR, linR128_apply]

/-- The last layer, at 64 output columns. -/
theorem layerK64_eq (h : A[50000,128]) (ei : EI) (Wl Wr : A[64,128]) (b : V[64]) :
    layerK64 h ei Wl Wr b = linR64 (F := Ideal) (meanR (F := Ideal) h ei) h Wl Wr b := by
  funext j
  obtain ⟨p, q, rfl⟩ : ∃ (p : Fin 50000) (q : Fin 64), j = ix2 p q := ⟨j 0, j 1, eq_ix2 j⟩
  unfold layerK64
  rw [linK_ix2, meanK_eq_meanR, linR64_apply]

/-- On a real array, with real gains and offsets, the kernel's normalise-and-clamp is the reference's. -/
theorem normK_eq (h : A[50000,128]) (g be : V[128]) (hh : AllReal h) (hg : AllReal g) (hbe : AllReal be) :
    normK h g be = bnR (F := Ideal) h g be := by
  funext j
  obtain ⟨p, q, rfl⟩ : ∃ (p : Fin 50000) (q : Fin 128), j = ix2 p q := ⟨j 0, j 1, eq_ix2 j⟩
  unfold normK
  rw [bnK_ix2, bnR_apply h g be hh hg hbe]

/-- A layer's output is real when the activations, the weights and the bias are. -/
theorem layer_real (h : A[50000,128]) (ei : EI) (Wl Wr : A[128,128]) (b : V[128]) (hh : AllReal h)
    (hWl : AllReal Wl) (hWr : AllReal Wr) (hb : AllReal b) :
    AllReal (linR128 (F := Ideal) (meanR (F := Ideal) h ei) h Wl Wr b) :=
  linR128_real _ _ _ _ _ (meanR_real h ei hh) hh hWl hWr hb

/-- The kernel's composition is the reference's, on real arguments. -/
theorem outK_eq_outR (x : A[50000,128]) (ei : EI) (Wl1 Wr1 : A[128,128]) (b1 g1 be1 : V[128])
    (Wl2 Wr2 : A[128,128]) (b2 g2 be2 : V[128]) (Wl3 Wr3 : A[64,128]) (b3 : V[64])
    (hx : AllReal x) (hWl1 : AllReal Wl1) (hWr1 : AllReal Wr1) (hb1 : AllReal b1) (hg1 : AllReal g1) (hbe1 : AllReal be1)
    (hWl2 : AllReal Wl2) (hWr2 : AllReal Wr2) (hb2 : AllReal b2) (hg2 : AllReal g2) (hbe2 : AllReal be2) :
    outK x ei Wl1 Wr1 b1 g1 be1 Wl2 Wr2 b2 g2 be2 Wl3 Wr3 b3
      = outR (F := Ideal) x ei Wl1 Wr1 b1 g1 be1 Wl2 Wr2 b2 g2 be2 Wl3 Wr3 b3 := by
  unfold outK outR
  have e1 := layerK128_eq x ei Wl1 Wr1 b1
  have r1 := layer_real x ei Wl1 Wr1 b1 hx hWl1 hWr1 hb1
  rw [e1, normK_eq _ g1 be1 r1 hg1 hbe1]
  have ra1 := bnR_real _ g1 be1 r1 hg1 hbe1
  rw [layerK128_eq _ ei Wl2 Wr2 b2]
  have r2 := layer_real _ ei Wl2 Wr2 b2 ra1 hWl2 hWr2 hb2
  rw [normK_eq _ g2 be2 r2 hg2 hbe2, layerK64_eq]

end Cert.Sage

end
-- ==== Proof.KerRunFrame.lean ====
/-
  The kernel program's run with every unscoped buffer read at the end: from any launch memory with zero counters,
  every weakly fair execution of the program on the TensorCores terminates without fault, and in every final state
  each unscoped buffer holds the contents of the last segment boundary of the fold through the program.
-/
import proofs.«127429_j19473381720256_1_alg».proof.Proof.Gen.KernelIdeal.Frame
import Idealize.ShloMosaic.PureOps.Ideal

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- The launch over the program's fourteen segments, the last thread state read against the final state: every
    unscoped buffer ends at the last boundary's contents. -/
theorem run_all : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W14 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

end Cert.KernelIdeal.KerRun

end
-- ==== Proof.KerRunHost0.lean ====
/-
  What each stretch of host operations of the kernel program leaves in the buffers the block-wise stages read, at
  any contents of the buffers when the stretch is entered: the neighbour mean of the activations, the transposed
  weights and the bias row before a linear stage; the per-column gain and offset rows before a normalise-and-clamp
  stage; and the edge columns and the reciprocal column computed once by the first stretch.
-/
import proofs.«127429_j19473381720256_1_alg».proof.Proof.Net
import proofs.«127429_j19473381720256_1_alg».proof.Proof.Gen.KernelIdeal.Frame
import proofs.«127429_j19473381720256_1_alg».proof.Proof.Gen.KernelIdeal
import proofs.«127429_j19473381720256_1_alg».proof.Proof.Gen.ReferenceIdeal
import Idealize.ShloMosaic.PureOps.Ideal

set_option maxRecDepth 16384

noncomputable section

namespace Cert.KernelIdeal.KerRun

open Cert.KernelIdeal Cert.KernelIdeal.Gen
open Idealize.ShloMosaic Idealize.ShloMosaic.TcCoe Idealize.ShloMosaic.StableHlo Idealize.SL.Sem

variable (W : Valuation τ sig (Elt Ideal))

/-! ## The first stretch: the edge columns, the reciprocal of the clamped in-degree, the first layer's operands -/

theorem h0_v1 : StableHlo.after (hostOps0 (F := Ideal)) W (Proc.devRef .tc main_v1) = Cert.Sage.srcv (F := Ideal) (W (Proc.devRef .tc main_arg1)) := by
  dsimp only [hostOps0]; after_results_simp; rfl

theorem h0_v3 : StableHlo.after (hostOps0 (F := Ideal)) W (Proc.devRef .tc main_v3) = Cert.Sage.dstv (F := Ideal) (W (Proc.devRef .tc main_arg1)) := by
  dsimp only [hostOps0]; after_results_simp; rfl

theorem h0_v12 : StableHlo.after (hostOps0 (F := Ideal)) W (Proc.devRef .tc main_v12) = Cert.Sage.cinvCol (F := Ideal) (W (Proc.devRef .tc main_arg1)) := by
  dsimp only [hostOps0]; after_results_simp; rfl

theorem h0_v24 : StableHlo.after (hostOps0 (F := Ideal)) W (Proc.devRef .tc main_v24)
    = Cert.Sage.meanK (F := Ideal) (W (Proc.devRef .tc main_arg0)) (W (Proc.devRef .tc main_arg1)) := by
  dsimp only [hostOps0]; after_results_simp; rfl

theorem h0_v25 : StableHlo.after (hostOps0 (F := Ideal)) W (Proc.devRef .tc main_v25) = Cert.Sage.wT128 (F := Ideal) (W (Proc.devRef .tc main_arg2)) := by
  dsimp only [hostOps0]; after_results_simp; rfl

theorem h0_v26 : StableHlo.after (hostOps0 (F := Ideal)) W (Proc.devRef .tc main_v26) = Cert.Sage.wT128 (F := Ideal) (W (Proc.devRef .tc main_arg3)) := by
  dsimp only [hostOps0]; after_results_simp; rfl

theorem h0_v27 : StableHlo.after (hostOps0 (F := Ideal)) W (Proc.devRef .tc main_v27) = Cert.Sage.bRow128 (F := Ideal) (W (Proc.devRef .tc main_arg4)) := by
  dsimp only [hostOps0]; after_results_simp; rfl

end Cert.KernelIdeal.KerRun

end
-- ==== Proof.KerRunHost1.lean ====
/-
  The three stretches between a linear stage and the normalise-and-clamp stage after it (the column means, the inlined
  variance, the gain and offset rows), at any contents of the buffers when the first of them is entered: the two rows
  the block-wise stage reads, and the linear stage's output untouched.
-/
import proofs.«127429_j19473381720256_1_alg».proof.Proof.Net
import proofs.«127429_j19473381720256_1_alg».proof.Proof.Gen.KernelIdeal.Frame
import proofs.«127429_j19473381720256_1_alg».proof.Proof.Gen.KernelIdeal
import proofs.«127429_j19473381720256_1_alg».proof.Proof.Gen.ReferenceIdeal
import Idealize.ShloMosaic.PureOps.Ideal

set_option maxRecDepth 16384

noncomputable section

namespace Cert.KernelIdeal.KerRun

open Cert.KernelIdeal Cert.KernelIdeal.Gen
open Idealize.ShloMosaic Idealize.ShloMosaic.TcCoe Idealize.ShloMosaic.StableHlo Idealize.SL.Sem

variable (W : Valuation τ sig (Elt Ideal))

/-! ## After the first linear stage -/

theorem h1_v37 : (StableHlo.after (hostOps1_2 (F := Ideal)) (StableHlo.after (hostOps1_1 (F := Ideal)) (StableHlo.after (hostOps1 (F := Ideal)) W))) (Proc.devRef .tc main_v37)
    = Cert.Sage.scaleRow (F := Ideal) (W (Proc.devRef .tc main_v28)) (W (Proc.devRef .tc main_arg5)) := by
  dsimp only [hostOps1, hostOps1_1, hostOps1_2]; after_results_simp; rfl

theorem h1_v41 : (StableHlo.after (hostOps1_2 (F := Ideal)) (StableHlo.after (hostOps1_1 (F := Ideal)) (StableHlo.after (hostOps1 (F := Ideal)) W))) (Proc.devRef .tc main_v41)
    = Cert.Sage.shiftRow (F := Ideal) (W (Proc.devRef .tc main_v28)) (W (Proc.devRef .tc main_arg5)) (W (Proc.devRef .tc main_arg6)) := by
  dsimp only [hostOps1, hostOps1_1, hostOps1_2]; after_results_simp; rfl

theorem h1_v28 : (StableHlo.after (hostOps1_2 (F := Ideal)) (StableHlo.after (hostOps1_1 (F := Ideal)) (StableHlo.after (hostOps1 (F := Ideal)) W))) (Proc.devRef .tc main_v28) = W (Proc.devRef .tc main_v28) := by
  dsimp only [hostOps1, hostOps1_1, hostOps1_2]; after_results_simp

/-! ## After the second linear stage -/

theorem h3_v67 : (StableHlo.after (hostOps3_2 (F := Ideal)) (StableHlo.after (hostOps3_1 (F := Ideal)) (StableHlo.after (hostOps3 (F := Ideal)) W))) (Proc.devRef .tc main_v67)
    = Cert.Sage.scaleRow (F := Ideal) (W (Proc.devRef .tc main_v58)) (W (Proc.devRef .tc main_arg10)) := by
  dsimp only [hostOps3, hostOps3_1, hostOps3_2]; after_results_simp; rfl

theorem h3_v71 : (StableHlo.after (hostOps3_2 (F := Ideal)) (StableHlo.after (hostOps3_1 (F := Ideal)) (StableHlo.after (hostOps3 (F := Ideal)) W))) (Proc.devRef .tc main_v71)
    = Cert.Sage.shiftRow (F := Ideal) (W (Proc.devRef .tc main_v58)) (W (Proc.devRef .tc main_arg10)) (W (Proc.devRef .tc main_arg11)) := by
  dsimp only [hostOps3, hostOps3_1, hostOps3_2]; after_results_simp; rfl

theorem h3_v58 : (StableHlo.after (hostOps3_2 (F := Ideal)) (StableHlo.after (hostOps3_1 (F := Ideal)) (StableHlo.after (hostOps3 (F := Ideal)) W))) (Proc.devRef .tc main_v58) = W (Proc.devRef .tc main_v58) := by
  dsimp only [hostOps3, hostOps3_1, hostOps3_2]; after_results_simp

end Cert.KernelIdeal.KerRun

end
-- ==== Proof.KerRunHost2.lean ====
/-
  The stretch before the second and the third linear stage, at any contents of the buffers when it is entered at which
  the edge columns and the reciprocal column are the first stretch's: the neighbour mean of the activations, the
  transposed weights, the bias row, and the activations untouched.
-/
import proofs.«127429_j19473381720256_1_alg».proof.Proof.Net
import proofs.«127429_j19473381720256_1_alg».proof.Proof.Gen.KernelIdeal.Frame
import proofs.«127429_j19473381720256_1_alg».proof.Proof.Gen.KernelIdeal
import proofs.«127429_j19473381720256_1_alg».proof.Proof.Gen.ReferenceIdeal
import Idealize.ShloMosaic.PureOps.Ideal

set_option maxRecDepth 16384

noncomputable section

namespace Cert.KernelIdeal.KerRun

open Cert.KernelIdeal Cert.KernelIdeal.Gen
open Idealize.ShloMosaic Idealize.ShloMosaic.TcCoe Idealize.ShloMosaic.StableHlo Idealize.SL.Sem

variable (W : Valuation τ sig (Elt Ideal))

/-! ## Before the second linear stage -/

theorem h2_v54 (a : (⟨2, ![50000, 128]⟩ : Shape).Idx → EReal) (ei : (⟨2, ![2, 800000]⟩ : Shape).Idx → BitVec 32)
    (h42 : W (Proc.devRef .tc main_v42) = a) (h1 : W (Proc.devRef .tc main_v1) = Cert.Sage.srcv (F := Ideal) ei)
    (h3 : W (Proc.devRef .tc main_v3) = Cert.Sage.dstv (F := Ideal) ei) (h12 : W (Proc.devRef .tc main_v12) = Cert.Sage.cinvCol (F := Ideal) ei) :
    StableHlo.after (hostOps2 (F := Ideal)) W (Proc.devRef .tc main_v54) = Cert.Sage.meanK (F := Ideal) a ei := by
  dsimp only [hostOps2]; after_results_simp; rw [h42, h1, h3, h12]; rfl

theorem h2_v42 : StableHlo.after (hostOps2 (F := Ideal)) W (Proc.devRef .tc main_v42) = W (Proc.devRef .tc main_v42) := by
  dsimp only [hostOps2]; after_results_simp

theorem h2_v55 : StableHlo.after (hostOps2 (F := Ideal)) W (Proc.devRef .tc main_v55) = Cert.Sage.wT128 (F := Ideal) (W (Proc.devRef .tc main_arg7)) := by
  dsimp only [hostOps2]; after_results_simp; rfl

theorem h2_v56 : StableHlo.after (hostOps2 (F := Ideal)) W (Proc.devRef .tc main_v56) = Cert.Sage.wT128 (F := Ideal) (W (Proc.devRef .tc main_arg8)) := by
  dsimp only [hostOps2]; after_results_simp; rfl

theorem h2_v57 : StableHlo.after (hostOps2 (F := Ideal)) W (Proc.devRef .tc main_v57) = Cert.Sage.bRow128 (F := Ideal) (W (Proc.devRef .tc main_arg9)) := by
  dsimp only [hostOps2]; after_results_simp; rfl

/-! ## Before the third linear stage -/

theorem h4_v84 (a : (⟨2, ![50000, 128]⟩ : Shape).Idx → EReal) (ei : (⟨2, ![2, 800000]⟩ : Shape).Idx → BitVec 32)
    (h72 : W (Proc.devRef .tc main_v72) = a) (h1 : W (Proc.devRef .tc main_v1) = Cert.Sage.srcv (F := Ideal) ei)
    (h3 : W (Proc.devRef .tc main_v3) = Cert.Sage.dstv (F := Ideal) ei) (h12 : W (Proc.devRef .tc main_v12) = Cert.Sage.cinvCol (F := Ideal) ei) :
    StableHlo.after (hostOps4 (F := Ideal)) W (Proc.devRef .tc main_v84) = Cert.Sage.meanK (F := Ideal) a ei := by
  dsimp only [hostOps4]; after_results_simp; rw [h72, h1, h3, h12]; rfl

theorem h4_v72 : StableHlo.after (hostOps4 (F := Ideal)) W (Proc.devRef .tc main_v72) = W (Proc.devRef .tc main_v72) := by
  dsimp only [hostOps4]; after_results_simp

theorem h4_v85 : StableHlo.after (hostOps4 (F := Ideal)) W (Proc.devRef .tc main_v85) = Cert.Sage.wT64 (F := Ideal) (W (Proc.devRef .tc main_arg12)) := by
  dsimp only [hostOps4]; after_results_simp; rfl

theorem h4_v86 : StableHlo.after (hostOps4 (F := Ideal)) W (Proc.devRef .tc main_v86) = Cert.Sage.wT64 (F := Ideal) (W (Proc.devRef .tc main_arg13)) := by
  dsimp only [hostOps4]; after_results_simp; rfl

theorem h4_v87 : StableHlo.after (hostOps4 (F := Ideal)) W (Proc.devRef .tc main_v87) = Cert.Sage.bRow64 (F := Ideal) (W (Proc.devRef .tc main_arg14)) := by
  dsimp only [hostOps4]; after_results_simp; rfl

end Cert.KernelIdeal.KerRun

end
-- ==== Proof.KerRunKeep0.lean ====
/-
  Buffers the first stretch of host operations does not write keep their contents.
-/
import proofs.«127429_j19473381720256_1_alg».proof.Proof.Net
import proofs.«127429_j19473381720256_1_alg».proof.Proof.Gen.KernelIdeal.Frame
import proofs.«127429_j19473381720256_1_alg».proof.Proof.Gen.KernelIdeal
import proofs.«127429_j19473381720256_1_alg».proof.Proof.Gen.ReferenceIdeal
import Idealize.ShloMosaic.PureOps.Ideal

set_option maxRecDepth 16384

noncomputable section

namespace Cert.KernelIdeal.KerRun

open Cert.KernelIdeal Cert.KernelIdeal.Gen
open Idealize.ShloMosaic Idealize.ShloMosaic.TcCoe Idealize.ShloMosaic.StableHlo Idealize.SL.Sem

variable (W : Valuation τ sig (Elt Ideal))

theorem k0_arg0 : (StableHlo.after (hostOps0 (F := Ideal)) W) (Proc.devRef .tc main_arg0) = W (Proc.devRef .tc main_arg0) := by
  dsimp only [hostOps0]; after_results_simp

theorem k0_arg5 : (StableHlo.after (hostOps0 (F := Ideal)) W) (Proc.devRef .tc main_arg5) = W (Proc.devRef .tc main_arg5) := by
  dsimp only [hostOps0]; after_results_simp

theorem k0_arg6 : (StableHlo.after (hostOps0 (F := Ideal)) W) (Proc.devRef .tc main_arg6) = W (Proc.devRef .tc main_arg6) := by
  dsimp only [hostOps0]; after_results_simp

theorem k0_arg7 : (StableHlo.after (hostOps0 (F := Ideal)) W) (Proc.devRef .tc main_arg7) = W (Proc.devRef .tc main_arg7) := by
  dsimp only [hostOps0]; after_results_simp

theorem k0_arg8 : (StableHlo.after (hostOps0 (F := Ideal)) W) (Proc.devRef .tc main_arg8) = W (Proc.devRef .tc main_arg8) := by
  dsimp only [hostOps0]; after_results_simp

theorem k0_arg9 : (StableHlo.after (hostOps0 (F := Ideal)) W) (Proc.devRef .tc main_arg9) = W (Proc.devRef .tc main_arg9) := by
  dsimp only [hostOps0]; after_results_simp

theorem k0_arg10 : (StableHlo.after (hostOps0 (F := Ideal)) W) (Proc.devRef .tc main_arg10) = W (Proc.devRef .tc main_arg10) := by
  dsimp only [hostOps0]; after_results_simp

theorem k0_arg11 : (StableHlo.after (hostOps0 (F := Ideal)) W) (Proc.devRef .tc main_arg11) = W (Proc.devRef .tc main_arg11) := by
  dsimp only [hostOps0]; after_results_simp

theorem k0_arg12 : (StableHlo.after (hostOps0 (F := Ideal)) W) (Proc.devRef .tc main_arg12) = W (Proc.devRef .tc main_arg12) := by
  dsimp only [hostOps0]; after_results_simp

theorem k0_arg13 : (StableHlo.after (hostOps0 (F := Ideal)) W) (Proc.devRef .tc main_arg13) = W (Proc.devRef .tc main_arg13) := by
  dsimp only [hostOps0]; after_results_simp

theorem k0_arg14 : (StableHlo.after (hostOps0 (F := Ideal)) W) (Proc.devRef .tc main_arg14) = W (Proc.devRef .tc main_arg14) := by
  dsimp only [hostOps0]; after_results_simp

end Cert.KernelIdeal.KerRun

end
-- ==== Proof.KerRunKeepA.lean ====
/-
  Buffers the three stretches after the first linear stage do not write keep their contents.
-/
import proofs.«127429_j19473381720256_1_alg».proof.Proof.Net
import proofs.«127429_j19473381720256_1_alg».proof.Proof.Gen.KernelIdeal.Frame
import proofs.«127429_j19473381720256_1_alg».proof.Proof.Gen.KernelIdeal
import proofs.«127429_j19473381720256_1_alg».proof.Proof.Gen.ReferenceIdeal
import Idealize.ShloMosaic.PureOps.Ideal

set_option maxRecDepth 16384

noncomputable section

namespace Cert.KernelIdeal.KerRun

open Cert.KernelIdeal Cert.KernelIdeal.Gen
open Idealize.ShloMosaic Idealize.ShloMosaic.TcCoe Idealize.ShloMosaic.StableHlo Idealize.SL.Sem

variable (W : Valuation τ sig (Elt Ideal))

theorem kA_v1 : (StableHlo.after (hostOps1_2 (F := Ideal)) (StableHlo.after (hostOps1_1 (F := Ideal)) (StableHlo.after (hostOps1 (F := Ideal)) W))) (Proc.devRef .tc main_v1) = W (Proc.devRef .tc main_v1) := by
  dsimp only [hostOps1, hostOps1_1, hostOps1_2]; after_results_simp

theorem kA_v3 : (StableHlo.after (hostOps1_2 (F := Ideal)) (StableHlo.after (hostOps1_1 (F := Ideal)) (StableHlo.after (hostOps1 (F := Ideal)) W))) (Proc.devRef .tc main_v3) = W (Proc.devRef .tc main_v3) := by
  dsimp only [hostOps1, hostOps1_1, hostOps1_2]; after_results_simp

theorem kA_v12 : (StableHlo.after (hostOps1_2 (F := Ideal)) (StableHlo.after (hostOps1_1 (F := Ideal)) (StableHlo.after (hostOps1 (F := Ideal)) W))) (Proc.devRef .tc main_v12) = W (Proc.devRef .tc main_v12) := by
  dsimp only [hostOps1, hostOps1_1, hostOps1_2]; after_results_simp

theorem kA_arg7 : (StableHlo.after (hostOps1_2 (F := Ideal)) (StableHlo.after (hostOps1_1 (F := Ideal)) (StableHlo.after (hostOps1 (F := Ideal)) W))) (Proc.devRef .tc main_arg7) = W (Proc.devRef .tc main_arg7) := by
  dsimp only [hostOps1, hostOps1_1, hostOps1_2]; after_results_simp

theorem kA_arg8 : (StableHlo.after (hostOps1_2 (F := Ideal)) (StableHlo.after (hostOps1_1 (F := Ideal)) (StableHlo.after (hostOps1 (F := Ideal)) W))) (Proc.devRef .tc main_arg8) = W (Proc.devRef .tc main_arg8) := by
  dsimp only [hostOps1, hostOps1_1, hostOps1_2]; after_results_simp

theorem kA_arg9 : (StableHlo.after (hostOps1_2 (F := Ideal)) (StableHlo.after (hostOps1_1 (F := Ideal)) (StableHlo.after (hostOps1 (F := Ideal)) W))) (Proc.devRef .tc main_arg9) = W (Proc.devRef .tc main_arg9) := by
  dsimp only [hostOps1, hostOps1_1, hostOps1_2]; after_results_simp

theorem kA_arg10 : (StableHlo.after (hostOps1_2 (F := Ideal)) (StableHlo.after (hostOps1_1 (F := Ideal)) (StableHlo.after (hostOps1 (F := Ideal)) W))) (Proc.devRef .tc main_arg10) = W (Proc.devRef .tc main_arg10) := by
  dsimp only [hostOps1, hostOps1_1, hostOps1_2]; after_results_simp

theorem kA_arg11 : (StableHlo.after (hostOps1_2 (F := Ideal)) (StableHlo.after (hostOps1_1 (F := Ideal)) (StableHlo.after (hostOps1 (F := Ideal)) W))) (Proc.devRef .tc main_arg11) = W (Proc.devRef .tc main_arg11) := by
  dsimp only [hostOps1, hostOps1_1, hostOps1_2]; after_results_simp

theorem kA_arg12 : (StableHlo.after (hostOps1_2 (F := Ideal)) (StableHlo.after (hostOps1_1 (F := Ideal)) (StableHlo.after (hostOps1 (F := Ideal)) W))) (Proc.devRef .tc main_arg12) = W (Proc.devRef .tc main_arg12) := by
  dsimp only [hostOps1, hostOps1_1, hostOps1_2]; after_results_simp

theorem kA_arg13 : (StableHlo.after (hostOps1_2 (F := Ideal)) (StableHlo.after (hostOps1_1 (F := Ideal)) (StableHlo.after (hostOps1 (F := Ideal)) W))) (Proc.devRef .tc main_arg13) = W (Proc.devRef .tc main_arg13) := by
  dsimp only [hostOps1, hostOps1_1, hostOps1_2]; after_results_simp

theorem kA_arg14 : (StableHlo.after (hostOps1_2 (F := Ideal)) (StableHlo.after (hostOps1_1 (F := Ideal)) (StableHlo.after (hostOps1 (F := Ideal)) W))) (Proc.devRef .tc main_arg14) = W (Proc.devRef .tc main_arg14) := by
  dsimp only [hostOps1, hostOps1_1, hostOps1_2]; after_results_simp

end Cert.KernelIdeal.KerRun

end
-- ==== Proof.KerRunKeep2.lean ====
/-
  Buffers the stretch before the second linear stage does not write keep their contents.
-/
import proofs.«127429_j19473381720256_1_alg».proof.Proof.Net
import proofs.«127429_j19473381720256_1_alg».proof.Proof.Gen.KernelIdeal.Frame
import proofs.«127429_j19473381720256_1_alg».proof.Proof.Gen.KernelIdeal
import proofs.«127429_j19473381720256_1_alg».proof.Proof.Gen.ReferenceIdeal
import Idealize.ShloMosaic.PureOps.Ideal

set_option maxRecDepth 16384

noncomputable section

namespace Cert.KernelIdeal.KerRun

open Cert.KernelIdeal Cert.KernelIdeal.Gen
open Idealize.ShloMosaic Idealize.ShloMosaic.TcCoe Idealize.ShloMosaic.StableHlo Idealize.SL.Sem

variable (W : Valuation τ sig (Elt Ideal))

theorem k2_v1 : (StableHlo.after (hostOps2 (F := Ideal)) W) (Proc.devRef .tc main_v1) = W (Proc.devRef .tc main_v1) := by
  dsimp only [hostOps2]; after_results_simp

theorem k2_v3 : (StableHlo.after (hostOps2 (F := Ideal)) W) (Proc.devRef .tc main_v3) = W (Proc.devRef .tc main_v3) := by
  dsimp only [hostOps2]; after_results_simp

theorem k2_v12 : (StableHlo.after (hostOps2 (F := Ideal)) W) (Proc.devRef .tc main_v12) = W (Proc.devRef .tc main_v12) := by
  dsimp only [hostOps2]; after_results_simp

theorem k2_arg10 : (StableHlo.after (hostOps2 (F := Ideal)) W) (Proc.devRef .tc main_arg10) = W (Proc.devRef .tc main_arg10) := by
  dsimp only [hostOps2]; after_results_simp

theorem k2_arg11 : (StableHlo.after (hostOps2 (F := Ideal)) W) (Proc.devRef .tc main_arg11) = W (Proc.devRef .tc main_arg11) := by
  dsimp only [hostOps2]; after_results_simp

theorem k2_arg12 : (StableHlo.after (hostOps2 (F := Ideal)) W) (Proc.devRef .tc main_arg12) = W (Proc.devRef .tc main_arg12) := by
  dsimp only [hostOps2]; after_results_simp

theorem k2_arg13 : (StableHlo.after (hostOps2 (F := Ideal)) W) (Proc.devRef .tc main_arg13) = W (Proc.devRef .tc main_arg13) := by
  dsimp only [hostOps2]; after_results_simp

theorem k2_arg14 : (StableHlo.after (hostOps2 (F := Ideal)) W) (Proc.devRef .tc main_arg14) = W (Proc.devRef .tc main_arg14) := by
  dsimp only [hostOps2]; after_results_simp

end Cert.KernelIdeal.KerRun

end
-- ==== Proof.KerRunKeepB.lean ====
/-
  Buffers the three stretches after the second linear stage do not write keep their contents.
-/
import proofs.«127429_j19473381720256_1_alg».proof.Proof.Net
import proofs.«127429_j19473381720256_1_alg».proof.Proof.Gen.KernelIdeal.Frame
import proofs.«127429_j19473381720256_1_alg».proof.Proof.Gen.KernelIdeal
import proofs.«127429_j19473381720256_1_alg».proof.Proof.Gen.ReferenceIdeal
import Idealize.ShloMosaic.PureOps.Ideal

set_option maxRecDepth 16384

noncomputable section

namespace Cert.KernelIdeal.KerRun

open Cert.KernelIdeal Cert.KernelIdeal.Gen
open Idealize.ShloMosaic Idealize.ShloMosaic.TcCoe Idealize.ShloMosaic.StableHlo Idealize.SL.Sem

variable (W : Valuation τ sig (Elt Ideal))

theorem kB_v1 : (StableHlo.after (hostOps3_2 (F := Ideal)) (StableHlo.after (hostOps3_1 (F := Ideal)) (StableHlo.after (hostOps3 (F := Ideal)) W))) (Proc.devRef .tc main_v1) = W (Proc.devRef .tc main_v1) := by
  dsimp only [hostOps3, hostOps3_1, hostOps3_2]; after_results_simp

theorem kB_v3 : (StableHlo.after (hostOps3_2 (F := Ideal)) (StableHlo.after (hostOps3_1 (F := Ideal)) (StableHlo.after (hostOps3 (F := Ideal)) W))) (Proc.devRef .tc main_v3) = W (Proc.devRef .tc main_v3) := by
  dsimp only [hostOps3, hostOps3_1, hostOps3_2]; after_results_simp

theorem kB_v12 : (StableHlo.after (hostOps3_2 (F := Ideal)) (StableHlo.after (hostOps3_1 (F := Ideal)) (StableHlo.after (hostOps3 (F := Ideal)) W))) (Proc.devRef .tc main_v12) = W (Proc.devRef .tc main_v12) := by
  dsimp only [hostOps3, hostOps3_1, hostOps3_2]; after_results_simp

theorem kB_arg12 : (StableHlo.after (hostOps3_2 (F := Ideal)) (StableHlo.after (hostOps3_1 (F := Ideal)) (StableHlo.after (hostOps3 (F := Ideal)) W))) (Proc.devRef .tc main_arg12) = W (Proc.devRef .tc main_arg12) := by
  dsimp only [hostOps3, hostOps3_1, hostOps3_2]; after_results_simp

theorem kB_arg13 : (StableHlo.after (hostOps3_2 (F := Ideal)) (StableHlo.after (hostOps3_1 (F := Ideal)) (StableHlo.after (hostOps3 (F := Ideal)) W))) (Proc.devRef .tc main_arg13) = W (Proc.devRef .tc main_arg13) := by
  dsimp only [hostOps3, hostOps3_1, hostOps3_2]; after_results_simp

theorem kB_arg14 : (StableHlo.after (hostOps3_2 (F := Ideal)) (StableHlo.after (hostOps3_1 (F := Ideal)) (StableHlo.after (hostOps3 (F := Ideal)) W))) (Proc.devRef .tc main_arg14) = W (Proc.devRef .tc main_arg14) := by
  dsimp only [hostOps3, hostOps3_1, hostOps3_2]; after_results_simp

end Cert.KernelIdeal.KerRun

end
-- ==== Proof.KerNormA.lean ====
/-
  The normalise-and-clamp stage of the kernel, region 1: what its grid of 25 points leaves in the output array.

  Point t of the grid handles rows 2000·t … 2000·t + 1999.  Its body stores, over the whole block, the pointwise
  value max(h·scale + shift, 0), where h is the point's block of the layer output and scale, shift are the two
  per-column rows (the same whole rows at every point).  So the block a point writes back is the restriction to
  its rows of one whole-array function of the three arrays the region finds, and since row r lies in the block of
  point r / 2000, the array ends holding that function everywhere.
-/
import proofs.«127429_j19473381720256_1_alg».proof.Proof.Net
import proofs.«127429_j19473381720256_1_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KerRegions
open Cert.KernelIdeal Cert.KernelIdeal.Gen

/-- The zero offsets of a whole-block access. -/
theorem zeroOffA : (![0, 0] : Fin 2 → Nat) = fun _ => 0 := funext fun a => by fin_cases a <;> rfl

/-- A row [1,128] broadcast to [2000,128], read at (r, q), is the row at (0, q). -/
theorem rowBroadcastA_apply (x : Vec Ideal S1x128 .f32) (r : Fin 2000) (q : Fin 128) :
    broadcastTo S2000x128 x broadcasts_S1x128_S2000x128 (ix2 r q) = x (ix2 0 q) := by
  refine broadcastTo_apply x _ (ix2 r q) (ix2 0 q) fun a => ?_
  match a with
  | ⟨0, _⟩ => rfl
  | ⟨1, _⟩ => rfl

/-- The stored value at (r, q): max(x0(r,q) · x1(0,q) + x2(0,q), 0); the same-shape casts are identities and the
    zero word is the real 0. -/
theorem pay1_apply (x0 : Vec Ideal S2000x128 .f32) (x1 x2 : Vec Ideal S1x128 .f32) (r : Fin 2000) (q : Fin 128) :
    k1_pay1 x0 x1 x2 (ix2 r q) = max (x0 (ix2 r q) * x1 (ix2 0 q) + x2 (ix2 0 q)) 0 := by
  unfold k1_pay1
  simp only [shapeCast_self]
  rw [maximumf_apply, addf_apply, mulf_apply, broadcast_apply, rowBroadcastA_apply, rowBroadcastA_apply]
  rw [show (Scalar.ofBits .f32 0x00000000#32 : Ideal .f32) = 0 from Ideal.ofBits_zero_f32]

/-- If the block x0 at j is the array h at i, with the same column, and the two loaded rows are the rows sc and sh,
    then the stored value at j is the whole-array stage function at i. -/
theorem pay1_blk (h : (⟨2, ![50000, 128]⟩ : Shape).Idx → EReal) (sc sh : (⟨2, ![1, 128]⟩ : Shape).Idx → EReal)
    (x0 : Vec Ideal S2000x128 .f32) (x1 x2 : Vec Ideal S1x128 .f32) (j : S2000x128.Idx) (i : S50000x128.Idx)
    (hx0 : x0 j = h i) (hi1 : (i 1).val = (j 1).val)
    (hx1 : ∀ q : Fin 128, x1 (ix2 0 q) = sc (ix2 0 q)) (hx2 : ∀ q : Fin 128, x2 (ix2 0 q) = sh (ix2 0 q)) :
    k1_pay1 x0 x1 x2 j = Cert.Sage.bnK h sc sh i := by
  obtain ⟨r, q, rfl⟩ : ∃ (r : Fin 2000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext hi1
  rw [pay1_apply, Cert.Sage.bnK_ix2]
  unfold Cert.Sage.bnEntry
  rw [hx0, hx1, hx2]

variable (V : (c : Dev nD) → (b : Ref sig .tc) → Buf (Elt Ideal) ((c : Thread nD τ).loc b))

/-- The index maps over the grid: the layer-output block moves with the output block, whose row-block index is the
    point and whose column-block index is 0; the two rows stay at block (0, 0). -/
theorem idx_facts1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the stage function of the three arrays as the region finds them. -/
theorem flushed1_eq (c : Dev nD) (t : Fin cfg1.N) :
    (dat1 (F := Ideal) V c).flushed 3 t
      = ((cfg1.win 3).blk t).view.read (Elt Ideal) (Cert.Sage.bnK (V c main_v28) (V c main_v37) (V c main_v41)) := by
  show (cfg1.win 3).cut (grid1.coords t) ((dat1 V c).after 3 t) = _
  rw [after1_3]
  unfold out1_3
  rw [View.canon_unit_zero zeroOffA]
  simp only [View.ld_unit_zero (S := S2000x128) zeroOffA, View.ld_unit_zero (S := S1x128) zeroOffA]
  obtain ⟨e0, e1, e2, e3, e4, e5, e6, e7⟩ := idx_facts1 t
  funext j
  refine pay1_blk (V c main_v28) (V c main_v37) (V c main_v41) (iblk1 V c 0 t) (iblk1 V c 1 t) (iblk1 V c 2 t) j
    (((cfg1.win 3).blk t).view.emb j) ?_ ?_ (fun q => ?_) (fun q => ?_)
  · -- the layer-output block sits where the output block sits
    unfold iblk1
    rw [View.read_apply]
    show V c main_v28 (((cfg1.win 0).blk t).view.emb j) = V c main_v28 (((cfg1.win 3).blk t).view.emb j)
    refine congrArg _ (funext fun a => Fin.ext ?_)
    match a with
    | ⟨0, _⟩ => show win1_0.index t (0 : Fin 2) * 2000 + 1 * (j 0).val = win1_3.index t (0 : Fin 2) * 2000 + 1 * (j 0).val; rw [e0]
    | ⟨1, _⟩ => show win1_0.index t (1 : Fin 2) * 128 + 1 * (j 1).val = win1_3.index t (1 : Fin 2) * 128 + 1 * (j 1).val; rw [e1, e7]
  · -- the output block's columns are the array's columns
    show win1_3.index t (1 : Fin 2) * 128 + 1 * (j 1).val = (j 1).val
    rw [e7]; omega
  · -- the gain row's block is the whole row
    unfold iblk1
    rw [View.read_apply]
    show V c main_v37 (((cfg1.win 1).blk t).view.emb (ix2 0 q)) = V c main_v37 (ix2 0 q)
    refine congrArg _ (funext fun a => Fin.ext ?_)
    match a with
    | ⟨0, _⟩ => show win1_1.index t (0 : Fin 2) * 1 + 1 * 0 = 0; rw [e2]
    | ⟨1, _⟩ => show win1_1.index t (1 : Fin 2) * 128 + 1 * q.val = q.val; rw [e3]; omega
  · -- the offset row's block is the whole row
    unfold iblk1
    rw [View.read_apply]
    show V c main_v41 (((cfg1.win 2).blk t).view.emb (ix2 0 q)) = V c main_v41 (ix2 0 q)
    refine congrArg _ (funext fun a => Fin.ext ?_)
    match a with
    | ⟨0, _⟩ => show win1_2.index t (0 : Fin 2) * 1 + 1 * 0 = 0; rw [e4]
    | ⟨1, _⟩ => show win1_2.index t (1 : Fin 2) * 128 + 1 * q.val = q.val; rw [e5]; omega

/-- Row r of the array lies in the block of point r / 2000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, e6, e7⟩ := idx_facts1 t
  have ht : t.val = (i 0).val / 2000 := rfl
  refine ⟨t, flush1_3 t, ?_⟩
  show i ∈ ((View.whole main_v42).slice (win1_3.rect t)).set
  rw [View.set_slice_whole, Rect.mem_set_unit]
  intro a
  match a with
  | ⟨0, _⟩ =>
    show win1_3.index t (0 : Fin 2) * 2000 ≤ (i 0).val ∧ (i 0).val < win1_3.index t (0 : Fin 2) * 2000 + 2000
    rw [e6, ht]; omega
  | ⟨1, _⟩ =>
    show win1_3.index t (1 : Fin 2) * 128 ≤ (i 1).val ∧ (i 1).val < win1_3.index t (1 : Fin 2) * 128 + 128
    rw [e7]; omega

/-- The output array after the region: the stage function of the three arrays the region finds. -/
theorem region1 (c : Dev nD) : (dat1 (F := Ideal) V c).arrAt 3 cfg1.N
    = Cert.Sage.bnK (V c main_v28) (V c main_v37) (V c main_v41) :=
  (dat1 (F := Ideal) V c).arrAt_eq_of_cover 3 (Cert.Sage.bnK (V c main_v28) (V c main_v37) (V c main_v41))
    (fun t _ => flushed1_eq V c t) cover1

end Cert.KernelIdeal.KerRegions

end
-- ==== Proof.KerNormB.lean ====
/-
  The normalise-and-clamp stage of the kernel, region 3: what its grid of 25 points leaves in the output array.

  Point t of the grid handles rows 2000·t … 2000·t + 1999.  Its body stores, over the whole block, the pointwise
  value max(h·scale + shift, 0), where h is the point's block of the layer output and scale, shift are the two
  per-column rows (the same whole rows at every point).  So the block a point writes back is the restriction to
  its rows of one whole-array function of the three arrays the region finds, and since row r lies in the block of
  point r / 2000, the array ends holding that function everywhere.
-/
import proofs.«127429_j19473381720256_1_alg».proof.Proof.Net
import proofs.«127429_j19473381720256_1_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KerRegions
open Cert.KernelIdeal Cert.KernelIdeal.Gen

/-- The zero offsets of a whole-block access. -/
theorem zeroOffB : (![0, 0] : Fin 2 → Nat) = fun _ => 0 := funext fun a => by fin_cases a <;> rfl

/-- A row [1,128] broadcast to [2000,128], read at (r, q), is the row at (0, q). -/
theorem rowBroadcastB_apply (x : Vec Ideal S1x128 .f32) (r : Fin 2000) (q : Fin 128) :
    broadcastTo S2000x128 x broadcasts_S1x128_S2000x128 (ix2 r q) = x (ix2 0 q) := by
  refine broadcastTo_apply x _ (ix2 r q) (ix2 0 q) fun a => ?_
  match a with
  | ⟨0, _⟩ => rfl
  | ⟨1, _⟩ => rfl

/-- The stored value at (r, q): max(x0(r,q) · x1(0,q) + x2(0,q), 0); the same-shape casts are identities and the
    zero word is the real 0. -/
theorem pay3_apply (x0 : Vec Ideal S2000x128 .f32) (x1 x2 : Vec Ideal S1x128 .f32) (r : Fin 2000) (q : Fin 128) :
    k3_pay1 x0 x1 x2 (ix2 r q) = max (x0 (ix2 r q) * x1 (ix2 0 q) + x2 (ix2 0 q)) 0 := by
  unfold k3_pay1
  simp only [shapeCast_self]
  rw [maximumf_apply, addf_apply, mulf_apply, broadcast_apply, rowBroadcastB_apply, rowBroadcastB_apply]
  rw [show (Scalar.ofBits .f32 0x00000000#32 : Ideal .f32) = 0 from Ideal.ofBits_zero_f32]

/-- If the block x0 at j is the array h at i, with the same column, and the two loaded rows are the rows sc and sh,
    then the stored value at j is the whole-array stage function at i. -/
theorem pay3_blk (h : (⟨2, ![50000, 128]⟩ : Shape).Idx → EReal) (sc sh : (⟨2, ![1, 128]⟩ : Shape).Idx → EReal)
    (x0 : Vec Ideal S2000x128 .f32) (x1 x2 : Vec Ideal S1x128 .f32) (j : S2000x128.Idx) (i : S50000x128.Idx)
    (hx0 : x0 j = h i) (hi1 : (i 1).val = (j 1).val)
    (hx1 : ∀ q : Fin 128, x1 (ix2 0 q) = sc (ix2 0 q)) (hx2 : ∀ q : Fin 128, x2 (ix2 0 q) = sh (ix2 0 q)) :
    k3_pay1 x0 x1 x2 j = Cert.Sage.bnK h sc sh i := by
  obtain ⟨r, q, rfl⟩ : ∃ (r : Fin 2000) (q : Fin 128), j = ix2 r q := ⟨j 0, j 1, eq_ix2 j⟩
  obtain ⟨p, q', rfl⟩ : ∃ (p : Fin 50000) (q' : Fin 128), i = ix2 p q' := ⟨i 0, i 1, eq_ix2 i⟩
  obtain rfl : q' = q := Fin.ext hi1
  rw [pay3_apply, Cert.Sage.bnK_ix2]
  unfold Cert.Sage.bnEntry
  rw [hx0, hx1, hx2]

variable (V : (c : Dev nD) → (b : Ref sig .tc) → Buf (Elt Ideal) ((c : Thread nD τ).loc b))

/-- The index maps over the grid: the layer-output block moves with the output block, whose row-block index is the
    point and whose column-block index is 0; the two rows stay at block (0, 0). -/
theorem idx_facts3 : ∀ t : Fin cfg3.N, win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the stage function of the three arrays as the region finds them. -/
theorem flushed3_eq (c : Dev nD) (t : Fin cfg3.N) :
    (dat3 (F := Ideal) V c).flushed 3 t
      = ((cfg3.win 3).blk t).view.read (Elt Ideal) (Cert.Sage.bnK (V c main_v58) (V c main_v67) (V c main_v71)) := by
  show (cfg3.win 3).cut (grid3.coords t) ((dat3 V c).after 3 t) = _
  rw [after3_3]
  unfold out3_3
  rw [View.canon_unit_zero zeroOffB]
  simp only [View.ld_unit_zero (S := S2000x128) zeroOffB, View.ld_unit_zero (S := S1x128) zeroOffB]
  obtain ⟨e0, e1, e2, e3, e4, e5, e6, e7⟩ := idx_facts3 t
  funext j
  refine pay3_blk (V c main_v58) (V c main_v67) (V c main_v71) (iblk3 V c 0 t) (iblk3 V c 1 t) (iblk3 V c 2 t) j
    (((cfg3.win 3).blk t).view.emb j) ?_ ?_ (fun q => ?_) (fun q => ?_)
  · -- the layer-output block sits where the output block sits
    unfold iblk3
    rw [View.read_apply]
    show V c main_v58 (((cfg3.win 0).blk t).view.emb j) = V c main_v58 (((cfg3.win 3).blk t).view.emb j)
    refine congrArg _ (funext fun a => Fin.ext ?_)
    match a with
    | ⟨0, _⟩ => show win3_0.index t (0 : Fin 2) * 2000 + 1 * (j 0).val = win3_3.index t (0 : Fin 2) * 2000 + 1 * (j 0).val; rw [e0]
    | ⟨1, _⟩ => show win3_0.index t (1 : Fin 2) * 128 + 1 * (j 1).val = win3_3.index t (1 : Fin 2) * 128 + 1 * (j 1).val; rw [e1, e7]
  · -- the output block's columns are the array's columns
    show win3_3.index t (1 : Fin 2) * 128 + 1 * (j 1).val = (j 1).val
    rw [e7]; omega
  · -- the gain row's block is the whole row
    unfold iblk3
    rw [View.read_apply]
    show V c main_v67 (((cfg3.win 1).blk t).view.emb (ix2 0 q)) = V c main_v67 (ix2 0 q)
    refine congrArg _ (funext fun a => Fin.ext ?_)
    match a with
    | ⟨0, _⟩ => show win3_1.index t (0 : Fin 2) * 1 + 1 * 0 = 0; rw [e2]
    | ⟨1, _⟩ => show win3_1.index t (1 : Fin 2) * 128 + 1 * q.val = q.val; rw [e3]; omega
  · -- the offset row's block is the whole row
    unfold iblk3
    rw [View.read_apply]
    show V c main_v71 (((cfg3.win 2).blk t).view.emb (ix2 0 q)) = V c main_v71 (ix2 0 q)
    refine congrArg _ (funext fun a => Fin.ext ?_)
    match a with
    | ⟨0, _⟩ => show win3_2.index t (0 : Fin 2) * 1 + 1 * 0 = 0; rw [e4]
    | ⟨1, _⟩ => show win3_2.index t (1 : Fin 2) * 128 + 1 * q.val = q.val; rw [e5]; omega

/-- Row r of the array lies in the block of point r / 2000. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨-, -, -, -, -, -, e6, e7⟩ := idx_facts3 t
  have ht : t.val = (i 0).val / 2000 := rfl
  refine ⟨t, flush3_3 t, ?_⟩
  show i ∈ ((View.whole main_v72).slice (win3_3.rect t)).set
  rw [View.set_slice_whole, Rect.mem_set_unit]
  intro a
  match a with
  | ⟨0, _⟩ =>
    show win3_3.index t (0 : Fin 2) * 2000 ≤ (i 0).val ∧ (i 0).val < win3_3.index t (0 : Fin 2) * 2000 + 2000
    rw [e6, ht]; omega
  | ⟨1, _⟩ =>
    show win3_3.index t (1 : Fin 2) * 128 ≤ (i 1).val ∧ (i 1).val < win3_3.index t (1 : Fin 2) * 128 + 128
    rw [e7]; omega

/-- The output array after the region: the stage function of the three arrays the region finds. -/
theorem region3 (c : Dev nD) : (dat3 (F := Ideal) V c).arrAt 3 cfg3.N
    = Cert.Sage.bnK (V c main_v58) (V c main_v67) (V c main_v71) :=
  (dat3 (F := Ideal) V c).arrAt_eq_of_cover 3 (Cert.Sage.bnK (V c main_v58) (V c main_v67) (V c main_v71))
    (fun t _ => flushed3_eq V c t) cover3

end Cert.KernelIdeal.KerRegions

end
-- ==== Proof.KerNorm.lean ====
/-
  The two normalise-and-clamp regions of the kernel, each leaving in its output array the whole-array stage function
  of the three arrays it finds: the two statements are proved in the two imported modules, one per region.
-/
import proofs.«127429_j19473381720256_1_alg».proof.Proof.KerNormA
import proofs.«127429_j19473381720256_1_alg».proof.Proof.KerNormB

noncomputable section

end
-- ==== Proof.KerLin0.lean ====
/-
  The first linear stage of the kernel, from blocks to the whole array.

  The stage runs on a grid of 25 points; point t works on rows 2000·t … 2000·t + 1999.  Its block value at row r and
  column q is  (Σ_k mean(r, k)·wl(k, q) + Σ_k x(r, k)·wr(k, q)) + bias(0, q):  two matrix products into zero
  accumulators, added, plus the bias row broadcast over the rows; on exact values a change of float format is the
  identity, and so is a cast to the same shape.  Row r of the two row-blocked inputs at point t is row 2000·t + r of
  their arrays, the two weight matrices and the bias row are whole at every point, and the output block of point t sits at
  rows 2000·t … of the output array.  So what point t writes back is block t of ONE whole-array function of the arrays
  the stage found, the entry formula of the stage definitions; since row p is written by point p / 2000, the blocks
  cover the output array and it ends holding that function.
-/
import proofs.«127429_j19473381720256_1_alg».proof.Proof.Net
import proofs.«127429_j19473381720256_1_alg».proof.Proof.Gen.KernelIdeal.Frame
import proofs.«127429_j19473381720256_1_alg».proof.Proof.LibPlainMatmul
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.KerRegions
open Cert.KernelIdeal Cert.KernelIdeal.Gen

/-- The stage's block value at row r, column q: the two matrix products into zero accumulators, added, plus the bias
    row at column q. -/
theorem linPay0_apply (x0 x1 : Vec Ideal S2000x128 .f32) (x2 x3 : Vec Ideal S128x128 .f32) (x4 : Vec Ideal S1x128 .f32)
    (r : Fin 2000) (q : Fin 128) :
    k0_pay1 (F := Ideal) x0 x1 x2 x3 x4 (ix2 r q)
      = ((∑ k : Fin 128, x0 (ix2 r k) * x2 (ix2 k q)) + (∑ k : Fin 128, x1 (ix2 r k) * x3 (ix2 k q))) + x4 (ix2 0 q) := by
  unfold k0_pay1
  simp only [shapeCast_self]
  rw [addf_apply, addf_apply]
  refine congrArg₂ (· + ·) (congrArg₂ (· + ·) ?_ ?_) ?_
  · exact PlainMatmul.apply_zero (M := 2000) (K := 128) (N := 128) _ _ r q
  · exact PlainMatmul.apply_zero (M := 2000) (K := 128) (N := 128) _ _ r q
  · exact broadcastTo_1b_ab_apply (a := 2000) (b := 128) x4 _ r q

/-- A block against the whole arrays: when row r of the two row-blocked inputs is row p of their arrays, the block's
    value at (r, q) is the stage's entry (p, q). -/
theorem blockValue0 (x0 x1 : Vec Ideal S2000x128 .f32) (x2 x3 : Vec Ideal S128x128 .f32) (x4 : Vec Ideal S1x128 .f32)
    (mn h : S50000x128.Idx → EReal) (r : Fin 2000) (q : Fin 128) (p : Fin 50000)
    (h0 : ∀ k : Fin 128, x0 (ix2 r k) = mn (ix2 p k)) (h1 : ∀ k : Fin 128, x1 (ix2 r k) = h (ix2 p k)) :
    k0_pay1 (F := Ideal) x0 x1 x2 x3 x4 (ix2 r q) = Cert.Sage.linK mn h x2 x3 x4 (ix2 p q) := by
  rw [linPay0_apply, Cert.Sage.linK_ix2]
  unfold Cert.Sage.linEntry
  simp only [h0, h1]

variable (V : (c : Dev nD) → (b : Ref sig .tc) → Buf (Elt Ideal) ((c : Thread nD τ).loc b))

theorem zero_offsets0 : (![0, 0] : Fin 2 → Nat) = fun _ => 0 := funext fun a => by fin_cases a <;> rfl

/-- The block index maps over the grid: the two row-blocked inputs and the output sit at row block t, column block 0;
    the weights and the bias row are whole at every point. -/
theorem blockIndices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of the first input's block at point t is row 2000·t + r of its array. -/
theorem in0_0_apply (c : Dev nD) (t : Fin cfg0.N) (r : Fin 2000) (k : Fin 128) (p : Fin 50000)
    (hp : p.val = t.val * 2000 + r.val) :
    (iblk0 V c 0 t : Vec Ideal S2000x128 .f32) (ix2 r k) = (V c main_v24 : S50000x128.Idx → EReal) (ix2 p k) := by
  obtain ⟨e00, e01, -⟩ := blockIndices0 t
  unfold iblk0
  rw [View.read_apply]
  show (V c main_v24 : S50000x128.Idx → EReal) (((cfg0.win 0).blk t).view.emb (ix2 r k)) = _
  refine congrArg _ (funext fun a => Fin.ext ?_)
  match a with
  | ⟨0, _⟩ => show win0_0.index t (0 : Fin 2) * 2000 + 1 * r.val = p.val; omega
  | ⟨1, _⟩ => show win0_0.index t (1 : Fin 2) * 128 + 1 * k.val = k.val; omega

/-- Row r of the second input's block at point t is row 2000·t + r of its array. -/
theorem in0_1_apply (c : Dev nD) (t : Fin cfg0.N) (r : Fin 2000) (k : Fin 128) (p : Fin 50000)
    (hp : p.val = t.val * 2000 + r.val) :
    (iblk0 V c 1 t : Vec Ideal S2000x128 .f32) (ix2 r k) = (V c main_arg0 : S50000x128.Idx → EReal) (ix2 p k) := by
  obtain ⟨-, -, e10, e11, -⟩ := blockIndices0 t
  unfold iblk0
  rw [View.read_apply]
  show (V c main_arg0 : S50000x128.Idx → EReal) (((cfg0.win 1).blk t).view.emb (ix2 r k)) = _
  refine congrArg _ (funext fun a => Fin.ext ?_)
  match a with
  | ⟨0, _⟩ => show win0_1.index t (0 : Fin 2) * 2000 + 1 * r.val = p.val; omega
  | ⟨1, _⟩ => show win0_1.index t (1 : Fin 2) * 128 + 1 * k.val = k.val; omega

/-- The first weight window's block is the whole array at every point. -/
theorem in0_2_eq (c : Dev nD) (t : Fin cfg0.N) :
    (iblk0 V c 2 t : Vec Ideal S128x128 .f32) = (V c main_v25 : S128x128.Idx → EReal) := by
  obtain ⟨-, -, -, -, e20, e21, -⟩ := blockIndices0 t
  funext y
  unfold iblk0
  rw [View.read_apply]
  show (V c main_v25 : S128x128.Idx → EReal) (((cfg0.win 2).blk t).view.emb y) = _
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight window's block is the whole array at every point. -/
theorem in0_3_eq (c : Dev nD) (t : Fin cfg0.N) :
    (iblk0 V c 3 t : Vec Ideal S128x128 .f32) = (V c main_v26 : S128x128.Idx → EReal) := by
  obtain ⟨-, -, -, -, -, -, e30, e31, -⟩ := blockIndices0 t
  funext y
  unfold iblk0
  rw [View.read_apply]
  show (V c main_v26 : S128x128.Idx → EReal) (((cfg0.win 3).blk t).view.emb y) = _
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias window's block is the whole row at every point. -/
theorem in0_4_eq (c : Dev nD) (t : Fin cfg0.N) :
    (iblk0 V c 4 t : Vec Ideal S1x128 .f32) = (V c main_v27 : S1x128.Idx → EReal) := by
  obtain ⟨-, -, -, -, -, -, -, -, e40, e41, -⟩ := blockIndices0 t
  funext y
  unfold iblk0
  rw [View.read_apply]
  show (V c main_v27 : S1x128.Idx → EReal) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- What point t writes back is block t of the stage's whole-array function of the arrays as the stage finds them. -/
theorem flushed0 (c : Dev nD) (t : Fin cfg0.N) :
    (dat0 (F := Ideal) V c).flushed 5 t = ((cfg0.win 5).blk t).view.read (Elt Ideal)
      (Cert.Sage.linK (V c main_v24) (V c main_arg0) (V c main_v25) (V c main_v26) (V c main_v27)) := by
  show (cfg0.win 5).cut (grid0.coords t) ((dat0 V c).after 5 t) = _
  rw [after0_5]
  unfold out0_5
  rw [View.canon_unit_zero zero_offsets0]
  simp only [View.ld_unit_zero (S := S2000x128) zero_offsets0, View.ld_unit_zero (S := S128x128) zero_offsets0,
    View.ld_unit_zero (S := S1x128) zero_offsets0]
  rw [in0_2_eq V c t, in0_3_eq V c t, in0_4_eq V c t]
  obtain ⟨-, -, -, -, -, -, -, -, -, -, e50, e51⟩ := blockIndices0 t
  have ht : t.val < 25 := lt_of_lt_of_eq t.isLt N_0
  funext j
  obtain ⟨r, q, rfl⟩ : ∃ (r : Fin 2000) (q : Fin 128), j = ix2 r q := ⟨j 0, j 1, eq_ix2 j⟩
  have hr := r.isLt
  rw [View.read_apply]
  show k0_pay1 (F := Ideal) (iblk0 V c 0 t) (iblk0 V c 1 t) (V c main_v25) (V c main_v26) (V c main_v27) (ix2 r q) = _
  refine (blockValue0 (iblk0 V c 0 t) (iblk0 V c 1 t) (V c main_v25) (V c main_v26) (V c main_v27)
    (V c main_v24) (V c main_arg0) r q ⟨t.val * 2000 + r.val, by omega⟩
    (fun k => in0_0_apply V c t r k _ rfl) (fun k => in0_1_apply V c t r k _ rfl)).trans ?_
  refine congrArg _ (funext fun a => Fin.ext ?_)
  match a with
  | ⟨0, _⟩ => show t.val * 2000 + r.val = win0_5.index t (0 : Fin 2) * 2000 + 1 * r.val; omega
  | ⟨1, _⟩ => show q.val = win0_5.index t (1 : Fin 2) * 128 + 1 * q.val; omega

/-- An index of the output array is in point t's block iff each coordinate is in the block's range on its axis. -/
theorem memBlock0 (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v28).slice (win0_5.rect t)).set ↔ _
  rw [View.set_slice_whole, Rect.mem_set_unit]
  exact Iff.rfl

/-- Every entry of the output array is written back by some point: row p by point p / 2000. -/
theorem cover0 (i : S50000x128.Idx) :
    ∃ t : Fin cfg0.N, (cfg0.win 5).flush t = true ∧ i ∈ ((cfg0.win 5).blk t).view.set := by
  have h0 : (i 0).val < 50000 := (i 0).isLt
  have h1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, e50, e51⟩ := blockIndices0 t
  refine ⟨t, flush0_5 t, ?_⟩
  rw [memBlock0]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- The first linear stage leaves, in its output array, its whole-array function of the arrays it found. -/
theorem region0 (c : Dev nD) : (dat0 (F := Ideal) V c).arrAt 5 cfg0.N
    = Cert.Sage.linK (V c main_v24) (V c main_arg0) (V c main_v25) (V c main_v26) (V c main_v27) :=
  (dat0 (F := Ideal) V c).arrAt_eq_of_cover 5 _ (fun t _ => flushed0 V c t) cover0

end Cert.KernelIdeal.KerRegions

end
-- ==== Proof.KerLin2.lean ====
/-
  The second linear stage of the kernel, from blocks to the whole array.

  The stage runs on a grid of 25 points; point t works on rows 2000·t … 2000·t + 1999.  Its block value at row r and
  column q is  (Σ_k mean(r, k)·wl(k, q) + Σ_k x(r, k)·wr(k, q)) + bias(0, q):  two matrix products into zero
  accumulators, added, plus the bias row broadcast over the rows; on exact values a change of float format is the
  identity, and so is a cast to the same shape.  Row r of the two row-blocked inputs at point t is row 2000·t + r of
  their arrays, the two weight matrices and the bias row are whole at every point, and the output block of point t sits at
  rows 2000·t … of the output array.  So what point t writes back is block t of ONE whole-array function of the arrays
  the stage found, the entry formula of the stage definitions; since row p is written by point p / 2000, the blocks
  cover the output array and it ends holding that function.
-/
import proofs.«127429_j19473381720256_1_alg».proof.Proof.Net
import proofs.«127429_j19473381720256_1_alg».proof.Proof.Gen.KernelIdeal.Frame
import proofs.«127429_j19473381720256_1_alg».proof.Proof.LibPlainMatmul
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.KerRegions
open Cert.KernelIdeal Cert.KernelIdeal.Gen

/-- The stage's block value at row r, column q: the two matrix products into zero accumulators, added, plus the bias
    row at column q. -/
theorem linPay2_apply (x0 x1 : Vec Ideal S2000x128 .f32) (x2 x3 : Vec Ideal S128x128 .f32) (x4 : Vec Ideal S1x128 .f32)
    (r : Fin 2000) (q : Fin 128) :
    k2_pay1 (F := Ideal) x0 x1 x2 x3 x4 (ix2 r q)
      = ((∑ k : Fin 128, x0 (ix2 r k) * x2 (ix2 k q)) + (∑ k : Fin 128, x1 (ix2 r k) * x3 (ix2 k q))) + x4 (ix2 0 q) := by
  unfold k2_pay1
  simp only [shapeCast_self]
  rw [addf_apply, addf_apply]
  refine congrArg₂ (· + ·) (congrArg₂ (· + ·) ?_ ?_) ?_
  · exact PlainMatmul.apply_zero (M := 2000) (K := 128) (N := 128) _ _ r q
  · exact PlainMatmul.apply_zero (M := 2000) (K := 128) (N := 128) _ _ r q
  · exact broadcastTo_1b_ab_apply (a := 2000) (b := 128) x4 _ r q

/-- A block against the whole arrays: when row r of the two row-blocked inputs is row p of their arrays, the block's
    value at (r, q) is the stage's entry (p, q). -/
theorem blockValue2 (x0 x1 : Vec Ideal S2000x128 .f32) (x2 x3 : Vec Ideal S128x128 .f32) (x4 : Vec Ideal S1x128 .f32)
    (mn h : S50000x128.Idx → EReal) (r : Fin 2000) (q : Fin 128) (p : Fin 50000)
    (h0 : ∀ k : Fin 128, x0 (ix2 r k) = mn (ix2 p k)) (h1 : ∀ k : Fin 128, x1 (ix2 r k) = h (ix2 p k)) :
    k2_pay1 (F := Ideal) x0 x1 x2 x3 x4 (ix2 r q) = Cert.Sage.linK mn h x2 x3 x4 (ix2 p q) := by
  rw [linPay2_apply, Cert.Sage.linK_ix2]
  unfold Cert.Sage.linEntry
  simp only [h0, h1]

variable (V : (c : Dev nD) → (b : Ref sig .tc) → Buf (Elt Ideal) ((c : Thread nD τ).loc b))

theorem zero_offsets2 : (![0, 0] : Fin 2 → Nat) = fun _ => 0 := funext fun a => by fin_cases a <;> rfl

/-- The block index maps over the grid: the two row-blocked inputs and the output sit at row block t, column block 0;
    the weights and the bias row are whole at every point. -/
theorem blockIndices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row r of the first input's block at point t is row 2000·t + r of its array. -/
theorem in2_0_apply (c : Dev nD) (t : Fin cfg2.N) (r : Fin 2000) (k : Fin 128) (p : Fin 50000)
    (hp : p.val = t.val * 2000 + r.val) :
    (iblk2 V c 0 t : Vec Ideal S2000x128 .f32) (ix2 r k) = (V c main_v54 : S50000x128.Idx → EReal) (ix2 p k) := by
  obtain ⟨e00, e01, -⟩ := blockIndices2 t
  unfold iblk2
  rw [View.read_apply]
  show (V c main_v54 : S50000x128.Idx → EReal) (((cfg2.win 0).blk t).view.emb (ix2 r k)) = _
  refine congrArg _ (funext fun a => Fin.ext ?_)
  match a with
  | ⟨0, _⟩ => show win2_0.index t (0 : Fin 2) * 2000 + 1 * r.val = p.val; omega
  | ⟨1, _⟩ => show win2_0.index t (1 : Fin 2) * 128 + 1 * k.val = k.val; omega

/-- Row r of the second input's block at point t is row 2000·t + r of its array. -/
theorem in2_1_apply (c : Dev nD) (t : Fin cfg2.N) (r : Fin 2000) (k : Fin 128) (p : Fin 50000)
    (hp : p.val = t.val * 2000 + r.val) :
    (iblk2 V c 1 t : Vec Ideal S2000x128 .f32) (ix2 r k) = (V c main_v42 : S50000x128.Idx → EReal) (ix2 p k) := by
  obtain ⟨-, -, e10, e11, -⟩ := blockIndices2 t
  unfold iblk2
  rw [View.read_apply]
  show (V c main_v42 : S50000x128.Idx → EReal) (((cfg2.win 1).blk t).view.emb (ix2 r k)) = _
  refine congrArg _ (funext fun a => Fin.ext ?_)
  match a with
  | ⟨0, _⟩ => show win2_1.index t (0 : Fin 2) * 2000 + 1 * r.val = p.val; omega
  | ⟨1, _⟩ => show win2_1.index t (1 : Fin 2) * 128 + 1 * k.val = k.val; omega

/-- The first weight window's block is the whole array at every point. -/
theorem in2_2_eq (c : Dev nD) (t : Fin cfg2.N) :
    (iblk2 V c 2 t : Vec Ideal S128x128 .f32) = (V c main_v55 : S128x128.Idx → EReal) := by
  obtain ⟨-, -, -, -, e20, e21, -⟩ := blockIndices2 t
  funext y
  unfold iblk2
  rw [View.read_apply]
  show (V c main_v55 : S128x128.Idx → EReal) (((cfg2.win 2).blk t).view.emb y) = _
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The second weight window's block is the whole array at every point. -/
theorem in2_3_eq (c : Dev nD) (t : Fin cfg2.N) :
    (iblk2 V c 3 t : Vec Ideal S128x128 .f32) = (V c main_v56 : S128x128.Idx → EReal) := by
  obtain ⟨-, -, -, -, -, -, e30, e31, -⟩ := blockIndices2 t
  funext y
  unfold iblk2
  rw [View.read_apply]
  show (V c main_v56 : S128x128.Idx → EReal) (((cfg2.win 3).blk t).view.emb y) = _
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias window's block is the whole row at every point. -/
theorem in2_4_eq (c : Dev nD) (t : Fin cfg2.N) :
    (iblk2 V c 4 t : Vec Ideal S1x128 .f32) = (V c main_v57 : S1x128.Idx → EReal) := by
  obtain ⟨-, -, -, -, -, -, -, -, e40, e41, -⟩ := blockIndices2 t
  funext y
  unfold iblk2
  rw [View.read_apply]
  show (V c main_v57 : S1x128.Idx → EReal) (((cfg2.win 4).blk t).view.emb y) = _
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- What point t writes back is block t of the stage's whole-array function of the arrays as the stage finds them. -/
theorem flushed2 (c : Dev nD) (t : Fin cfg2.N) :
    (dat2 (F := Ideal) V c).flushed 5 t = ((cfg2.win 5).blk t).view.read (Elt Ideal)
      (Cert.Sage.linK (V c main_v54) (V c main_v42) (V c main_v55) (V c main_v56) (V c main_v57)) := by
  show (cfg2.win 5).cut (grid2.coords t) ((dat2 V c).after 5 t) = _
  rw [after2_5]
  unfold out2_5
  rw [View.canon_unit_zero zero_offsets2]
  simp only [View.ld_unit_zero (S := S2000x128) zero_offsets2, View.ld_unit_zero (S := S128x128) zero_offsets2,
    View.ld_unit_zero (S := S1x128) zero_offsets2]
  rw [in2_2_eq V c t, in2_3_eq V c t, in2_4_eq V c t]
  obtain ⟨-, -, -, -, -, -, -, -, -, -, e50, e51⟩ := blockIndices2 t
  have ht : t.val < 25 := lt_of_lt_of_eq t.isLt N_2
  funext j
  obtain ⟨r, q, rfl⟩ : ∃ (r : Fin 2000) (q : Fin 128), j = ix2 r q := ⟨j 0, j 1, eq_ix2 j⟩
  have hr := r.isLt
  rw [View.read_apply]
  show k2_pay1 (F := Ideal) (iblk2 V c 0 t) (iblk2 V c 1 t) (V c main_v55) (V c main_v56) (V c main_v57) (ix2 r q) = _
  refine (blockValue2 (iblk2 V c 0 t) (iblk2 V c 1 t) (V c main_v55) (V c main_v56) (V c main_v57)
    (V c main_v54) (V c main_v42) r q ⟨t.val * 2000 + r.val, by omega⟩
    (fun k => in2_0_apply V c t r k _ rfl) (fun k => in2_1_apply V c t r k _ rfl)).trans ?_
  refine congrArg _ (funext fun a => Fin.ext ?_)
  match a with
  | ⟨0, _⟩ => show t.val * 2000 + r.val = win2_5.index t (0 : Fin 2) * 2000 + 1 * r.val; omega
  | ⟨1, _⟩ => show q.val = win2_5.index t (1 : Fin 2) * 128 + 1 * q.val; omega

/-- An index of the output array is in point t's block iff each coordinate is in the block's range on its axis. -/
theorem memBlock2 (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v58).slice (win2_5.rect t)).set ↔ _
  rw [View.set_slice_whole, Rect.mem_set_unit]
  exact Iff.rfl

/-- Every entry of the output array is written back by some point: row p by point p / 2000. -/
theorem cover2 (i : S50000x128.Idx) :
    ∃ t : Fin cfg2.N, (cfg2.win 5).flush t = true ∧ i ∈ ((cfg2.win 5).blk t).view.set := by
  have h0 : (i 0).val < 50000 := (i 0).isLt
  have h1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, -, -, -, -, e50, e51⟩ := blockIndices2 t
  refine ⟨t, flush2_5 t, ?_⟩
  rw [memBlock2]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 128 ≤ (i 1).val ∧ (i 1).val < win2_5.index t (1 : Fin 2) * 128 + 128
    omega

/-- The second linear stage leaves, in its output array, its whole-array function of the arrays it found. -/
theorem region2 (c : Dev nD) : (dat2 (F := Ideal) V c).arrAt 5 cfg2.N
    = Cert.Sage.linK (V c main_v54) (V c main_v42) (V c main_v55) (V c main_v56) (V c main_v57) :=
  (dat2 (F := Ideal) V c).arrAt_eq_of_cover 5 _ (fun t _ => flushed2 V c t) cover2

end Cert.KernelIdeal.KerRegions

end
-- ==== Proof.KerLin4.lean ====
/-
  The third linear stage of the kernel, from blocks to the whole array.

  The stage runs on a grid of 25 points; point t works on rows 2000·t … 2000·t + 1999.  Its block value at row r and
  column q is  (Σ_k mean(r, k)·wl(k, q) + Σ_k x(r, k)·wr(k, q)) + bias(0, q):  two matrix products into zero
  accumulators, added, plus the bias row broadcast over the rows; on exact values a change of float format is the
  identity, and so is a cast to the same shape.  Row r of the two row-blocked inputs at point t is row 2000·t + r of
  their arrays, the two weight matrices and the bias row are whole at every point, and the output block of point t sits at
  rows 2000·t … of the output array.  So what point t writes back is block t of ONE whole-array function of the arrays
  the stage found, the entry formula of the stage definitions; since row p is written by point p / 2000, the blocks
  cover the output array and it ends holding that function.
-/
import proofs.«127429_j19473381720256_1_alg».proof.Proof.Net
import proofs.«127429_j19473381720256_1_alg».proof.Proof.Gen.KernelIdeal.Frame
import proofs.«127429_j19473381720256_1_alg».proof.Proof.LibPlainMatmul
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.KerRegions
open Cert.KernelIdeal Cert.KernelIdeal.Gen

/-- The stage's block value at row r, column q: the two matrix products into zero accumulators, added, plus the bias
    row at column q. -/
theorem linPay4_apply (x0 x1 : Vec Ideal S2000x128 .f32) (x2 x3 : Vec Ideal S128x64 .f32) (x4 : Vec Ideal S1x64 .f32)
    (r : Fin 2000) (q : Fin 64) :
    k4_pay1 (F := Ideal) x0 x1 x2 x3 x4 (ix2 r q)
      = ((∑ k : Fin 128, x0 (ix2 r k) * x2 (ix2 k q)) + (∑ k : Fin 128, x1 (ix2 r k) * x3 (ix2 k q))) + x4 (ix2 0 q) := by
  unfold k4_pay1
  simp only [shapeCast_self]
  rw [addf_apply, addf_apply]
  refine congrArg₂ (· + ·) (congrArg₂ (· + ·) ?_ ?_) ?_
  · exact PlainMatmul.apply_zero (M := 2000) (K := 128) (N := 64) _ _ r q
  · exact PlainMatmul.apply_zero (M := 2000) (K := 128) (N := 64) _ _ r q
  · exact broadcastTo_1b_ab_apply (a := 2000) (b := 64) x4 _ r q

/-- A block against the whole arrays: when row r of the two row-blocked inputs is row p of their arrays, the block's
    value at (r, q) is the stage's entry (p, q). -/
theorem blockValue4 (x0 x1 : Vec Ideal S2000x128 .f32) (x2 x3 : Vec Ideal S128x64 .f32) (x4 : Vec Ideal S1x64 .f32)
    (mn h : S50000x128.Idx → EReal) (r : Fin 2000) (q : Fin 64) (p : Fin 50000)
    (h0 : ∀ k : Fin 128, x0 (ix2 r k) = mn (ix2 p k)) (h1 : ∀ k : Fin 128, x1 (ix2 r k) = h (ix2 p k)) :
    k4_pay1 (F := Ideal) x0 x1 x2 x3 x4 (ix2 r q) = Cert.Sage.linK mn h x2 x3 x4 (ix2 p q) := by
  rw [linPay4_apply, Cert.Sage.linK_ix2]
  unfold Cert.Sage.linEntry
  simp only [h0, h1]

variable (V : (c : Dev nD) → (b : Ref sig .tc) → Buf (Elt Ideal) ((c : Thread nD τ).loc b))

theorem zero_offsets4 : (![0, 0] : Fin 2 → Nat) = fun _ => 0 := funext fun a => by fin_cases a <;> rfl

/-- The block index maps over the grid: the two row-blocked inputs and the output sit at row block t, column block 0;
    the weights and the bias row are whole at every point. -/
theorem blockIndices4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row r of the first input's block at point t is row 2000·t + r of its array. -/
theorem in4_0_apply (c : Dev nD) (t : Fin cfg4.N) (r : Fin 2000) (k : Fin 128) (p : Fin 50000)
    (hp : p.val = t.val * 2000 + r.val) :
    (iblk4 V c 0 t : Vec Ideal S2000x128 .f32) (ix2 r k) = (V c main_v84 : S50000x128.Idx → EReal) (ix2 p k) := by
  obtain ⟨e00, e01, -⟩ := blockIndices4 t
  unfold iblk4
  rw [View.read_apply]
  show (V c main_v84 : S50000x128.Idx → EReal) (((cfg4.win 0).blk t).view.emb (ix2 r k)) = _
  refine congrArg _ (funext fun a => Fin.ext ?_)
  match a with
  | ⟨0, _⟩ => show win4_0.index t (0 : Fin 2) * 2000 + 1 * r.val = p.val; omega
  | ⟨1, _⟩ => show win4_0.index t (1 : Fin 2) * 128 + 1 * k.val = k.val; omega

/-- Row r of the second input's block at point t is row 2000·t + r of its array. -/
theorem in4_1_apply (c : Dev nD) (t : Fin cfg4.N) (r : Fin 2000) (k : Fin 128) (p : Fin 50000)
    (hp : p.val = t.val * 2000 + r.val) :
    (iblk4 V c 1 t : Vec Ideal S2000x128 .f32) (ix2 r k) = (V c main_v72 : S50000x128.Idx → EReal) (ix2 p k) := by
  obtain ⟨-, -, e10, e11, -⟩ := blockIndices4 t
  unfold iblk4
  rw [View.read_apply]
  show (V c main_v72 : S50000x128.Idx → EReal) (((cfg4.win 1).blk t).view.emb (ix2 r k)) = _
  refine congrArg _ (funext fun a => Fin.ext ?_)
  match a with
  | ⟨0, _⟩ => show win4_1.index t (0 : Fin 2) * 2000 + 1 * r.val = p.val; omega
  | ⟨1, _⟩ => show win4_1.index t (1 : Fin 2) * 128 + 1 * k.val = k.val; omega

/-- The first weight window's block is the whole array at every point. -/
theorem in4_2_eq (c : Dev nD) (t : Fin cfg4.N) :
    (iblk4 V c 2 t : Vec Ideal S128x64 .f32) = (V c main_v85 : S128x64.Idx → EReal) := by
  obtain ⟨-, -, -, -, e20, e21, -⟩ := blockIndices4 t
  funext y
  unfold iblk4
  rw [View.read_apply]
  show (V c main_v85 : S128x64.Idx → EReal) (((cfg4.win 2).blk t).view.emb y) = _
  refine congrArg _ (funext fun a => Fin.ext ?_)
  match a with
  | ⟨0, _⟩ => show win4_2.index t (0 : Fin 2) * 128 + 1 * (y 0).val = (y 0).val; omega
  | ⟨1, _⟩ => show win4_2.index t (1 : Fin 2) * 64 + 1 * (y 1).val = (y 1).val; omega

/-- The second weight window's block is the whole array at every point. -/
theorem in4_3_eq (c : Dev nD) (t : Fin cfg4.N) :
    (iblk4 V c 3 t : Vec Ideal S128x64 .f32) = (V c main_v86 : S128x64.Idx → EReal) := by
  obtain ⟨-, -, -, -, -, -, e30, e31, -⟩ := blockIndices4 t
  funext y
  unfold iblk4
  rw [View.read_apply]
  show (V c main_v86 : S128x64.Idx → EReal) (((cfg4.win 3).blk t).view.emb y) = _
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 64 + 1 * (y 1).val = (y 1).val; omega

/-- The bias window's block is the whole row at every point. -/
theorem in4_4_eq (c : Dev nD) (t : Fin cfg4.N) :
    (iblk4 V c 4 t : Vec Ideal S1x64 .f32) = (V c main_v87 : S1x64.Idx → EReal) := by
  obtain ⟨-, -, -, -, -, -, -, -, e40, e41, -⟩ := blockIndices4 t
  funext y
  unfold iblk4
  rw [View.read_apply]
  show (V c main_v87 : S1x64.Idx → EReal) (((cfg4.win 4).blk t).view.emb y) = _
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 64 + 1 * (y 1).val = (y 1).val; omega

/-- What point t writes back is block t of the stage's whole-array function of the arrays as the stage finds them. -/
theorem flushed4 (c : Dev nD) (t : Fin cfg4.N) :
    (dat4 (F := Ideal) V c).flushed 5 t = ((cfg4.win 5).blk t).view.read (Elt Ideal)
      (Cert.Sage.linK (V c main_v84) (V c main_v72) (V c main_v85) (V c main_v86) (V c main_v87)) := by
  show (cfg4.win 5).cut (grid4.coords t) ((dat4 V c).after 5 t) = _
  rw [after4_5]
  unfold out4_5
  rw [View.canon_unit_zero zero_offsets4]
  simp only [View.ld_unit_zero (S := S2000x128) zero_offsets4, View.ld_unit_zero (S := S128x64) zero_offsets4,
    View.ld_unit_zero (S := S1x64) zero_offsets4]
  rw [in4_2_eq V c t, in4_3_eq V c t, in4_4_eq V c t]
  obtain ⟨-, -, -, -, -, -, -, -, -, -, e50, e51⟩ := blockIndices4 t
  have ht : t.val < 25 := lt_of_lt_of_eq t.isLt N_4
  funext j
  obtain ⟨r, q, rfl⟩ : ∃ (r : Fin 2000) (q : Fin 64), j = ix2 r q := ⟨j 0, j 1, eq_ix2 j⟩
  have hr := r.isLt
  rw [View.read_apply]
  show k4_pay1 (F := Ideal) (iblk4 V c 0 t) (iblk4 V c 1 t) (V c main_v85) (V c main_v86) (V c main_v87) (ix2 r q) = _
  refine (blockValue4 (iblk4 V c 0 t) (iblk4 V c 1 t) (V c main_v85) (V c main_v86) (V c main_v87)
    (V c main_v84) (V c main_v72) r q ⟨t.val * 2000 + r.val, by omega⟩
    (fun k => in4_0_apply V c t r k _ rfl) (fun k => in4_1_apply V c t r k _ rfl)).trans ?_
  refine congrArg _ (funext fun a => Fin.ext ?_)
  match a with
  | ⟨0, _⟩ => show t.val * 2000 + r.val = win4_5.index t (0 : Fin 2) * 2000 + 1 * r.val; omega
  | ⟨1, _⟩ => show q.val = win4_5.index t (1 : Fin 2) * 64 + 1 * q.val; omega

/-- An index of the output array is in point t's block iff each coordinate is in the block's range on its axis. -/
theorem memBlock4 (t : Fin cfg4.N) (i : S50000x64.Idx) :
    i ∈ ((cfg4.win 5).blk t).view.set ↔ ∀ a : Fin 2, win4_5.index t a * S2000x64.size a ≤ (i a).val
      ∧ (i a).val < win4_5.index t a * S2000x64.size a + S2000x64.size a := by
  show i ∈ ((View.whole main_v88).slice (win4_5.rect t)).set ↔ _
  rw [View.set_slice_whole, Rect.mem_set_unit]
  exact Iff.rfl

/-- Every entry of the output array is written back by some point: row p by point p / 2000. -/
theorem cover4 (i : S50000x64.Idx) :
    ∃ t : Fin cfg4.N, (cfg4.win 5).flush t = true ∧ i ∈ ((cfg4.win 5).blk t).view.set := by
  have h0 : (i 0).val < 50000 := (i 0).isLt
  have h1 : (i 1).val < 64 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, -, -, -, -, -, -, e50, e51⟩ := blockIndices4 t
  refine ⟨t, flush4_5 t, ?_⟩
  rw [memBlock4]
  intro a
  match a with
  | ⟨0, _⟩ =>
    show win4_5.index t (0 : Fin 2) * 2000 ≤ (i 0).val ∧ (i 0).val < win4_5.index t (0 : Fin 2) * 2000 + 2000
    omega
  | ⟨1, _⟩ =>
    show win4_5.index t (1 : Fin 2) * 64 ≤ (i 1).val ∧ (i 1).val < win4_5.index t (1 : Fin 2) * 64 + 64
    omega

/-- The third linear stage leaves, in its output array, its whole-array function of the arrays it found. -/
theorem region4 (c : Dev nD) : (dat4 (F := Ideal) V c).arrAt 5 cfg4.N
    = Cert.Sage.linK (V c main_v84) (V c main_v72) (V c main_v85) (V c main_v86) (V c main_v87) :=
  (dat4 (F := Ideal) V c).arrAt_eq_of_cover 5 _ (fun t _ => flushed4 V c t) cover4

end Cert.KernelIdeal.KerRegions

end
-- ==== Proof.KerLin.lean ====
/-
  The kernel's three linear stages, each read from its blocks to its whole output array: a stage on a grid of 25 points,
  2000 rows per point, leaves in its output array the entry formula
  (Σ_k mean(p, k)·wl(k, q) + Σ_k x(p, k)·wr(k, q)) + bias(0, q)  of the arrays it found.  The three stages differ only in
  which arrays they read and in the number of output columns (128, 128, 64); each has its own module.
-/
import proofs.«127429_j19473381720256_1_alg».proof.Proof.KerLin0
import proofs.«127429_j19473381720256_1_alg».proof.Proof.KerLin2
import proofs.«127429_j19473381720256_1_alg».proof.Proof.KerLin4
-- ==== Proof.KerRun.lean ====
/-
  The kernel program's result buffer, read back through the fold of the program's fourteen segments from the launch
  memory: it is the composition of the kernel's three layers (neighbour mean, block-wise linear stage, and between
  layers the block-wise normalise-and-clamp stage with its per-column gain and offset rows) applied to the fifteen
  arguments as launched.  Each block-wise stage's output array is what the stage's region statement says of the
  buffers at the region's entry; each host stretch's results are read as the stage functions of the definitions;
  the edge columns, the reciprocal column and the later layers' arguments are carried unchanged across the segments
  that do not write them.
-/
import proofs.«127429_j19473381720256_1_alg».proof.Proof.Net
import proofs.«127429_j19473381720256_1_alg».proof.Proof.Gen.KernelIdeal.Frame
import proofs.«127429_j19473381720256_1_alg».proof.Proof.Gen.KernelIdeal
import proofs.«127429_j19473381720256_1_alg».proof.Proof.Gen.ReferenceIdeal
import Idealize.ShloMosaic.PureOps.Ideal
import proofs.«127429_j19473381720256_1_alg».proof.Proof.KerRunFrame
import proofs.«127429_j19473381720256_1_alg».proof.Proof.KerRunHost0
import proofs.«127429_j19473381720256_1_alg».proof.Proof.KerRunHost1
import proofs.«127429_j19473381720256_1_alg».proof.Proof.KerRunHost2
import proofs.«127429_j19473381720256_1_alg».proof.Proof.KerRunKeep0
import proofs.«127429_j19473381720256_1_alg».proof.Proof.KerRunKeepA
import proofs.«127429_j19473381720256_1_alg».proof.Proof.KerRunKeep2
import proofs.«127429_j19473381720256_1_alg».proof.Proof.KerRunKeepB
import proofs.«127429_j19473381720256_1_alg».proof.Proof.KerNorm
import proofs.«127429_j19473381720256_1_alg».proof.Proof.KerLin

set_option quotPrecheck false
set_option maxRecDepth 16384

noncomputable section

namespace Cert.KernelIdeal.KerRun

open Cert.KernelIdeal Cert.KernelIdeal.Gen Cert.KernelIdeal.KerRegions
open Idealize.ShloMosaic Idealize.ShloMosaic.TcCoe Idealize.ShloMosaic.StableHlo Idealize.SL.Sem

variable (m : (ℓ : Loc nD τ sig) → Buf (Elt Ideal) ℓ) (ρ : Dev nD → PrngReg)

section Chain
variable (c : Dev nD)

/-! ## The arguments as launched, and the activations after each stage -/

local notation "P0" => m ((c.tc : Thread nD τ).loc main_arg0)
local notation "P1" => m ((c.tc : Thread nD τ).loc main_arg1)
local notation "P2" => m ((c.tc : Thread nD τ).loc main_arg2)
local notation "P3" => m ((c.tc : Thread nD τ).loc main_arg3)
local notation "P4" => m ((c.tc : Thread nD τ).loc main_arg4)
local notation "P5" => m ((c.tc : Thread nD τ).loc main_arg5)
local notation "P6" => m ((c.tc : Thread nD τ).loc main_arg6)
local notation "P7" => m ((c.tc : Thread nD τ).loc main_arg7)
local notation "P8" => m ((c.tc : Thread nD τ).loc main_arg8)
local notation "P9" => m ((c.tc : Thread nD τ).loc main_arg9)
local notation "P10" => m ((c.tc : Thread nD τ).loc main_arg10)
local notation "P11" => m ((c.tc : Thread nD τ).loc main_arg11)
local notation "P12" => m ((c.tc : Thread nD τ).loc main_arg12)
local notation "P13" => m ((c.tc : Thread nD τ).loc main_arg13)
local notation "P14" => m ((c.tc : Thread nD τ).loc main_arg14)

/-- The first linear stage's output. -/
local notation "Y1" => Cert.Sage.layerK128 P0 P1 P2 P3 P4
/-- The first layer's activations. -/
local notation "A1" => Cert.Sage.normK Y1 P5 P6
/-- The second linear stage's output. -/
local notation "Y2" => Cert.Sage.layerK128 A1 P1 P7 P8 P9
/-- The second layer's activations. -/
local notation "A2" => Cert.Sage.normK Y2 P10 P11

/-! ## After the first stretch (the first linear stage's entry) -/

theorem W1_v24 : W1 m ρ c (Proc.devRef .tc main_v24) = Cert.Sage.meanK (F := Ideal) P0 P1 := h0_v24 (W0 m ρ c)
theorem W1_v25 : W1 m ρ c (Proc.devRef .tc main_v25) = Cert.Sage.wT128 (F := Ideal) P2 := h0_v25 (W0 m ρ c)
theorem W1_v26 : W1 m ρ c (Proc.devRef .tc main_v26) = Cert.Sage.wT128 (F := Ideal) P3 := h0_v26 (W0 m ρ c)
theorem W1_v27 : W1 m ρ c (Proc.devRef .tc main_v27) = Cert.Sage.bRow128 (F := Ideal) P4 := h0_v27 (W0 m ρ c)
theorem W1_v1 : W1 m ρ c (Proc.devRef .tc main_v1) = Cert.Sage.srcv (F := Ideal) P1 := h0_v1 (W0 m ρ c)
theorem W1_v3 : W1 m ρ c (Proc.devRef .tc main_v3) = Cert.Sage.dstv (F := Ideal) P1 := h0_v3 (W0 m ρ c)
theorem W1_v12 : W1 m ρ c (Proc.devRef .tc main_v12) = Cert.Sage.cinvCol (F := Ideal) P1 := h0_v12 (W0 m ρ c)
theorem W1_arg0 : W1 m ρ c (Proc.devRef .tc main_arg0) = P0 := k0_arg0 (W0 m ρ c)
theorem W1_arg5 : W1 m ρ c (Proc.devRef .tc main_arg5) = P5 := k0_arg5 (W0 m ρ c)
theorem W1_arg6 : W1 m ρ c (Proc.devRef .tc main_arg6) = P6 := k0_arg6 (W0 m ρ c)
theorem W1_arg7 : W1 m ρ c (Proc.devRef .tc main_arg7) = P7 := k0_arg7 (W0 m ρ c)
theorem W1_arg8 : W1 m ρ c (Proc.devRef .tc main_arg8) = P8 := k0_arg8 (W0 m ρ c)
theorem W1_arg9 : W1 m ρ c (Proc.devRef .tc main_arg9) = P9 := k0_arg9 (W0 m ρ c)
theorem W1_arg10 : W1 m ρ c (Proc.devRef .tc main_arg10) = P10 := k0_arg10 (W0 m ρ c)
theorem W1_arg11 : W1 m ρ c (Proc.devRef .tc main_arg11) = P11 := k0_arg11 (W0 m ρ c)
theorem W1_arg12 : W1 m ρ c (Proc.devRef .tc main_arg12) = P12 := k0_arg12 (W0 m ρ c)
theorem W1_arg13 : W1 m ρ c (Proc.devRef .tc main_arg13) = P13 := k0_arg13 (W0 m ρ c)
theorem W1_arg14 : W1 m ρ c (Proc.devRef .tc main_arg14) = P14 := k0_arg14 (W0 m ρ c)

/-! ## After the first linear stage -/

theorem W2_v28 : W2 m ρ c (Proc.devRef .tc main_v28) = Y1 :=
  (W2_arr m ρ c 5).trans ((region0 (V1 m ρ) c).trans (by
    rw [show V1 m ρ c main_v24 = _ from W1_v24 m ρ c, show V1 m ρ c main_arg0 = _ from W1_arg0 m ρ c,
      show V1 m ρ c main_v25 = _ from W1_v25 m ρ c, show V1 m ρ c main_v26 = _ from W1_v26 m ρ c,
      show V1 m ρ c main_v27 = _ from W1_v27 m ρ c]
    rfl))
theorem W2_v1 : W2 m ρ c (Proc.devRef .tc main_v1) = Cert.Sage.srcv (F := Ideal) P1 := (W2_of_ne m ρ c main_v1 (by decide)).trans (W1_v1 m ρ c)
theorem W2_v3 : W2 m ρ c (Proc.devRef .tc main_v3) = Cert.Sage.dstv (F := Ideal) P1 := (W2_of_ne m ρ c main_v3 (by decide)).trans (W1_v3 m ρ c)
theorem W2_v12 : W2 m ρ c (Proc.devRef .tc main_v12) = Cert.Sage.cinvCol (F := Ideal) P1 := (W2_of_ne m ρ c main_v12 (by decide)).trans (W1_v12 m ρ c)
theorem W2_arg5 : W2 m ρ c (Proc.devRef .tc main_arg5) = P5 := (W2_of_ne m ρ c main_arg5 (by decide)).trans (W1_arg5 m ρ c)
theorem W2_arg6 : W2 m ρ c (Proc.devRef .tc main_arg6) = P6 := (W2_of_ne m ρ c main_arg6 (by decide)).trans (W1_arg6 m ρ c)
theorem W2_arg7 : W2 m ρ c (Proc.devRef .tc main_arg7) = P7 := (W2_of_ne m ρ c main_arg7 (by decide)).trans (W1_arg7 m ρ c)
theorem W2_arg8 : W2 m ρ c (Proc.devRef .tc main_arg8) = P8 := (W2_of_ne m ρ c main_arg8 (by decide)).trans (W1_arg8 m ρ c)
theorem W2_arg9 : W2 m ρ c (Proc.devRef .tc main_arg9) = P9 := (W2_of_ne m ρ c main_arg9 (by decide)).trans (W1_arg9 m ρ c)
theorem W2_arg10 : W2 m ρ c (Proc.devRef .tc main_arg10) = P10 := (W2_of_ne m ρ c main_arg10 (by decide)).trans (W1_arg10 m ρ c)
theorem W2_arg11 : W2 m ρ c (Proc.devRef .tc main_arg11) = P11 := (W2_of_ne m ρ c main_arg11 (by decide)).trans (W1_arg11 m ρ c)
theorem W2_arg12 : W2 m ρ c (Proc.devRef .tc main_arg12) = P12 := (W2_of_ne m ρ c main_arg12 (by decide)).trans (W1_arg12 m ρ c)
theorem W2_arg13 : W2 m ρ c (Proc.devRef .tc main_arg13) = P13 := (W2_of_ne m ρ c main_arg13 (by decide)).trans (W1_arg13 m ρ c)
theorem W2_arg14 : W2 m ρ c (Proc.devRef .tc main_arg14) = P14 := (W2_of_ne m ρ c main_arg14 (by decide)).trans (W1_arg14 m ρ c)

/-! ## After the mean, the variance and the rows (the first normalise-and-clamp stage's entry) -/

theorem W5_v28 : W5 m ρ c (Proc.devRef .tc main_v28) = Y1 := (h1_v28 (W2 m ρ c)).trans (W2_v28 m ρ c)
theorem W5_v37 : W5 m ρ c (Proc.devRef .tc main_v37) = Cert.Sage.scaleRow (F := Ideal) Y1 P5 :=
  (h1_v37 (W2 m ρ c)).trans (by rw [W2_v28 m ρ c, W2_arg5 m ρ c])
theorem W5_v41 : W5 m ρ c (Proc.devRef .tc main_v41) = Cert.Sage.shiftRow (F := Ideal) Y1 P5 P6 :=
  (h1_v41 (W2 m ρ c)).trans (by rw [W2_v28 m ρ c, W2_arg5 m ρ c, W2_arg6 m ρ c])
theorem W5_v1 : W5 m ρ c (Proc.devRef .tc main_v1) = Cert.Sage.srcv (F := Ideal) P1 := (kA_v1 (W2 m ρ c)).trans (W2_v1 m ρ c)
theorem W5_v3 : W5 m ρ c (Proc.devRef .tc main_v3) = Cert.Sage.dstv (F := Ideal) P1 := (kA_v3 (W2 m ρ c)).trans (W2_v3 m ρ c)
theorem W5_v12 : W5 m ρ c (Proc.devRef .tc main_v12) = Cert.Sage.cinvCol (F := Ideal) P1 := (kA_v12 (W2 m ρ c)).trans (W2_v12 m ρ c)
theorem W5_arg7 : W5 m ρ c (Proc.devRef .tc main_arg7) = P7 := (kA_arg7 (W2 m ρ c)).trans (W2_arg7 m ρ c)
theorem W5_arg8 : W5 m ρ c (Proc.devRef .tc main_arg8) = P8 := (kA_arg8 (W2 m ρ c)).trans (W2_arg8 m ρ c)
theorem W5_arg9 : W5 m ρ c (Proc.devRef .tc main_arg9) = P9 := (kA_arg9 (W2 m ρ c)).trans (W2_arg9 m ρ c)
theorem W5_arg10 : W5 m ρ c (Proc.devRef .tc main_arg10) = P10 := (kA_arg10 (W2 m ρ c)).trans (W2_arg10 m ρ c)
theorem W5_arg11 : W5 m ρ c (Proc.devRef .tc main_arg11) = P11 := (kA_arg11 (W2 m ρ c)).trans (W2_arg11 m ρ c)
theorem W5_arg12 : W5 m ρ c (Proc.devRef .tc main_arg12) = P12 := (kA_arg12 (W2 m ρ c)).trans (W2_arg12 m ρ c)
theorem W5_arg13 : W5 m ρ c (Proc.devRef .tc main_arg13) = P13 := (kA_arg13 (W2 m ρ c)).trans (W2_arg13 m ρ c)
theorem W5_arg14 : W5 m ρ c (Proc.devRef .tc main_arg14) = P14 := (kA_arg14 (W2 m ρ c)).trans (W2_arg14 m ρ c)

/-! ## After the first normalise-and-clamp stage -/

theorem W6_v42 : W6 m ρ c (Proc.devRef .tc main_v42) = A1 :=
  (W6_arr m ρ c 3).trans ((region1 (V5 m ρ) c).trans (by
    rw [show V5 m ρ c main_v28 = _ from W5_v28 m ρ c, show V5 m ρ c main_v37 = _ from W5_v37 m ρ c,
      show V5 m ρ c main_v41 = _ from W5_v41 m ρ c]
    rfl))
theorem W6_v1 : W6 m ρ c (Proc.devRef .tc main_v1) = Cert.Sage.srcv (F := Ideal) P1 := (W6_of_ne m ρ c main_v1 (by decide)).trans (W5_v1 m ρ c)
theorem W6_v3 : W6 m ρ c (Proc.devRef .tc main_v3) = Cert.Sage.dstv (F := Ideal) P1 := (W6_of_ne m ρ c main_v3 (by decide)).trans (W5_v3 m ρ c)
theorem W6_v12 : W6 m ρ c (Proc.devRef .tc main_v12) = Cert.Sage.cinvCol (F := Ideal) P1 := (W6_of_ne m ρ c main_v12 (by decide)).trans (W5_v12 m ρ c)
theorem W6_arg7 : W6 m ρ c (Proc.devRef .tc main_arg7) = P7 := (W6_of_ne m ρ c main_arg7 (by decide)).trans (W5_arg7 m ρ c)
theorem W6_arg8 : W6 m ρ c (Proc.devRef .tc main_arg8) = P8 := (W6_of_ne m ρ c main_arg8 (by decide)).trans (W5_arg8 m ρ c)
theorem W6_arg9 : W6 m ρ c (Proc.devRef .tc main_arg9) = P9 := (W6_of_ne m ρ c main_arg9 (by decide)).trans (W5_arg9 m ρ c)
theorem W6_arg10 : W6 m ρ c (Proc.devRef .tc main_arg10) = P10 := (W6_of_ne m ρ c main_arg10 (by decide)).trans (W5_arg10 m ρ c)
theorem W6_arg11 : W6 m ρ c (Proc.devRef .tc main_arg11) = P11 := (W6_of_ne m ρ c main_arg11 (by decide)).trans (W5_arg11 m ρ c)
theorem W6_arg12 : W6 m ρ c (Proc.devRef .tc main_arg12) = P12 := (W6_of_ne m ρ c main_arg12 (by decide)).trans (W5_arg12 m ρ c)
theorem W6_arg13 : W6 m ρ c (Proc.devRef .tc main_arg13) = P13 := (W6_of_ne m ρ c main_arg13 (by decide)).trans (W5_arg13 m ρ c)
theorem W6_arg14 : W6 m ρ c (Proc.devRef .tc main_arg14) = P14 := (W6_of_ne m ρ c main_arg14 (by decide)).trans (W5_arg14 m ρ c)

/-! ## After the stretch before the second linear stage -/

theorem W7_v54 : W7 m ρ c (Proc.devRef .tc main_v54) = Cert.Sage.meanK (F := Ideal) A1 P1 :=
  h2_v54 (W6 m ρ c) _ _ (W6_v42 m ρ c) (W6_v1 m ρ c) (W6_v3 m ρ c) (W6_v12 m ρ c)
theorem W7_v42 : W7 m ρ c (Proc.devRef .tc main_v42) = A1 := (h2_v42 (W6 m ρ c)).trans (W6_v42 m ρ c)
theorem W7_v55 : W7 m ρ c (Proc.devRef .tc main_v55) = Cert.Sage.wT128 (F := Ideal) P7 := (h2_v55 (W6 m ρ c)).trans (by rw [W6_arg7 m ρ c])
theorem W7_v56 : W7 m ρ c (Proc.devRef .tc main_v56) = Cert.Sage.wT128 (F := Ideal) P8 := (h2_v56 (W6 m ρ c)).trans (by rw [W6_arg8 m ρ c])
theorem W7_v57 : W7 m ρ c (Proc.devRef .tc main_v57) = Cert.Sage.bRow128 (F := Ideal) P9 := (h2_v57 (W6 m ρ c)).trans (by rw [W6_arg9 m ρ c])
theorem W7_v1 : W7 m ρ c (Proc.devRef .tc main_v1) = Cert.Sage.srcv (F := Ideal) P1 := (k2_v1 (W6 m ρ c)).trans (W6_v1 m ρ c)
theorem W7_v3 : W7 m ρ c (Proc.devRef .tc main_v3) = Cert.Sage.dstv (F := Ideal) P1 := (k2_v3 (W6 m ρ c)).trans (W6_v3 m ρ c)
theorem W7_v12 : W7 m ρ c (Proc.devRef .tc main_v12) = Cert.Sage.cinvCol (F := Ideal) P1 := (k2_v12 (W6 m ρ c)).trans (W6_v12 m ρ c)
theorem W7_arg10 : W7 m ρ c (Proc.devRef .tc main_arg10) = P10 := (k2_arg10 (W6 m ρ c)).trans (W6_arg10 m ρ c)
theorem W7_arg11 : W7 m ρ c (Proc.devRef .tc main_arg11) = P11 := (k2_arg11 (W6 m ρ c)).trans (W6_arg11 m ρ c)
theorem W7_arg12 : W7 m ρ c (Proc.devRef .tc main_arg12) = P12 := (k2_arg12 (W6 m ρ c)).trans (W6_arg12 m ρ c)
theorem W7_arg13 : W7 m ρ c (Proc.devRef .tc main_arg13) = P13 := (k2_arg13 (W6 m ρ c)).trans (W6_arg13 m ρ c)
theorem W7_arg14 : W7 m ρ c (Proc.devRef .tc main_arg14) = P14 := (k2_arg14 (W6 m ρ c)).trans (W6_arg14 m ρ c)

/-! ## After the second linear stage -/

theorem W8_v58 : W8 m ρ c (Proc.devRef .tc main_v58) = Y2 :=
  (W8_arr m ρ c 5).trans ((region2 (V7 m ρ) c).trans (by
    rw [show V7 m ρ c main_v54 = _ from W7_v54 m ρ c, show V7 m ρ c main_v42 = _ from W7_v42 m ρ c,
      show V7 m ρ c main_v55 = _ from W7_v55 m ρ c, show V7 m ρ c main_v56 = _ from W7_v56 m ρ c,
      show V7 m ρ c main_v57 = _ from W7_v57 m ρ c]
    rfl))
theorem W8_v1 : W8 m ρ c (Proc.devRef .tc main_v1) = Cert.Sage.srcv (F := Ideal) P1 := (W8_of_ne m ρ c main_v1 (by decide)).trans (W7_v1 m ρ c)
theorem W8_v3 : W8 m ρ c (Proc.devRef .tc main_v3) = Cert.Sage.dstv (F := Ideal) P1 := (W8_of_ne m ρ c main_v3 (by decide)).trans (W7_v3 m ρ c)
theorem W8_v12 : W8 m ρ c (Proc.devRef .tc main_v12) = Cert.Sage.cinvCol (F := Ideal) P1 := (W8_of_ne m ρ c main_v12 (by decide)).trans (W7_v12 m ρ c)
theorem W8_arg10 : W8 m ρ c (Proc.devRef .tc main_arg10) = P10 := (W8_of_ne m ρ c main_arg10 (by decide)).trans (W7_arg10 m ρ c)
theorem W8_arg11 : W8 m ρ c (Proc.devRef .tc main_arg11) = P11 := (W8_of_ne m ρ c main_arg11 (by decide)).trans (W7_arg11 m ρ c)
theorem W8_arg12 : W8 m ρ c (Proc.devRef .tc main_arg12) = P12 := (W8_of_ne m ρ c main_arg12 (by decide)).trans (W7_arg12 m ρ c)
theorem W8_arg13 : W8 m ρ c (Proc.devRef .tc main_arg13) = P13 := (W8_of_ne m ρ c main_arg13 (by decide)).trans (W7_arg13 m ρ c)
theorem W8_arg14 : W8 m ρ c (Proc.devRef .tc main_arg14) = P14 := (W8_of_ne m ρ c main_arg14 (by decide)).trans (W7_arg14 m ρ c)

/-! ## After the mean, the variance and the rows (the second normalise-and-clamp stage's entry) -/

theorem W11_v58 : W11 m ρ c (Proc.devRef .tc main_v58) = Y2 := (h3_v58 (W8 m ρ c)).trans (W8_v58 m ρ c)
theorem W11_v67 : W11 m ρ c (Proc.devRef .tc main_v67) = Cert.Sage.scaleRow (F := Ideal) Y2 P10 :=
  (h3_v67 (W8 m ρ c)).trans (by rw [W8_v58 m ρ c, W8_arg10 m ρ c])
theorem W11_v71 : W11 m ρ c (Proc.devRef .tc main_v71) = Cert.Sage.shiftRow (F := Ideal) Y2 P10 P11 :=
  (h3_v71 (W8 m ρ c)).trans (by rw [W8_v58 m ρ c, W8_arg10 m ρ c, W8_arg11 m ρ c])
theorem W11_v1 : W11 m ρ c (Proc.devRef .tc main_v1) = Cert.Sage.srcv (F := Ideal) P1 := (kB_v1 (W8 m ρ c)).trans (W8_v1 m ρ c)
theorem W11_v3 : W11 m ρ c (Proc.devRef .tc main_v3) = Cert.Sage.dstv (F := Ideal) P1 := (kB_v3 (W8 m ρ c)).trans (W8_v3 m ρ c)
theorem W11_v12 : W11 m ρ c (Proc.devRef .tc main_v12) = Cert.Sage.cinvCol (F := Ideal) P1 := (kB_v12 (W8 m ρ c)).trans (W8_v12 m ρ c)
theorem W11_arg12 : W11 m ρ c (Proc.devRef .tc main_arg12) = P12 := (kB_arg12 (W8 m ρ c)).trans (W8_arg12 m ρ c)
theorem W11_arg13 : W11 m ρ c (Proc.devRef .tc main_arg13) = P13 := (kB_arg13 (W8 m ρ c)).trans (W8_arg13 m ρ c)
theorem W11_arg14 : W11 m ρ c (Proc.devRef .tc main_arg14) = P14 := (kB_arg14 (W8 m ρ c)).trans (W8_arg14 m ρ c)

/-! ## After the second normalise-and-clamp stage -/

theorem W12_v72 : W12 m ρ c (Proc.devRef .tc main_v72) = A2 :=
  (W12_arr m ρ c 3).trans ((region3 (V11 m ρ) c).trans (by
    rw [show V11 m ρ c main_v58 = _ from W11_v58 m ρ c, show V11 m ρ c main_v67 = _ from W11_v67 m ρ c,
      show V11 m ρ c main_v71 = _ from W11_v71 m ρ c]
    rfl))
theorem W12_v1 : W12 m ρ c (Proc.devRef .tc main_v1) = Cert.Sage.srcv (F := Ideal) P1 := (W12_of_ne m ρ c main_v1 (by decide)).trans (W11_v1 m ρ c)
theorem W12_v3 : W12 m ρ c (Proc.devRef .tc main_v3) = Cert.Sage.dstv (F := Ideal) P1 := (W12_of_ne m ρ c main_v3 (by decide)).trans (W11_v3 m ρ c)
theorem W12_v12 : W12 m ρ c (Proc.devRef .tc main_v12) = Cert.Sage.cinvCol (F := Ideal) P1 := (W12_of_ne m ρ c main_v12 (by decide)).trans (W11_v12 m ρ c)
theorem W12_arg12 : W12 m ρ c (Proc.devRef .tc main_arg12) = P12 := (W12_of_ne m ρ c main_arg12 (by decide)).trans (W11_arg12 m ρ c)
theorem W12_arg13 : W12 m ρ c (Proc.devRef .tc main_arg13) = P13 := (W12_of_ne m ρ c main_arg13 (by decide)).trans (W11_arg13 m ρ c)
theorem W12_arg14 : W12 m ρ c (Proc.devRef .tc main_arg14) = P14 := (W12_of_ne m ρ c main_arg14 (by decide)).trans (W11_arg14 m ρ c)

/-! ## After the stretch before the third linear stage -/

theorem W13_v84 : W13 m ρ c (Proc.devRef .tc main_v84) = Cert.Sage.meanK (F := Ideal) A2 P1 :=
  h4_v84 (W12 m ρ c) _ _ (W12_v72 m ρ c) (W12_v1 m ρ c) (W12_v3 m ρ c) (W12_v12 m ρ c)
theorem W13_v72 : W13 m ρ c (Proc.devRef .tc main_v72) = A2 := (h4_v72 (W12 m ρ c)).trans (W12_v72 m ρ c)
theorem W13_v85 : W13 m ρ c (Proc.devRef .tc main_v85) = Cert.Sage.wT64 (F := Ideal) P12 := (h4_v85 (W12 m ρ c)).trans (by rw [W12_arg12 m ρ c])
theorem W13_v86 : W13 m ρ c (Proc.devRef .tc main_v86) = Cert.Sage.wT64 (F := Ideal) P13 := (h4_v86 (W12 m ρ c)).trans (by rw [W12_arg13 m ρ c])
theorem W13_v87 : W13 m ρ c (Proc.devRef .tc main_v87) = Cert.Sage.bRow64 (F := Ideal) P14 := (h4_v87 (W12 m ρ c)).trans (by rw [W12_arg14 m ρ c])

end Chain

/-! ## The result buffer -/

/-- The third linear stage's output array is the kernel's result: the three layers composed. -/
theorem W14_out (c : Dev nD) : W14 (F := Ideal) m ρ c (Proc.devRef .tc main_v88)
    = Cert.Sage.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (W14_arr m ρ c 5).trans ((region4 (V13 m ρ) c).trans (by
    rw [show V13 m ρ c main_v84 = _ from W13_v84 m ρ c, show V13 m ρ c main_v72 = _ from W13_v72 m ρ c,
      show V13 m ρ c main_v85 = _ from W13_v85 m ρ c, show V13 m ρ c main_v86 = _ from W13_v86 m ρ c,
      show V13 m ρ c main_v87 = _ from W13_v87 m ρ c]
    rfl))

end Cert.KernelIdeal.KerRun

end
-- ==== Proof.LibFoldAppend.lean ====
/-
  A fold of host operations over a concatenation of two lists is the fold over the first list followed by the fold
  over the second: the contents after a line are the contents after its stretches, composed.
-/
import Idealize.ShloMosaic.Lib.StableHlo.Run

namespace LibFoldAppend

open Idealize.ShloMosaic Idealize.ShloMosaic.StableHlo

variable {nD : Nat} {τ : Topo} {sig : RefSig} {Val : EltTy → Type}

/-- Folding over `l₁ ++ l₂` from `V` is folding over `l₂` from the fold over `l₁`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end LibFoldAppend
-- ==== Proof.RefRunOps.lean ====
/-
  The reference program's @main as a list of host operations, and its run read back.

  @main is printed in three windows; the calls to the outlined functions (the variance, which itself calls the
  selection; the clamp at zero) are listed inline at their call sites over the call's buffer record, which is what
  unfolding the callee's body does.  The list is cut at the windows' ends and, inside the second window, around the
  two clamps, so that the same pieces regroup into the network's three layers:
    layer 1 = opsA ++ opsB1,  layer 2 = opsB2 ++ opsB3,  layer 3 = opsB4 ++ opsC.
  Every weakly fair execution of @main ends with each buffer at the fold of the operations over the launch contents.
-/
import proofs.«127429_j19473381720256_1_alg».proof.ReferenceIdeal
import proofs.«127429_j19473381720256_1_alg».proof.Proof.Gen.ReferenceIdeal
import Idealize.ShloMosaic.Lib.StableHlo.Run
import proofs.«127429_j19473381720256_1_alg».proof.Proof.LibFoldAppend

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Window 0: the edge columns, layer 1's neighbour mean, linear stage, column moments and normalisation (before the clamp). -/
abbrev opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    StableHlo.unary main_arg2 main_v23 ((transpose S128x128 [1, 0] · transposes_S128x128_S128x128_1_0) : (⟨S128x128, .f32⟩ : BufTy).Contents (Elt F) → (⟨S128x128, .f32⟩ : BufTy).Contents (Elt F)),
    StableHlo.binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v25 ((transpose S128x128 [1, 0] · transposes_S128x128_S128x128_1_0) : (⟨S128x128, .f32⟩ : BufTy).Contents (Elt F) → (⟨S128x128, .f32⟩ : BufTy).Contents (Elt F)),
    StableHlo.binary main_arg0 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v24 main_v26 main_v27 (addf : (⟨S50000x128, .f32⟩ : BufTy).Contents (Elt F) → (⟨S50000x128, .f32⟩ : BufTy).Contents (Elt F) → (⟨S50000x128, .f32⟩ : BufTy).Contents (Elt F)),
    StableHlo.unary main_arg4 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v29 main_v30 (addf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x00000000#32),
    StableHlo.binary main_v30 main_cst_4 main_v31 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v32 (broadcastInDim S128 ![] bcast_S_S128 : (⟨S_, .f32⟩ : BufTy).Contents (Elt F) → (⟨S128, .f32⟩ : BufTy).Contents (Elt F)),
    StableHlo.binary main_v31 main_v32 main_v33 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    StableHlo.TRef.nullary main_call0.cst (constant S_ .f32 0x00000000#32),
    StableHlo.TRef.binary (.of main_v30 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v30 : StableHlo.TRef sig ⟨S50000x128, .f32⟩) main_call0.v4 main_call0.v5 subf,
    StableHlo.TRef.binary main_call0.v5 main_call0.v5 main_call0.v6 mulf,
    StableHlo.TRef.unary (.of main_c_6 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v33 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v36 main_v37 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v38 (broadcastInDim S128 ![] bcast_S_S128 : (⟨S_, .f32⟩ : BufTy).Contents (Elt F) → (⟨S128, .f32⟩ : BufTy).Contents (Elt F)),
    StableHlo.binary main_v34 main_v38 main_v39 (addf : (⟨S128, .f32⟩ : BufTy).Contents (Elt F) → (⟨S128, .f32⟩ : BufTy).Contents (Elt F) → (⟨S128, .f32⟩ : BufTy).Contents (Elt F)),
    StableHlo.unary main_v39 main_v40 (Host.rsqrt : (⟨S128, .f32⟩ : BufTy).Contents (Elt F) → (⟨S128, .f32⟩ : BufTy).Contents (Elt F)),
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v42 main_v43 (mulf : (⟨S50000x128, .f32⟩ : BufTy).Contents (Elt F) → (⟨S50000x128, .f32⟩ : BufTy).Contents (Elt F) → (⟨S50000x128, .f32⟩ : BufTy).Contents (Elt F)),
    StableHlo.unary main_arg5 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (mulf : (⟨S50000x128, .f32⟩ : BufTy).Contents (Elt F) → (⟨S50000x128, .f32⟩ : BufTy).Contents (Elt F) → (⟨S50000x128, .f32⟩ : BufTy).Contents (Elt F)),
    StableHlo.unary main_arg6 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)) ]

/-- Layer 1's clamp at zero. -/
abbrev opsB1 : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (.of main_v49 : StableHlo.TRef sig ⟨S50000x128, .f32⟩) main_call1.v0 main_call1.v1 maximumf ]

/-- Layer 2 up to its normalisation (before the clamp). -/
abbrev opsB2 : List (HloOp τ sig (Elt F)) :=
  [ StableHlo.nullary main_c_8 (constantI S_ 32 0#32),
    StableHlo.unary main_c_8 main_v51 (broadcastInDim S800000 ![] bcast_S_S800000 : (⟨S_, .i32⟩ : BufTy).Contents (Elt F) → (⟨S800000, .i32⟩ : BufTy).Contents (Elt F)),
    StableHlo.binary main_v1 main_v51 main_v52 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v53 (broadcastInDim S800000 ![] bcast_S_S800000 : (⟨S_, .i32⟩ : BufTy).Contents (Elt F) → (⟨S800000, .i32⟩ : BufTy).Contents (Elt F)),
    StableHlo.binary main_v1 main_v53 main_v54 (addi : (⟨S800000, .i32⟩ : BufTy).Contents (Elt F) → (⟨S800000, .i32⟩ : BufTy).Contents (Elt F) → (⟨S800000, .i32⟩ : BufTy).Contents (Elt F)),
    StableHlo.ternary main_v52 main_v54 main_v1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v55 main_v56 (broadcastInDim S800000x1 ![0] bcast_S800000_S800000x1_0 : (⟨S800000, .i32⟩ : BufTy).Contents (Elt F) → (⟨S800000x1, .i32⟩ : BufTy).Contents (Elt F)),
    StableHlo.binary main_v50 main_v56 main_v57 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_10 (constant S_ .f32 0x00000000#32),
    StableHlo.unary main_cst_10 main_v58 (broadcastInDim S50000x128 ![] bcast_S_S50000x128 : (⟨S_, .f32⟩ : BufTy).Contents (Elt F) → (⟨S50000x128, .f32⟩ : BufTy).Contents (Elt F)),
    StableHlo.unary main_v3 main_v59 (broadcastInDim S800000x1 ![0] bcast_S800000_S800000x1_0 : (⟨S800000, .i32⟩ : BufTy).Contents (Elt F) → (⟨S800000x1, .i32⟩ : BufTy).Contents (Elt F)),
    StableHlo.ternary main_v58 main_v59 main_v57 main_v60 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_11 (constant S_ .f32 0x3F800000#32),
    StableHlo.unary main_cst_11 main_v61 (broadcastInDim S800000 ![] bcast_S_S800000 : (⟨S_, .f32⟩ : BufTy).Contents (Elt F) → (⟨S800000, .f32⟩ : BufTy).Contents (Elt F)),
    StableHlo.nullary main_cst_12 (constant S_ .f32 0x00000000#32),
    StableHlo.unary main_cst_12 main_v62 (broadcastInDim S50000 ![] bcast_S_S50000 : (⟨S_, .f32⟩ : BufTy).Contents (Elt F) → (⟨S50000, .f32⟩ : BufTy).Contents (Elt F)),
    StableHlo.unary main_v3 main_v63 (broadcastInDim S800000x1 ![0] bcast_S800000_S800000x1_0 : (⟨S800000, .i32⟩ : BufTy).Contents (Elt F) → (⟨S800000x1, .i32⟩ : BufTy).Contents (Elt F)),
    StableHlo.ternary main_v62 main_v63 main_v61 main_v64 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_13 (constant S_ .f32 0x3F800000#32),
    StableHlo.unary main_cst_13 main_v65 (broadcastInDim S50000 ![] bcast_S_S50000 : (⟨S_, .f32⟩ : BufTy).Contents (Elt F) → (⟨S50000, .f32⟩ : BufTy).Contents (Elt F)),
    StableHlo.binary main_v64 main_v65 main_v66 (maximumf : (⟨S50000, .f32⟩ : BufTy).Contents (Elt F) → (⟨S50000, .f32⟩ : BufTy).Contents (Elt F) → (⟨S50000, .f32⟩ : BufTy).Contents (Elt F)),
    StableHlo.unary main_v66 main_v67 (broadcastInDim S50000x1 ![0] bcast_S50000_S50000x1_0 : (⟨S50000, .f32⟩ : BufTy).Contents (Elt F) → (⟨S50000x1, .f32⟩ : BufTy).Contents (Elt F)),
    StableHlo.unary main_v67 main_v68 (broadcastInDim S50000x128 ![0, 1] bcast_S50000x1_S50000x128_0_1 : (⟨S50000x1, .f32⟩ : BufTy).Contents (Elt F) → (⟨S50000x128, .f32⟩ : BufTy).Contents (Elt F)),
    StableHlo.binary main_v60 main_v68 main_v69 (Host.divf : (⟨S50000x128, .f32⟩ : BufTy).Contents (Elt F) → (⟨S50000x128, .f32⟩ : BufTy).Contents (Elt F) → (⟨S50000x128, .f32⟩ : BufTy).Contents (Elt F)),
    StableHlo.unary main_arg7 main_v70 ((transpose S128x128 [1, 0] · transposes_S128x128_S128x128_1_0) : (⟨S128x128, .f32⟩ : BufTy).Contents (Elt F) → (⟨S128x128, .f32⟩ : BufTy).Contents (Elt F)),
    StableHlo.binary main_v69 main_v70 main_v71 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v72 ((transpose S128x128 [1, 0] · transposes_S128x128_S128x128_1_0) : (⟨S128x128, .f32⟩ : BufTy).Contents (Elt F) → (⟨S128x128, .f32⟩ : BufTy).Contents (Elt F)),
    StableHlo.binary main_v50 main_v72 main_v73 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v71 main_v73 main_v74 (addf : (⟨S50000x128, .f32⟩ : BufTy).Contents (Elt F) → (⟨S50000x128, .f32⟩ : BufTy).Contents (Elt F) → (⟨S50000x128, .f32⟩ : BufTy).Contents (Elt F)),
    StableHlo.unary main_arg9 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v76 main_v77 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v77 main_cst_14 main_v78 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v79 (broadcastInDim S128 ![] bcast_S_S128 : (⟨S_, .f32⟩ : BufTy).Contents (Elt F) → (⟨S128, .f32⟩ : BufTy).Contents (Elt F)),
    StableHlo.binary main_v78 main_v79 main_v80 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call2.cst (constant S_ .f32 0x00000000#32),
    StableHlo.TRef.binary (.of main_v77 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v77 : StableHlo.TRef sig ⟨S50000x128, .f32⟩) main_call2.v4 main_call2.v5 subf,
    StableHlo.TRef.binary main_call2.v5 main_call2.v5 main_call2.v6 mulf,
    StableHlo.TRef.unary (.of main_c_16 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v80 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v77 main_v83 main_v84 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v85 (broadcastInDim S128 ![] bcast_S_S128 : (⟨S_, .f32⟩ : BufTy).Contents (Elt F) → (⟨S128, .f32⟩ : BufTy).Contents (Elt F)),
    StableHlo.binary main_v81 main_v85 main_v86 (addf : (⟨S128, .f32⟩ : BufTy).Contents (Elt F) → (⟨S128, .f32⟩ : BufTy).Contents (Elt F) → (⟨S128, .f32⟩ : BufTy).Contents (Elt F)),
    StableHlo.unary main_v86 main_v87 (Host.rsqrt : (⟨S128, .f32⟩ : BufTy).Contents (Elt F) → (⟨S128, .f32⟩ : BufTy).Contents (Elt F)),
    StableHlo.unary main_v87 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v89 main_v90 (mulf : (⟨S50000x128, .f32⟩ : BufTy).Contents (Elt F) → (⟨S50000x128, .f32⟩ : BufTy).Contents (Elt F) → (⟨S50000x128, .f32⟩ : BufTy).Contents (Elt F)),
    StableHlo.unary main_arg10 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v90 main_v92 main_v93 (mulf : (⟨S50000x128, .f32⟩ : BufTy).Contents (Elt F) → (⟨S50000x128, .f32⟩ : BufTy).Contents (Elt F) → (⟨S50000x128, .f32⟩ : BufTy).Contents (Elt F)),
    StableHlo.unary main_arg11 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v95 main_v96 (addf : (⟨S50000x128, .f32⟩ : BufTy).Contents (Elt F) → (⟨S50000x128, .f32⟩ : BufTy).Contents (Elt F) → (⟨S50000x128, .f32⟩ : BufTy).Contents (Elt F)) ]

/-- Layer 2's clamp at zero. -/
abbrev opsB3 : List (HloOp τ sig (Elt F)) :=
  [ StableHlo.TRef.nullary main_call3.cst (constant S_ .f32 0x00000000#32),
    StableHlo.TRef.unary main_call3.cst main_call3.v0 (broadcastInDim S50000x128 ![] bcast_S_S50000x128),
    StableHlo.TRef.binary (.of main_v96 : StableHlo.TRef sig ⟨S50000x128, .f32⟩) main_call3.v0 main_call3.v1 maximumf ]

/-- The first two operations of layer 3 (the zero the sources are compared with). -/
abbrev opsB4 : List (HloOp τ sig (Elt F)) :=
  [ StableHlo.nullary main_c_18 (constantI S_ 32 0#32),
    StableHlo.unary main_c_18 main_v98 (broadcastInDim S800000 ![] bcast_S_S800000 : (⟨S_, .i32⟩ : BufTy).Contents (Elt F) → (⟨S800000, .i32⟩ : BufTy).Contents (Elt F)) ]

/-- Window 2: the rest of layer 3. -/
abbrev opsC : List (HloOp τ sig (Elt F)) :=
  [ StableHlo.binary main_v1 main_v98 main_v99 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v100 (broadcastInDim S800000 ![] bcast_S_S800000 : (⟨S_, .i32⟩ : BufTy).Contents (Elt F) → (⟨S800000, .i32⟩ : BufTy).Contents (Elt F)),
    StableHlo.binary main_v1 main_v100 main_v101 (addi : (⟨S800000, .i32⟩ : BufTy).Contents (Elt F) → (⟨S800000, .i32⟩ : BufTy).Contents (Elt F) → (⟨S800000, .i32⟩ : BufTy).Contents (Elt F)),
    StableHlo.ternary main_v99 main_v101 main_v1 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v102 main_v103 (broadcastInDim S800000x1 ![0] bcast_S800000_S800000x1_0 : (⟨S800000, .i32⟩ : BufTy).Contents (Elt F) → (⟨S800000x1, .i32⟩ : BufTy).Contents (Elt F)),
    StableHlo.binary main_v97 main_v103 main_v104 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_20 (constant S_ .f32 0x00000000#32),
    StableHlo.unary main_cst_20 main_v105 (broadcastInDim S50000x128 ![] bcast_S_S50000x128 : (⟨S_, .f32⟩ : BufTy).Contents (Elt F) → (⟨S50000x128, .f32⟩ : BufTy).Contents (Elt F)),
    StableHlo.unary main_v3 main_v106 (broadcastInDim S800000x1 ![0] bcast_S800000_S800000x1_0 : (⟨S800000, .i32⟩ : BufTy).Contents (Elt F) → (⟨S800000x1, .i32⟩ : BufTy).Contents (Elt F)),
    StableHlo.ternary main_v105 main_v106 main_v104 main_v107 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_21 (constant S_ .f32 0x3F800000#32),
    StableHlo.unary main_cst_21 main_v108 (broadcastInDim S800000 ![] bcast_S_S800000 : (⟨S_, .f32⟩ : BufTy).Contents (Elt F) → (⟨S800000, .f32⟩ : BufTy).Contents (Elt F)),
    StableHlo.nullary main_cst_22 (constant S_ .f32 0x00000000#32),
    StableHlo.unary main_cst_22 main_v109 (broadcastInDim S50000 ![] bcast_S_S50000 : (⟨S_, .f32⟩ : BufTy).Contents (Elt F) → (⟨S50000, .f32⟩ : BufTy).Contents (Elt F)),
    StableHlo.unary main_v3 main_v110 (broadcastInDim S800000x1 ![0] bcast_S800000_S800000x1_0 : (⟨S800000, .i32⟩ : BufTy).Contents (Elt F) → (⟨S800000x1, .i32⟩ : BufTy).Contents (Elt F)),
    StableHlo.ternary main_v109 main_v110 main_v108 main_v111 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_23 (constant S_ .f32 0x3F800000#32),
    StableHlo.unary main_cst_23 main_v112 (broadcastInDim S50000 ![] bcast_S_S50000 : (⟨S_, .f32⟩ : BufTy).Contents (Elt F) → (⟨S50000, .f32⟩ : BufTy).Contents (Elt F)),
    StableHlo.binary main_v111 main_v112 main_v113 (maximumf : (⟨S50000, .f32⟩ : BufTy).Contents (Elt F) → (⟨S50000, .f32⟩ : BufTy).Contents (Elt F) → (⟨S50000, .f32⟩ : BufTy).Contents (Elt F)),
    StableHlo.unary main_v113 main_v114 (broadcastInDim S50000x1 ![0] bcast_S50000_S50000x1_0 : (⟨S50000, .f32⟩ : BufTy).Contents (Elt F) → (⟨S50000x1, .f32⟩ : BufTy).Contents (Elt F)),
    StableHlo.unary main_v114 main_v115 (broadcastInDim S50000x128 ![0, 1] bcast_S50000x1_S50000x128_0_1 : (⟨S50000x1, .f32⟩ : BufTy).Contents (Elt F) → (⟨S50000x128, .f32⟩ : BufTy).Contents (Elt F)),
    StableHlo.binary main_v107 main_v115 main_v116 (Host.divf : (⟨S50000x128, .f32⟩ : BufTy).Contents (Elt F) → (⟨S50000x128, .f32⟩ : BufTy).Contents (Elt F) → (⟨S50000x128, .f32⟩ : BufTy).Contents (Elt F)),
    StableHlo.unary main_arg12 main_v117 ((transpose S128x64 [1, 0] · transposes_S64x128_S128x64_1_0) : (⟨S64x128, .f32⟩ : BufTy).Contents (Elt F) → (⟨S128x64, .f32⟩ : BufTy).Contents (Elt F)),
    StableHlo.binary main_v116 main_v117 main_v118 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg13 main_v119 ((transpose S128x64 [1, 0] · transposes_S64x128_S128x64_1_0) : (⟨S64x128, .f32⟩ : BufTy).Contents (Elt F) → (⟨S128x64, .f32⟩ : BufTy).Contents (Elt F)),
    StableHlo.binary main_v97 main_v119 main_v120 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v118 main_v120 main_v121 (addf : (⟨S50000x64, .f32⟩ : BufTy).Contents (Elt F) → (⟨S50000x64, .f32⟩ : BufTy).Contents (Elt F) → (⟨S50000x64, .f32⟩ : BufTy).Contents (Elt F)),
    StableHlo.unary main_arg14 main_v122 (broadcastInDim S1x64 ![1] bcast_S64_S1x64_1 : (⟨S64, .f32⟩ : BufTy).Contents (Elt F) → (⟨S1x64, .f32⟩ : BufTy).Contents (Elt F)),
    StableHlo.unary main_v122 main_v123 (broadcastInDim S50000x64 ![0, 1] bcast_S1x64_S50000x64_0_1 : (⟨S1x64, .f32⟩ : BufTy).Contents (Elt F) → (⟨S50000x64, .f32⟩ : BufTy).Contents (Elt F)),
    StableHlo.binary main_v121 main_v123 main_v124 (addf : (⟨S50000x64, .f32⟩ : BufTy).Contents (Elt F) → (⟨S50000x64, .f32⟩ : BufTy).Contents (Elt F) → (⟨S50000x64, .f32⟩ : BufTy).Contents (Elt F)) ]

/-- The whole line, cut as the program is cut. -/
abbrev ops : List (HloOp τ sig (Elt F)) := opsA ++ ((opsB1 ++ (opsB2 ++ (opsB3 ++ opsB4))) ++ opsC)

-- each window is one chain of steps once the callees' bodies are unfolded and sequencing is reassociated
set_option maxRecDepth 4096 in
theorem part0_eq (c : Dev nD) : main_part0 (F := F) c = seq opsA := by
  simp only [main_part0, fn_var.body, fn_where.body, seq, bind_assoc, pure_bind]
  rfl

set_option maxRecDepth 4096 in
theorem part1_eq (c : Dev nD) : main_part1 (F := F) c = seq (opsB1 ++ (opsB2 ++ (opsB3 ++ opsB4))) := by
  simp only [main_part1, fn_var.body, fn_where.body, fn_relu.body, seq, bind_assoc, pure_bind, List.cons_append, List.nil_append]
  rfl

set_option maxRecDepth 4096 in
theorem part2_eq (c : Dev nD) : main_part2 (F := F) c = seq opsC := by
  simp only [main_part2, seq, bind_assoc, pure_bind]

/-- @main is the straight line of the three windows' operations. -/
theorem main_eq (c : Dev nD) : main (F := F) c = seq ops := by
  rw [seq_append, seq_append, ← part0_eq c, ← part1_eq c, ← part2_eq c]
  rfl

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem opsB1_sub : (opsB1 : List (HloOp τ sig (Elt F))).Forall fun op => op.bufs ⊆ tcRefs τ sig :=
  ⟨nullary_bufs_sub .., unary_bufs_sub .., binary_bufs_sub ..⟩

theorem opsB2_sub : (opsB2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem opsB3_sub : (opsB3 : List (HloOp τ sig (Elt F))).Forall fun op => op.bufs ⊆ tcRefs τ sig :=
  ⟨nullary_bufs_sub .., unary_bufs_sub .., binary_bufs_sub ..⟩

theorem opsB4_sub : (opsB4 : List (HloOp τ sig (Elt F))).Forall fun op => op.bufs ⊆ tcRefs τ sig :=
  ⟨nullary_bufs_sub .., unary_bufs_sub ..⟩

theorem opsC_sub : (opsC : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub ..⟩

theorem forall_append {α : Type} {p : α → Prop} {l₁ l₂ : List α} (h₁ : l₁.Forall p) (h₂ : l₂.Forall p) : (l₁ ++ l₂).Forall p :=
  List.forall_iff_forall_mem.mpr fun a ha => (List.mem_append.mp ha).elim
    (List.forall_iff_forall_mem.mp h₁ a) (List.forall_iff_forall_mem.mp h₂ a)

theorem ops_sub : (ops : List (HloOp τ sig (Elt F))).Forall fun op => op.bufs ⊆ tcRefs τ sig :=
  forall_append opsA_sub (forall_append (forall_append opsB1_sub (forall_append opsB2_sub (forall_append opsB3_sub opsB4_sub))) opsC_sub)

/-- No operation of a literal piece leaves a buffer undetermined. -/
theorem opsA_fresh : ∀ op ∈ (opsA : List (HloOp τ sig (Elt F))), op.fresh = ∅ := by
  intro _ h; (repeat (cases h with | head => rfl | tail _ h => ?_)); exact nomatch h
theorem opsB1_fresh : ∀ op ∈ (opsB1 : List (HloOp τ sig (Elt F))), op.fresh = ∅ := by
  intro _ h; (repeat (cases h with | head => rfl | tail _ h => ?_)); exact nomatch h
theorem opsB2_fresh : ∀ op ∈ (opsB2 : List (HloOp τ sig (Elt F))), op.fresh = ∅ := by
  intro _ h; (repeat (cases h with | head => rfl | tail _ h => ?_)); exact nomatch h
theorem opsB3_fresh : ∀ op ∈ (opsB3 : List (HloOp τ sig (Elt F))), op.fresh = ∅ := by
  intro _ h; (repeat (cases h with | head => rfl | tail _ h => ?_)); exact nomatch h
theorem opsB4_fresh : ∀ op ∈ (opsB4 : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | ((h | h | h | h) | h)
  · exact opsA_fresh op h
  · exact opsB1_fresh op h
  · exact opsB2_fresh op h
  · exact opsB3_fresh op h
  · exact opsB4_fresh op h
  · exact opsC_fresh op h

theorem scopedRefs_eq : (Finset.univ.filter fun b : Ref sig .tc => b.isScoped) = ∅ := by decide
theorem scopedSems_eq : (Finset.univ.filter fun sm : SemLoc sig => sm.isScoped .tc) = ∅ := by decide

/-- From any memory with zero counters, every weakly fair execution of @main terminates, and every final state has each
    TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRunVal1.lean ====
/-
  What layer 1 of the reference leaves: read back through its 84 operations, the clamped normalised linear stage of
  the arguments, and the two edge vectors the later layers read again.
-/
import proofs.«127429_j19473381720256_1_alg».proof.Proof.RefRunOps
import proofs.«127429_j19473381720256_1_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

open Cert.Sage

set_option maxHeartbeats 4000000 in
set_option maxRecDepth 8192 in
/-- After layer 1 the buffer of %50 holds the first layer's output as a function of the arguments: every operation's
    result read back to the valuation the layer starts from, the composed term is the stage functions' by unfolding. -/
theorem valL1 (W : Valuation τ sig (Elt F)) :
    after opsB1 (after opsA W) (main_v50 : DevRef τ sig)
      = bnR (linR128 (meanR (W (main_arg0 : DevRef τ sig)) (W (main_arg1 : DevRef τ sig))) (W (main_arg0 : DevRef τ sig)) (W (main_arg2 : DevRef τ sig)) (W (main_arg3 : DevRef τ sig)) (W (main_arg4 : DevRef τ sig))) (W (main_arg5 : DevRef τ sig)) (W (main_arg6 : DevRef τ sig)) := by
  after_results_simp
  rfl

set_option maxHeartbeats 4000000 in
set_option maxRecDepth 8192 in
/-- After layer 1 the buffer of %1 holds the edges' sources. -/
theorem valL1_v1 (W : Valuation τ sig (Elt F)) :
    after opsB1 (after opsA W) (main_v1 : DevRef τ sig) = srcv (W (main_arg1 : DevRef τ sig)) := by
  after_results_simp
  rfl

set_option maxHeartbeats 4000000 in
set_option maxRecDepth 8192 in
/-- After layer 1 the buffer of %3 holds the edges' targets. -/
theorem valL1_v3 (W : Valuation τ sig (Elt F)) :
    after opsB1 (after opsA W) (main_v3 : DevRef τ sig) = dstv (W (main_arg1 : DevRef τ sig)) := by
  after_results_simp
  rfl

end Cert.ReferenceIdeal.RefRun

end
-- ==== Proof.RefRunVal2.lean ====
/-
  What layer 2 of the reference leaves: from any contents whose edge vectors are the sources and targets of an edge
  list, the clamped normalised linear stage of the previous layer's output.
-/
import proofs.«127429_j19473381720256_1_alg».proof.Proof.RefRunOps
import proofs.«127429_j19473381720256_1_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

open Cert.Sage

set_option maxHeartbeats 4000000 in
set_option maxRecDepth 8192 in
/-- After layer 2 the buffer of %97 holds the second layer's output as a function of the first layer's (the buffer of
    %50), the edge list whose rows the buffers of %1 and %3 hold, and the layer's five parameter arguments. -/
theorem valL2 (W : Valuation τ sig (Elt F)) (E : (⟨S2x800000, .i32⟩ : BufTy).Contents (Elt F))
    (hs : W (main_v1 : DevRef τ sig) = srcv E) (hd : W (main_v3 : DevRef τ sig) = dstv E) :
    after opsB3 (after opsB2 W) (main_v97 : DevRef τ sig)
      = bnR (linR128 (meanR (W (main_v50 : DevRef τ sig)) E) (W (main_v50 : DevRef τ sig)) (W (main_arg7 : DevRef τ sig)) (W (main_arg8 : DevRef τ sig)) (W (main_arg9 : DevRef τ sig))) (W (main_arg10 : DevRef τ sig)) (W (main_arg11 : DevRef τ sig)) := by
  after_results_simp
  simp only [hs, hd]
  rfl

end Cert.ReferenceIdeal.RefRun

end
-- ==== Proof.RefRunVal3.lean ====
/-
  The reference's third layer, read back from its run.

  After the operations of layer 3, the result buffer holds the linear stage at 64 output columns applied to the
  neighbour mean of the layer's input table and to the table itself, with the layer's two weight matrices and its bias:
  the operations of the window are, one by one, the stage definitions' own spellings, the edge list entering only
  through its two rows (the sources and the targets) computed in the first window.
-/
import proofs.«127429_j19473381720256_1_alg».proof.Proof.RefRunOps
import proofs.«127429_j19473381720256_1_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo
open Cert.Sage

variable {F : FTy → Type} [FloatOps F]

theorem valL3 (W : Valuation τ sig (Elt F)) (E : (⟨S2x800000, .i32⟩ : BufTy).Contents (Elt F))
    (hs : W (main_v1 : DevRef τ sig) = Cert.Sage.srcv E) (hd : W (main_v3 : DevRef τ sig) = Cert.Sage.dstv E) :
    after opsC (after opsB4 W) (main_v124 : DevRef τ sig)
      = Cert.Sage.linR64 (Cert.Sage.meanR (W (main_v97 : DevRef τ sig)) E) (W (main_v97 : DevRef τ sig)) (W (main_arg12 : DevRef τ sig)) (W (main_arg13 : DevRef τ sig)) (W (main_arg14 : DevRef τ sig)) := by
  after_results_simp
  rw [hs, hd]
  rfl

end Cert.ReferenceIdeal.RefRun

end
-- ==== Proof.RefRunKept0.lean ====
/-
  The reference's host operations never write a buffer allocated before them.

  Buffers are numbered in the order the program first names them: the fifteen arguments take the indices 0 to 14, and
  every operation writes one buffer, its result.  A buffer whose index lies below the indices of all the results of a
  list of operations is therefore written by none of them, and keeps its contents through the list.  This file has the
  one comparison that tells two such buffers apart.
-/
import proofs.«127429_j19473381720256_1_alg».proof.Proof.RefRunOps

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- A buffer whose index is below N is not a buffer whose index is at least N. -/
theorem ne_of_idx_lt {b y : Ref sig .tc} {N : ℕ} (hb : b.idx.val < N) (hy : N ≤ y.idx.val) :
    (b : DevRef τ sig) ≠ (y : DevRef τ sig) :=
  devRef_ne_of_ne fun e => by
    rw [e] at hb
    omega

end Cert.ReferenceIdeal.RefRun

end
-- ==== Proof.RefRunKeptA.lean ====
/-
  The first window of the reference's host program writes no buffer allocated before it: every result of its
  operations has an index of at least 15, so a buffer of index below 15 (one of the fifteen arguments) keeps its
  contents through the window.
-/
import proofs.«127429_j19473381720256_1_alg».proof.Proof.RefRunKept0

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- No operation of the first window writes a buffer of index below 15. -/
theorem kept_lt_opsA (V : Valuation τ sig (Elt F)) (b : Ref sig .tc) (h : b.idx.val < 15) :
    after opsA V (b : DevRef τ sig) = V (b : DevRef τ sig) :=
  after_of_forall_not_mem (b := Proc.devRef .tc b) _ _ (List.forall_iff_forall_mem.mp (by
    simp only [opsA, List.Forall, nullary_writes, unary_writes, binary_writes, ternary_writes, reshape_writes,
      Finset.mem_singleton]
    repeat' apply And.intro
    all_goals exact ne_of_idx_lt h (by decide)))

end Cert.ReferenceIdeal.RefRun

end
-- ==== Proof.RefRunKeptB.lean ====
/-
  The middle of the reference's host program (the clamp of layer 1, layer 2 before its clamp, the clamp of layer 2, and
  the first two operations of layer 3) writes no buffer of index below 19: every result there is allocated after the
  whole first window.  So the fifteen arguments (indices 0 to 14) and the two edge vectors computed at the start of the
  first window (indices 16 and 18) keep their contents through each of these four pieces.
-/
import proofs.«127429_j19473381720256_1_alg».proof.Proof.RefRunKept0

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- No operation of the clamp of layer 1 writes a buffer of index below 19. -/
theorem kept_lt_opsB1 (V : Valuation τ sig (Elt F)) (b : Ref sig .tc) (h : b.idx.val < 19) :
    after opsB1 V (b : DevRef τ sig) = V (b : DevRef τ sig) :=
  after_of_forall_not_mem (b := Proc.devRef .tc b) _ _ (List.forall_iff_forall_mem.mp (by
    simp only [opsB1, List.Forall, nullary_writes, unary_writes, binary_writes, ternary_writes, reshape_writes,
      Finset.mem_singleton]
    repeat' apply And.intro
    all_goals exact ne_of_idx_lt h (by decide)))

/-- No operation of layer 2 before its clamp writes a buffer of index below 19. -/
theorem kept_lt_opsB2 (V : Valuation τ sig (Elt F)) (b : Ref sig .tc) (h : b.idx.val < 19) :
    after opsB2 V (b : DevRef τ sig) = V (b : DevRef τ sig) :=
  after_of_forall_not_mem (b := Proc.devRef .tc b) _ _ (List.forall_iff_forall_mem.mp (by
    simp only [opsB2, List.Forall, nullary_writes, unary_writes, binary_writes, ternary_writes, reshape_writes,
      Finset.mem_singleton]
    repeat' apply And.intro
    all_goals exact ne_of_idx_lt h (by decide)))

/-- No operation of the clamp of layer 2 writes a buffer of index below 19. -/
theorem kept_lt_opsB3 (V : Valuation τ sig (Elt F)) (b : Ref sig .tc) (h : b.idx.val < 19) :
    after opsB3 V (b : DevRef τ sig) = V (b : DevRef τ sig) :=
  after_of_forall_not_mem (b := Proc.devRef .tc b) _ _ (List.forall_iff_forall_mem.mp (by
    simp only [opsB3, List.Forall, nullary_writes, unary_writes, binary_writes, ternary_writes, reshape_writes,
      Finset.mem_singleton]
    repeat' apply And.intro
    all_goals exact ne_of_idx_lt h (by decide)))

/-- Neither of the first two operations of layer 3 writes a buffer of index below 19. -/
theorem kept_lt_opsB4 (V : Valuation τ sig (Elt F)) (b : Ref sig .tc) (h : b.idx.val < 19) :
    after opsB4 V (b : DevRef τ sig) = V (b : DevRef τ sig) :=
  after_of_forall_not_mem (b := Proc.devRef .tc b) _ _ (List.forall_iff_forall_mem.mp (by
    simp only [opsB4, List.Forall, nullary_writes, unary_writes, binary_writes, ternary_writes, reshape_writes,
      Finset.mem_singleton]
    repeat' apply And.intro
    all_goals exact ne_of_idx_lt h (by decide)))

end Cert.ReferenceIdeal.RefRun

end
-- ==== Proof.RefRunKeptC.lean ====
/-
  The last window of the reference's host program writes no buffer of index below 19: every result there is allocated
  after the first two windows.
-/
import proofs.«127429_j19473381720256_1_alg».proof.Proof.RefRunKept0

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- No operation of the last window writes a buffer of index below 19. -/
theorem kept_lt_opsC (V : Valuation τ sig (Elt F)) (b : Ref sig .tc) (h : b.idx.val < 19) :
    after opsC V (b : DevRef τ sig) = V (b : DevRef τ sig) :=
  after_of_forall_not_mem (b := Proc.devRef .tc b) _ _ (List.forall_iff_forall_mem.mp (by
    simp only [opsC, List.Forall, nullary_writes, unary_writes, binary_writes, ternary_writes, reshape_writes,
      Finset.mem_singleton]
    repeat' apply And.intro
    all_goals exact ne_of_idx_lt h (by decide)))

end Cert.ReferenceIdeal.RefRun

end
-- ==== Proof.RefRunKept.lean ====
/-
  No operation of the reference's host program writes one of its fifteen argument buffers, and the two edge vectors
  computed at the start of the first window survive the middle of the program.

  The program's operations are cut into six pieces; each piece writes only buffers allocated at or after its own first
  result, so a buffer of smaller index keeps its contents through the piece.  An argument buffer (index below 15) is
  kept by every piece, hence by the whole program: the fold over a concatenation is the composition of the folds.  The
  sources' and the targets' vectors (indices 16 and 18) are results of the first window and are kept by the four pieces
  of the middle.
-/
import proofs.«127429_j19473381720256_1_alg».proof.Proof.RefRunKeptA
import proofs.«127429_j19473381720256_1_alg».proof.Proof.RefRunKeptB
import proofs.«127429_j19473381720256_1_alg».proof.Proof.RefRunKeptC
import proofs.«127429_j19473381720256_1_alg».proof.Proof.LibFoldAppend

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-! ## The argument buffers through each piece -/

/-- An argument buffer keeps its contents through the first window. -/
theorem kept_opsA (V : Valuation τ sig (Elt F)) (b : Ref sig .tc) (h1 : b.1 = .hbm) (h2 : b.2.val < 15) :
    after opsA V (b : DevRef τ sig) = V (b : DevRef τ sig) :=
  kept_lt_opsA V b h2

/-- An argument buffer keeps its contents through the clamp of layer 1. -/
theorem kept_opsB1 (V : Valuation τ sig (Elt F)) (b : Ref sig .tc) (h1 : b.1 = .hbm) (h2 : b.2.val < 15) :
    after opsB1 V (b : DevRef τ sig) = V (b : DevRef τ sig) :=
  kept_lt_opsB1 V b (Nat.lt_of_lt_of_le h2 (by decide))

/-- An argument buffer keeps its contents through layer 2 before its clamp. -/
theorem kept_opsB2 (V : Valuation τ sig (Elt F)) (b : Ref sig .tc) (h1 : b.1 = .hbm) (h2 : b.2.val < 15) :
    after opsB2 V (b : DevRef τ sig) = V (b : DevRef τ sig) :=
  kept_lt_opsB2 V b (Nat.lt_of_lt_of_le h2 (by decide))

/-- An argument buffer keeps its contents through the clamp of layer 2. -/
theorem kept_opsB3 (V : Valuation τ sig (Elt F)) (b : Ref sig .tc) (h1 : b.1 = .hbm) (h2 : b.2.val < 15) :
    after opsB3 V (b : DevRef τ sig) = V (b : DevRef τ sig) :=
  kept_lt_opsB3 V b (Nat.lt_of_lt_of_le h2 (by decide))

/-- An argument buffer keeps its contents through the first two operations of layer 3. -/
theorem kept_opsB4 (V : Valuation τ sig (Elt F)) (b : Ref sig .tc) (h1 : b.1 = .hbm) (h2 : b.2.val < 15) :
    after opsB4 V (b : DevRef τ sig) = V (b : DevRef τ sig) :=
  kept_lt_opsB4 V b (Nat.lt_of_lt_of_le h2 (by decide))

/-- An argument buffer keeps its contents through the last window. -/
theorem kept_opsC (V : Valuation τ sig (Elt F)) (b : Ref sig .tc) (h1 : b.1 = .hbm) (h2 : b.2.val < 15) :
    after opsC V (b : DevRef τ sig) = V (b : DevRef τ sig) :=
  kept_lt_opsC V b (Nat.lt_of_lt_of_le h2 (by decide))

/-! ## The edge vectors through the middle pieces -/

theorem kept_v1_opsB1 (V : Valuation τ sig (Elt F)) : after opsB1 V (main_v1 : DevRef τ sig) = V (main_v1 : DevRef τ sig) :=
  kept_lt_opsB1 V main_v1 (by decide)
theorem kept_v3_opsB1 (V : Valuation τ sig (Elt F)) : after opsB1 V (main_v3 : DevRef τ sig) = V (main_v3 : DevRef τ sig) :=
  kept_lt_opsB1 V main_v3 (by decide)
theorem kept_v1_opsB2 (V : Valuation τ sig (Elt F)) : after opsB2 V (main_v1 : DevRef τ sig) = V (main_v1 : DevRef τ sig) :=
  kept_lt_opsB2 V main_v1 (by decide)
theorem kept_v3_opsB2 (V : Valuation τ sig (Elt F)) : after opsB2 V (main_v3 : DevRef τ sig) = V (main_v3 : DevRef τ sig) :=
  kept_lt_opsB2 V main_v3 (by decide)
theorem kept_v1_opsB3 (V : Valuation τ sig (Elt F)) : after opsB3 V (main_v1 : DevRef τ sig) = V (main_v1 : DevRef τ sig) :=
  kept_lt_opsB3 V main_v1 (by decide)
theorem kept_v3_opsB3 (V : Valuation τ sig (Elt F)) : after opsB3 V (main_v3 : DevRef τ sig) = V (main_v3 : DevRef τ sig) :=
  kept_lt_opsB3 V main_v3 (by decide)
theorem kept_v1_opsB4 (V : Valuation τ sig (Elt F)) : after opsB4 V (main_v1 : DevRef τ sig) = V (main_v1 : DevRef τ sig) :=
  kept_lt_opsB4 V main_v1 (by decide)
theorem kept_v3_opsB4 (V : Valuation τ sig (Elt F)) : after opsB4 V (main_v3 : DevRef τ sig) = V (main_v3 : DevRef τ sig) :=
  kept_lt_opsB4 V main_v3 (by decide)

/-! ## The argument buffers through the whole program -/

/-- An argument buffer keeps its contents through the whole program. -/
theorem ops_kept (V : Valuation τ sig (Elt F)) (b : Ref sig .tc) (h1 : b.1 = .hbm) (h2 : b.2.val < 15) :
    after ops V (b : DevRef τ sig) = V (b : DevRef τ sig) := by
  have e1 : after (ops (F := F)) V = after ((opsB1 ++ (opsB2 ++ (opsB3 ++ opsB4))) ++ opsC) (after opsA V) :=
    LibFoldAppend.after_append _ _ _
  have e2 : after (((opsB1 (F := F)) ++ (opsB2 ++ (opsB3 ++ opsB4))) ++ opsC) (after opsA V)
      = after opsC (after (opsB1 ++ (opsB2 ++ (opsB3 ++ opsB4))) (after opsA V)) := LibFoldAppend.after_append _ _ _
  have e3 : after ((opsB1 (F := F)) ++ (opsB2 ++ (opsB3 ++ opsB4))) (after opsA V)
      = after (opsB2 ++ (opsB3 ++ opsB4)) (after opsB1 (after opsA V)) := LibFoldAppend.after_append _ _ _
  have e4 : after ((opsB2 (F := F)) ++ (opsB3 ++ opsB4)) (after opsB1 (after opsA V))
      = after (opsB3 ++ opsB4) (after opsB2 (after opsB1 (after opsA V))) := LibFoldAppend.after_append _ _ _
  have e5 : after ((opsB3 (F := F)) ++ opsB4) (after opsB2 (after opsB1 (after opsA V)))
      = after opsB4 (after opsB3 (after opsB2 (after opsB1 (after opsA V)))) := LibFoldAppend.after_append _ _ _
  rw [e1, e2, kept_opsC _ b h1 h2, e3, e4, e5, kept_opsB4 _ b h1 h2, kept_opsB3 _ b h1 h2, kept_opsB2 _ b h1 h2,
    kept_opsB1 _ b h1 h2, kept_opsA _ b h1 h2]

end Cert.ReferenceIdeal.RefRun

end
-- ==== Proof.RefRun.lean ====
/-
  The reference's run: every weakly fair execution of @main ends with the result buffer at the network's output as a
  function of the fifteen arguments, and with the arguments as launched.

  The operations' fold over the launch contents (RefRunOps) is read layer by layer: layer 1 leaves the first hidden
  array and the two edge vectors (RefRunVal1); layers 2 and 3 read those vectors again, so their values are stated
  from any contents holding an edge list's rows there (RefRunVal2, RefRunVal3); no operation writes an argument, nor
  does layer 2 write the edge vectors (RefRunKept).  Composing the three gives the nested stage functions of Spec.
-/
import proofs.«127429_j19473381720256_1_alg».proof.Proof.RefRunOps
import proofs.«127429_j19473381720256_1_alg».proof.Proof.RefRunVal1
import proofs.«127429_j19473381720256_1_alg».proof.Proof.RefRunVal2
import proofs.«127429_j19473381720256_1_alg».proof.Proof.RefRunVal3
import proofs.«127429_j19473381720256_1_alg».proof.Proof.RefRunKept
import proofs.«127429_j19473381720256_1_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

open Cert.Sage

/-- Layer 1 writes no argument. -/
theorem keptL1 (W : Valuation τ sig (Elt F)) (b : Ref sig .tc) (h1 : b.1 = .hbm) (h2 : b.2.val < 15) :
    after opsB1 (after opsA W) (b : DevRef τ sig) = W (b : DevRef τ sig) := by
  rw [kept_opsB1 _ b h1 h2, kept_opsA _ b h1 h2]

/-- Layer 2 writes no argument. -/
theorem keptL2 (W : Valuation τ sig (Elt F)) (b : Ref sig .tc) (h1 : b.1 = .hbm) (h2 : b.2.val < 15) :
    after opsB3 (after opsB2 W) (b : DevRef τ sig) = W (b : DevRef τ sig) := by
  rw [kept_opsB3 _ b h1 h2, kept_opsB2 _ b h1 h2]

/-- Layer 3 writes no argument. -/
theorem keptL3 (W : Valuation τ sig (Elt F)) (b : Ref sig .tc) (h1 : b.1 = .hbm) (h2 : b.2.val < 15) :
    after opsC (after opsB4 W) (b : DevRef τ sig) = W (b : DevRef τ sig) := by
  rw [kept_opsC _ b h1 h2, kept_opsB4 _ b h1 h2]

/-- The whole line as its three layers, one after the other. -/
theorem after_ops (V : Valuation τ sig (Elt F)) :
    after ops V = after opsC (after opsB4 (after opsB3 (after opsB2 (after opsB1 (after opsA V))))) := by
  simp only [ops, LibFoldAppend.after_append]

/-- No operation of the line writes an argument. -/
theorem args_kept (V : Valuation τ sig (Elt F)) (b : Ref sig .tc) (h1 : b.1 = .hbm) (h2 : b.2.val < 15) :
    after ops V (b : DevRef τ sig) = V (b : DevRef τ sig) := by
  rw [after_ops, keptL3 _ b h1 h2, keptL2 _ b h1 h2, keptL1 _ b h1 h2]

/-- The result buffer after the whole line: the three layers composed. -/
theorem out_eq (V : Valuation τ sig (Elt F)) :
    after ops V (main_v124 : DevRef τ sig) = outR (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  have hs1 := valL1_v1 V
  have hd1 := valL1_v3 V
  have hs2 : after opsB3 (after opsB2 (after opsB1 (after opsA V))) (main_v1 : DevRef τ sig) = srcv (V (main_arg1 : DevRef τ sig)) := by
    rw [kept_v1_opsB3, kept_v1_opsB2]; exact hs1
  have hd2 : after opsB3 (after opsB2 (after opsB1 (after opsA V))) (main_v3 : DevRef τ sig) = dstv (V (main_arg1 : DevRef τ sig)) := by
    rw [kept_v3_opsB3, kept_v3_opsB2]; exact hd1
  rw [after_ops, valL3 _ (V (main_arg1 : DevRef τ sig)) hs2 hd2, valL2 _ (V (main_arg1 : DevRef τ sig)) hs1 hd1, valL1 V,
    keptL2 _ main_arg12 rfl (by decide), keptL2 _ main_arg13 rfl (by decide), keptL2 _ main_arg14 rfl (by decide),
    keptL1 _ main_arg7 rfl (by decide), keptL1 _ main_arg8 rfl (by decide), keptL1 _ main_arg9 rfl (by decide),
    keptL1 _ main_arg10 rfl (by decide), keptL1 _ main_arg11 rfl (by decide), keptL1 _ main_arg12 rfl (by decide),
    keptL1 _ main_arg13 rfl (by decide), keptL1 _ main_arg14 rfl (by decide)]
  rfl

end Cert.ReferenceIdeal.RefRun

namespace Cert.ReferenceIdeal.RefRun
open Cert.ReferenceIdeal Idealize.ShloMosaic Idealize.ShloMosaic.TcCoe Idealize.SL.Sem Idealize.ShloMosaic.StableHlo
variable (m : (ℓ : Loc nD τ sig) → Buf (Elt Ideal) ℓ) (ρ : Dev nD → PrngReg)

/-- At the exact values, from any memory with zero counters: every weakly fair execution of @main terminates with the
    result buffer at the network's output of the arguments' launch contents, and the arguments unchanged. -/
theorem run : θ_run (defs (F := Ideal)) (onTc (τ := τ) (main (F := Ideal))) ⟨m, fun _ => 0, ρ⟩ (fun r => ∀ c : Dev nD,
    r.2.mem ((c.tc : Thread nD τ).loc main_v124) = Cert.Sage.outR (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
    ∧ ∀ b : Ref sig .tc, b.1 = .hbm → b.2.val < 15 → r.2.mem ((c.tc : Thread nD τ).loc b) = m ((c.tc : Thread nD τ).loc b)) :=
  (θ_run defs _ _).mono (fun _ h c => ⟨(h c main_v124).trans (out_eq (launchContents m c)),
      fun b h1 h2 => (h c b).trans (args_kept (launchContents m c) b h1 h2)⟩)
    (run_main m ρ)

end Cert.ReferenceIdeal.RefRun

end
-- ==== Proof.LibFiniteInputs.lean ====
/-
  A "finite inputs" precondition read back: an array every entry of which has |x| < +∞ is an array of real numbers.

  Such a precondition computes, for an array x, the conjunction over all entries of the comparison |x| < +∞ (the absolute
  value as max x (−x), +∞ as the f32 word 0x7F800000 broadcast to the array's shape, the conjunction as a reduce by 'and'
  over every axis from the constant 1). If that conjunction is 1 every comparison is 1; an extended real whose absolute
  value is below +∞ is neither −∞ (whose absolute value is +∞) nor +∞, so it is a real number.
-/
import proofs.«127429_j19473381720256_1_alg».proof.Proof.LibMoments
import Idealize.ShloMosaic.PureOps.Ideal
import Idealize.ShloMosaic.Lib.ReduceAll
import Idealize.ShloMosaic.Lib.ValueIdx

noncomputable section

namespace Cert.LibFiniteInputs

open Idealize.ShloMosaic

/-- The shape of a scalar. -/
abbrev S0 : Shape := ⟨0, ![]⟩

/-- The shape of a scalar has exactly one index. -/
instance subsingleton_scalar_idx : Subsingleton S0.Idx := ⟨fun a b => funext fun d => d.elim0⟩

/-- The word 0x7F800000 is +∞. -/
theorem posInf_val : Ideal.ofBits .f32 0x7F800000#32 = (⊤ : EReal) := by simp [Ideal.ofBits, Ideal.ieee]

/-- An extended real whose absolute value max x (−x) compares below +∞ is a real number: −∞ has absolute value +∞, and
    so has +∞. -/
theorem real_of_abs_lt (x : EReal) (h : Ideal.cmp .olt (max x (-x)) (Ideal.ofBits .f32 0x7F800000#32) = 1#1) :
    Moments.Fin' x := by
  rw [posInf_val] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => exact absurd hlt (by simp)
  | top => exact absurd hlt (by simp)
  | coe r => exact ⟨r, rfl⟩

/-- If the conjunction over a whole array of the comparisons |x| < +∞ is 1, every entry of the array is real. -/
theorem all_real {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu ValueIdx.ix0 = 1#1) (i : s.Idx) : Moments.Fin' (x i) :=
  real_of_abs_lt (x i) (Host.reduce_andi_all _ _ hr hu ValueIdx.ix0 e i)

end Cert.LibFiniteInputs

end
-- ==== Proof.PreReal.lean ====
/-
  The precondition read back: every float argument of the network is an array of real numbers.

  The precondition computes, for each of the fourteen float arguments, the conjunction over all its entries of the
  comparison |x| < +∞, and joins the fourteen one-bit results with 'and', nested to the left.  If the whole is 1 then each
  of the fourteen conjunctions is 1 ('and' of two bits is 1 only when both are), and an array whose conjunction is 1 has
  only real entries.
-/
import proofs.«127429_j19473381720256_1_alg».proof.Defs
import proofs.«127429_j19473381720256_1_alg».proof.Proof.Net
import proofs.«127429_j19473381720256_1_alg».proof.Proof.Gen.Pre_finite_inputs
import proofs.«127429_j19473381720256_1_alg».proof.Proof.Gen.KernelIdeal
import proofs.«127429_j19473381720256_1_alg».proof.Proof.LibFiniteInputs
import Idealize.ShloMosaic.Lib.Affine

noncomputable section

open Idealize.ShloMosaic Idealize.ShloMosaic.TcCoe Idealize.SL.Sem

namespace Cert.Sage

/-- An 'and' of two one-bit scalars that reads 1 has both operands reading 1. -/
theorem andi_scalar (a b : IVec Cert.LibFiniteInputs.S0 1) (h : andi a b ValueIdx.ix0 = 1#1) :
    a ValueIdx.ix0 = 1#1 ∧ b ValueIdx.ix0 = 1#1 :=
  IntOp.andi_eq_one.mp h

theorem pre_real [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
      AllReal (m ((c.tc : Thread Cert.KernelIdeal.nD Cert.KernelIdeal.τ).loc Cert.KernelIdeal.main_arg0))
      ∧ AllReal (m ((c.tc : Thread Cert.KernelIdeal.nD Cert.KernelIdeal.τ).loc Cert.KernelIdeal.main_arg2))
      ∧ AllReal (m ((c.tc : Thread Cert.KernelIdeal.nD Cert.KernelIdeal.τ).loc Cert.KernelIdeal.main_arg3))
      ∧ AllReal (m ((c.tc : Thread Cert.KernelIdeal.nD Cert.KernelIdeal.τ).loc Cert.KernelIdeal.main_arg4))
      ∧ AllReal (m ((c.tc : Thread Cert.KernelIdeal.nD Cert.KernelIdeal.τ).loc Cert.KernelIdeal.main_arg5))
      ∧ AllReal (m ((c.tc : Thread Cert.KernelIdeal.nD Cert.KernelIdeal.τ).loc Cert.KernelIdeal.main_arg6))
      ∧ AllReal (m ((c.tc : Thread Cert.KernelIdeal.nD Cert.KernelIdeal.τ).loc Cert.KernelIdeal.main_arg7))
      ∧ AllReal (m ((c.tc : Thread Cert.KernelIdeal.nD Cert.KernelIdeal.τ).loc Cert.KernelIdeal.main_arg8))
      ∧ AllReal (m ((c.tc : Thread Cert.KernelIdeal.nD Cert.KernelIdeal.τ).loc Cert.KernelIdeal.main_arg9))
      ∧ AllReal (m ((c.tc : Thread Cert.KernelIdeal.nD Cert.KernelIdeal.τ).loc Cert.KernelIdeal.main_arg10))
      ∧ AllReal (m ((c.tc : Thread Cert.KernelIdeal.nD Cert.KernelIdeal.τ).loc Cert.KernelIdeal.main_arg11))
      ∧ AllReal (m ((c.tc : Thread Cert.KernelIdeal.nD Cert.KernelIdeal.τ).loc Cert.KernelIdeal.main_arg12))
      ∧ AllReal (m ((c.tc : Thread Cert.KernelIdeal.nD Cert.KernelIdeal.τ).loc Cert.KernelIdeal.main_arg13))
      ∧ AllReal (m ((c.tc : Thread Cert.KernelIdeal.nD Cert.KernelIdeal.τ).loc Cert.KernelIdeal.main_arg14)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, r14⟩ := andi_scalar _ _ h0
  obtain ⟨h0, r13⟩ := andi_scalar _ _ h0
  obtain ⟨h0, r12⟩ := andi_scalar _ _ h0
  obtain ⟨h0, r11⟩ := andi_scalar _ _ h0
  obtain ⟨h0, r10⟩ := andi_scalar _ _ h0
  obtain ⟨h0, r9⟩ := andi_scalar _ _ h0
  obtain ⟨h0, r8⟩ := andi_scalar _ _ h0
  obtain ⟨h0, r7⟩ := andi_scalar _ _ h0
  obtain ⟨h0, r6⟩ := andi_scalar _ _ h0
  obtain ⟨h0, r5⟩ := andi_scalar _ _ h0
  obtain ⟨h0, r4⟩ := andi_scalar _ _ h0
  obtain ⟨h0, r3⟩ := andi_scalar _ _ h0
  obtain ⟨r0, r2⟩ := andi_scalar _ _ h0
  exact ⟨Cert.LibFiniteInputs.all_real _ _ _ _ r0, Cert.LibFiniteInputs.all_real _ _ _ _ r2,
    Cert.LibFiniteInputs.all_real _ _ _ _ r3, Cert.LibFiniteInputs.all_real _ _ _ _ r4,
    Cert.LibFiniteInputs.all_real _ _ _ _ r5, Cert.LibFiniteInputs.all_real _ _ _ _ r6,
    Cert.LibFiniteInputs.all_real _ _ _ _ r7, Cert.LibFiniteInputs.all_real _ _ _ _ r8,
    Cert.LibFiniteInputs.all_real _ _ _ _ r9, Cert.LibFiniteInputs.all_real _ _ _ _ r10,
    Cert.LibFiniteInputs.all_real _ _ _ _ r11, Cert.LibFiniteInputs.all_real _ _ _ _ r12,
    Cert.LibFiniteInputs.all_real _ _ _ _ r13, Cert.LibFiniteInputs.all_real _ _ _ _ r14⟩

end Cert.Sage

end
-- ==== Proof.lean ====
/-
  The certificate: a three-layer GraphSAGE network (neighbour mean, two matrix products and a bias per layer, a
  column normalisation and a clamp at zero between layers) computed by five block-wise kernels among host
  operations, against the same network in plain array operations.

  Frames.  The two kernel programs' frames are the generated ones.  The reference is host operations only: its run
  is read off the list of its operations, and the frame is that run with the result forgotten.

  Preservation.  The idealisation rewrote nothing, so there is nothing to state.

  Equal results.  The kernel program's run ends with every buffer at the fold of its fourteen segments; read back
  through the fold, the result buffer is the composition outK of the argument arrays (each block-wise stage leaves
  its entry formula in the whole output array; each host stretch is a stage function).  The reference's run ends at
  the composition outR.  Under the precondition every float argument is real, and on real arguments the two
  compositions are one function: the reciprocal of the clamped in-degree times the neighbour sum is the quotient,
  the matrix products have the same entries, and the two spellings of the normalisation agree on real numbers.
-/
import proofs.«127429_j19473381720256_1_alg».proof.Defs
import proofs.«127429_j19473381720256_1_alg».proof.Proof.Gen.Kernel
import proofs.«127429_j19473381720256_1_alg».proof.Proof.Gen.Kernel.Skeleton
import proofs.«127429_j19473381720256_1_alg».proof.Proof.Gen.Kernel.Launch
import proofs.«127429_j19473381720256_1_alg».proof.Proof.Gen.Kernel.Points
import proofs.«127429_j19473381720256_1_alg».proof.Proof.Gen.Kernel.Frame
import proofs.«127429_j19473381720256_1_alg».proof.Proof.Gen.KernelIdeal
import proofs.«127429_j19473381720256_1_alg».proof.Proof.Gen.KernelIdeal.Skeleton
import proofs.«127429_j19473381720256_1_alg».proof.Proof.Gen.KernelIdeal.Launch
import proofs.«127429_j19473381720256_1_alg».proof.Proof.Gen.KernelIdeal.Points
import proofs.«127429_j19473381720256_1_alg».proof.Proof.Gen.KernelIdeal.Frame
import proofs.«127429_j19473381720256_1_alg».proof.Proof.Gen.ReferenceIdeal
import proofs.«127429_j19473381720256_1_alg».proof.Proof.Gen.Pre_finite_inputs
import proofs.«127429_j19473381720256_1_alg».proof.Proof.Bridge
import proofs.«127429_j19473381720256_1_alg».proof.Proof.KerRun
import proofs.«127429_j19473381720256_1_alg».proof.Proof.RefRun
import proofs.«127429_j19473381720256_1_alg».proof.Proof.PreReal
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the idealised kernel program. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c =>
    ⟨(h c).2 Cert.ReferenceIdeal.main_arg0 rfl (by decide),
      (h c).2 Cert.ReferenceIdeal.main_arg1 rfl (by decide),
      (h c).2 Cert.ReferenceIdeal.main_arg2 rfl (by decide),
      (h c).2 Cert.ReferenceIdeal.main_arg3 rfl (by decide),
      (h c).2 Cert.ReferenceIdeal.main_arg4 rfl (by decide),
      (h c).2 Cert.ReferenceIdeal.main_arg5 rfl (by decide),
      (h c).2 Cert.ReferenceIdeal.main_arg6 rfl (by decide),
      (h c).2 Cert.ReferenceIdeal.main_arg7 rfl (by decide),
      (h c).2 Cert.ReferenceIdeal.main_arg8 rfl (by decide),
      (h c).2 Cert.ReferenceIdeal.main_arg9 rfl (by decide),
      (h c).2 Cert.ReferenceIdeal.main_arg10 rfl (by decide),
      (h c).2 Cert.ReferenceIdeal.main_arg11 rfl (by decide),
      (h c).2 Cert.ReferenceIdeal.main_arg12 rfl (by decide),
      (h c).2 Cert.ReferenceIdeal.main_arg13 rfl (by decide),
      (h c).2 Cert.ReferenceIdeal.main_arg14 rfl (by decide)⟩) (Cert.ReferenceIdeal.RefRun.run m ρ)

/-- From memories that agree on the arguments, the arguments real, both programs end with the same result: the
    kernel's composition of the argument arrays, which on real arguments is the reference's. -/
theorem algebraic : Cert.algebraic_KernelIdeal_ReferenceIdeal := by
  intro m ρ m' ρ' hpre hagree
  refine ⟨fun c => Cert.Sage.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono (fun _ h c =>
      ⟨(h c _ (Cert.KernelIdeal.Gen.mem_uc Cert.KernelIdeal.main_v88 (by decide))).trans (Cert.KernelIdeal.KerRun.W14_out m ρ c),
      (h c _ (Cert.KernelIdeal.Gen.mem_uc Cert.KernelIdeal.main_arg0 (by decide))).trans (Cert.KernelIdeal.Gen.W14_main_arg0 m ρ c),
      (h c _ (Cert.KernelIdeal.Gen.mem_uc Cert.KernelIdeal.main_arg1 (by decide))).trans (Cert.KernelIdeal.Gen.W14_main_arg1 m ρ c),
      (h c _ (Cert.KernelIdeal.Gen.mem_uc Cert.KernelIdeal.main_arg2 (by decide))).trans (Cert.KernelIdeal.Gen.W14_main_arg2 m ρ c),
      (h c _ (Cert.KernelIdeal.Gen.mem_uc Cert.KernelIdeal.main_arg3 (by decide))).trans (Cert.KernelIdeal.Gen.W14_main_arg3 m ρ c),
      (h c _ (Cert.KernelIdeal.Gen.mem_uc Cert.KernelIdeal.main_arg4 (by decide))).trans (Cert.KernelIdeal.Gen.W14_main_arg4 m ρ c),
      (h c _ (Cert.KernelIdeal.Gen.mem_uc Cert.KernelIdeal.main_arg5 (by decide))).trans (Cert.KernelIdeal.Gen.W14_main_arg5 m ρ c),
      (h c _ (Cert.KernelIdeal.Gen.mem_uc Cert.KernelIdeal.main_arg6 (by decide))).trans (Cert.KernelIdeal.Gen.W14_main_arg6 m ρ c),
      (h c _ (Cert.KernelIdeal.Gen.mem_uc Cert.KernelIdeal.main_arg7 (by decide))).trans (Cert.KernelIdeal.Gen.W14_main_arg7 m ρ c),
      (h c _ (Cert.KernelIdeal.Gen.mem_uc Cert.KernelIdeal.main_arg8 (by decide))).trans (Cert.KernelIdeal.Gen.W14_main_arg8 m ρ c),
      (h c _ (Cert.KernelIdeal.Gen.mem_uc Cert.KernelIdeal.main_arg9 (by decide))).trans (Cert.KernelIdeal.Gen.W14_main_arg9 m ρ c),
      (h c _ (Cert.KernelIdeal.Gen.mem_uc Cert.KernelIdeal.main_arg10 (by decide))).trans (Cert.KernelIdeal.Gen.W14_main_arg10 m ρ c),
      (h c _ (Cert.KernelIdeal.Gen.mem_uc Cert.KernelIdeal.main_arg11 (by decide))).trans (Cert.KernelIdeal.Gen.W14_main_arg11 m ρ c),
      (h c _ (Cert.KernelIdeal.Gen.mem_uc Cert.KernelIdeal.main_arg12 (by decide))).trans (Cert.KernelIdeal.Gen.W14_main_arg12 m ρ c),
      (h c _ (Cert.KernelIdeal.Gen.mem_uc Cert.KernelIdeal.main_arg13 (by decide))).trans (Cert.KernelIdeal.Gen.W14_main_arg13 m ρ c),
      (h c _ (Cert.KernelIdeal.Gen.mem_uc Cert.KernelIdeal.main_arg14 (by decide))).trans (Cert.KernelIdeal.Gen.W14_main_arg14 m ρ c)⟩) (Cert.KernelIdeal.KerRun.run_all m ρ)
  · refine (θ_run Cert.ReferenceIdeal.defs _ _).mono (fun _ h c =>
      ⟨(h c).1.trans ?_,
      (h c).2 Cert.ReferenceIdeal.main_arg0 rfl (by decide),
      (h c).2 Cert.ReferenceIdeal.main_arg1 rfl (by decide),
      (h c).2 Cert.ReferenceIdeal.main_arg2 rfl (by decide),
      (h c).2 Cert.ReferenceIdeal.main_arg3 rfl (by decide),
      (h c).2 Cert.ReferenceIdeal.main_arg4 rfl (by decide),
      (h c).2 Cert.ReferenceIdeal.main_arg5 rfl (by decide),
      (h c).2 Cert.ReferenceIdeal.main_arg6 rfl (by decide),
      (h c).2 Cert.ReferenceIdeal.main_arg7 rfl (by decide),
      (h c).2 Cert.ReferenceIdeal.main_arg8 rfl (by decide),
      (h c).2 Cert.ReferenceIdeal.main_arg9 rfl (by decide),
      (h c).2 Cert.ReferenceIdeal.main_arg10 rfl (by decide),
      (h c).2 Cert.ReferenceIdeal.main_arg11 rfl (by decide),
      (h c).2 Cert.ReferenceIdeal.main_arg12 rfl (by decide),
      (h c).2 Cert.ReferenceIdeal.main_arg13 rfl (by decide),
      (h c).2 Cert.ReferenceIdeal.main_arg14 rfl (by decide)⟩) (Cert.ReferenceIdeal.RefRun.run m' ρ')
    obtain ⟨a0, a1, a2, a3, a4, a5, a6, a7, a8, a9, a10, a11, a12, a13, a14⟩ := hagree c
    rw [a0, a1, a2, a3, a4, a5, a6, a7, a8, a9, a10, a11, a12, a13, a14]
    obtain ⟨r0, r2, r3, r4, r5, r6, r7, r8, r9, r10, r11, _, _, _⟩ := Cert.Sage.pre_real m hpre c
    exact (Cert.Sage.outK_eq_outR _ _ _ _ _ _ _ _ _ _ _ _ _ _ _ r0 r2 r3 r4 r5 r6 r7 r8 r9 r10 r11).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
